-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v261) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x3 : Shape := ⟨2, ![512, 3]⟩
abbrev S3 : Shape := ⟨1, ![3]⟩
abbrev S22x515x3 : Shape := ⟨3, ![22, 515, 3]⟩
abbrev S22x3 : Shape := ⟨2, ![22, 3]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_
  bcast_S_S22x515x3 : S_.BroadcastsInDim S22x515x3 (![] : Fin 0 → Fin S22x515x3.rank)
  reducesTo_S22x515x3_S_d0_1_2 : S22x515x3.ReducesTo [0, 1, 2] S_
  bcast_S_S22x3 : S_.BroadcastsInDim S22x3 (![] : Fin 0 → Fin S22x3.rank)
  reducesTo_S22x3_S_d0_1 : S22x3.ReducesTo [0, 1] S_

variable [Facts]

def fn_part1 {F : FTy → Type} [FloatOps F] (main_arg4 : FVec F S22x3 .f32) (main_v13 : IVec S_ 1) (main_v16 : IVec S22x515x3 1) : IVec S_ 1 :=
  let main_c_5 : IVec S_ 1 := constantI S_ 1 1#1
  let main_v17 : IVec S_ 1 := (fun x v => Host.reduce IntOp.andi x v reducesTo_S22x515x3_S_d0_1_2 h_S_) main_v16 main_c_5
  let main_v18 : IVec S_ 1 := andi main_v13 main_v17
  let main_v19 : FVec F S22x3 .f32 := Host.absf main_arg4
  let main_cst_6 : FVec F S_ .f32 := constant S_ .f32 0x7F800000#32
  let main_v20 : FVec F S22x3 .f32 := broadcastInDim S22x3 ![] bcast_S_S22x3 main_cst_6
  let main_v21 : IVec S22x3 1 := cmpf .olt main_v19 main_v20
  let main_c_7 : IVec S_ 1 := constantI S_ 1 1#1
  let main_v22 : IVec S_ 1 := (fun x v => Host.reduce IntOp.andi x v reducesTo_S22x3_S_d0_1 h_S_) main_v21 main_c_7
  let main_v23 : IVec S_ 1 := andi main_v18 main_v22
  main_v23

def fn {F : FTy → Type} [FloatOps F] (main_arg0 : FVec F S131072x512 .f32) (main_arg1 : FVec F S512x3 .f32) (main_arg2 : FVec F S3 .f32) (main_arg3 : FVec F S22x515x3 .f32) (main_arg4 : FVec F S22x3 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x3 .f32 := Host.absf main_arg1
  let main_cst_0 : FVec F S_ .f32 := constant S_ .f32 0x7F800000#32
  let main_v5 : FVec F S512x3 .f32 := broadcastInDim S512x3 ![] bcast_S_S512x3 main_cst_0
  let main_v6 : IVec S512x3 1 := cmpf .olt main_v4 main_v5
  let main_c_1 : IVec S_ 1 := constantI S_ 1 1#1
  let main_v7 : IVec S_ 1 := (fun x v => Host.reduce IntOp.andi x v reducesTo_S512x3_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S22x515x3 .f32 := Host.absf main_arg3
  let main_cst_4 : FVec F S_ .f32 := constant S_ .f32 0x7F800000#32
  let main_v15 : FVec F S22x515x3 .f32 := broadcastInDim S22x515x3 ![] bcast_S_S22x515x3 main_cst_4
  let main_v16 : IVec S22x515x3 1 := cmpf .olt main_v14 main_v15
  fn_part1 (F := F) main_arg4 main_v13 main_v16
-- ==== Kernel.lean ====
abbrev S131072x512 : Shape := ⟨2, ![131072, 512]⟩
abbrev S512x3 : Shape := ⟨2, ![512, 3]⟩
abbrev S3 : Shape := ⟨1, ![3]⟩
abbrev S22x515x3 : Shape := ⟨3, ![22, 515, 3]⟩
abbrev S22x3 : Shape := ⟨2, ![22, 3]⟩
abbrev S1x512x3 : Shape := ⟨3, ![1, 512, 3]⟩
abbrev S512x48 : Shape := ⟨2, ![512, 48]⟩
abbrev S512x18 : Shape := ⟨2, ![512, 18]⟩
abbrev S512x66 : Shape := ⟨2, ![512, 66]⟩
abbrev S_ : Shape := ⟨0, ![]⟩
abbrev S512x128 : Shape := ⟨2, ![512, 128]⟩
abbrev S1x3 : Shape := ⟨2, ![1, 3]⟩
abbrev S48 : Shape := ⟨1, ![48]⟩
abbrev S18 : Shape := ⟨1, ![18]⟩
abbrev S66 : Shape := ⟨1, ![66]⟩
abbrev S128 : Shape := ⟨1, ![128]⟩
abbrev S1x128 : Shape := ⟨2, ![1, 128]⟩
abbrev S3x3 : Shape := ⟨2, ![3, 3]⟩
abbrev S1x3x3 : Shape := ⟨3, ![1, 3, 3]⟩
abbrev S16x3x3 : Shape := ⟨3, ![16, 3, 3]⟩
abbrev S6x3x3 : Shape := ⟨3, ![6, 3, 3]⟩
abbrev S22x3x3 : Shape := ⟨3, ![22, 3, 3]⟩
abbrev S131072x66 : Shape := ⟨2, ![131072, 66]⟩
abbrev S4096x512 : Shape := ⟨2, ![4096, 512]⟩
abbrev S4096x66 : Shape := ⟨2, ![4096, 66]⟩
abbrev S4096x128 : Shape := ⟨2, ![4096, 128]⟩
abbrev S4096x3 : Shape := ⟨2, ![4096, 3]⟩

abbrev nBuf : Space → Nat
  | .hbm => 174
  | .vmem => 9
  | .smem => 0
  | _ => 0

abbrev hbmTy0_0 (i : Nat) : BufTy := match i % 128 with
  | 0 => ⟨S131072x512, .f32⟩
  | 1 => ⟨S512x3, .f32⟩
  | 2 => ⟨S3, .f32⟩
  | 3 => ⟨S22x515x3, .f32⟩
  | 4 => ⟨S22x3, .f32⟩
  | 5 => ⟨S1x512x3, .f32⟩
  | 6 => ⟨S512x3, .f32⟩
  | 7 => ⟨S1x512x3, .f32⟩
  | 8 => ⟨S512x3, .f32⟩
  | 9 => ⟨S1x512x3, .f32⟩
  | 10 => ⟨S512x3, .f32⟩
  | 11 => ⟨S1x512x3, .f32⟩
  | 12 => ⟨S512x3, .f32⟩
  | 13 => ⟨S1x512x3, .f32⟩
  | 14 => ⟨S512x3, .f32⟩
  | 15 => ⟨S1x512x3, .f32⟩
  | 16 => ⟨S512x3, .f32⟩
  | 17 => ⟨S1x512x3, .f32⟩
  | 18 => ⟨S512x3, .f32⟩
  | 19 => ⟨S1x512x3, .f32⟩
  | 20 => ⟨S512x3, .f32⟩
  | 21 => ⟨S1x512x3, .f32⟩
  | 22 => ⟨S512x3, .f32⟩
  | 23 => ⟨S1x512x3, .f32⟩
  | 24 => ⟨S512x3, .f32⟩
  | 25 => ⟨S1x512x3, .f32⟩
  | 26 => ⟨S512x3, .f32⟩
  | 27 => ⟨S1x512x3, .f32⟩
  | 28 => ⟨S512x3, .f32⟩
  | 29 => ⟨S1x512x3, .f32⟩
  | 30 => ⟨S512x3, .f32⟩
  | 31 => ⟨S1x512x3, .f32⟩
  | 32 => ⟨S512x3, .f32⟩
  | 33 => ⟨S1x512x3, .f32⟩
  | 34 => ⟨S512x3, .f32⟩
  | 35 => ⟨S1x512x3, .f32⟩
  | 36 => ⟨S512x3, .f32⟩
  | 37 => ⟨S1x512x3, .f32⟩
  | 38 => ⟨S512x3, .f32⟩
  | 39 => ⟨S1x512x3, .f32⟩
  | 40 => ⟨S512x3, .f32⟩
  | 41 => ⟨S1x512x3, .f32⟩
  | 42 => ⟨S512x3, .f32⟩
  | 43 => ⟨S1x512x3, .f32⟩
  | 44 => ⟨S512x3, .f32⟩
  | 45 => ⟨S1x512x3, .f32⟩
  | 46 => ⟨S512x3, .f32⟩
  | 47 => ⟨S512x48, .f32⟩
  | 48 => ⟨S512x18, .f32⟩
  | 49 => ⟨S512x66, .f32⟩
  | 50 => ⟨S_, .i32⟩
  | 51 => ⟨S_, .f32⟩
  | 52 => ⟨S512x128, .f32⟩
  | 53 => ⟨S512x128, .bf16⟩
  | 54 => ⟨S1x3, .f32⟩
  | 55 => ⟨S3, .f32⟩
  | 56 => ⟨S1x3, .f32⟩
  | 57 => ⟨S3, .f32⟩
  | 58 => ⟨S1x3, .f32⟩
  | 59 => ⟨S3, .f32⟩
  | 60 => ⟨S1x3, .f32⟩
  | 61 => ⟨S3, .f32⟩
  | 62 => ⟨S1x3, .f32⟩
  | 63 => ⟨S3, .f32⟩
  | 64 => ⟨S1x3, .f32⟩
  | 65 => ⟨S3, .f32⟩
  | 66 => ⟨S1x3, .f32⟩
  | 67 => ⟨S3, .f32⟩
  | 68 => ⟨S1x3, .f32⟩
  | 69 => ⟨S3, .f32⟩
  | 70 => ⟨S1x3, .f32⟩
  | 71 => ⟨S3, .f32⟩
  | 72 => ⟨S1x3, .f32⟩
  | 73 => ⟨S3, .f32⟩
  | 74 => ⟨S1x3, .f32⟩
  | 75 => ⟨S3, .f32⟩
  | 76 => ⟨S1x3, .f32⟩
  | 77 => ⟨S3, .f32⟩
  | 78 => ⟨S1x3, .f32⟩
  | 79 => ⟨S3, .f32⟩
  | 80 => ⟨S1x3, .f32⟩
  | 81 => ⟨S3, .f32⟩
  | 82 => ⟨S1x3, .f32⟩
  | 83 => ⟨S3, .f32⟩
  | 84 => ⟨S1x3, .f32⟩
  | 85 => ⟨S3, .f32⟩
  | 86 => ⟨S1x3, .f32⟩
  | 87 => ⟨S3, .f32⟩
  | 88 => ⟨S1x3, .f32⟩
  | 89 => ⟨S3, .f32⟩
  | 90 => ⟨S1x3, .f32⟩
  | 91 => ⟨S3, .f32⟩
  | 92 => ⟨S1x3, .f32⟩
  | 93 => ⟨S3, .f32⟩
  | 94 => ⟨S1x3, .f32⟩
  | 95 => ⟨S3, .f32⟩
  | 96 => ⟨S48, .f32⟩
  | 97 => ⟨S18, .f32⟩
  | 98 => ⟨S66, .f32⟩
  | 99 => ⟨S_, .i32⟩
  | 100 => ⟨S_, .f32⟩
  | 101 => ⟨S128, .f32⟩
  | 102 => ⟨S1x128, .f32⟩
  | 103 => ⟨S_, .f32⟩
  | 104 => ⟨S3x3, .f32⟩
  | 105 => ⟨S1x3x3, .f32⟩
  | 106 => ⟨S3x3, .f32⟩
  | 107 => ⟨S1x3x3, .f32⟩
  | 108 => ⟨S3x3, .f32⟩
  | 109 => ⟨S1x3x3, .f32⟩
  | 110 => ⟨S3x3, .f32⟩
  | 111 => ⟨S1x3x3, .f32⟩
  | 112 => ⟨S3x3, .f32⟩
  | 113 => ⟨S1x3x3, .f32⟩
  | 114 => ⟨S3x3, .f32⟩
  | 115 => ⟨S1x3x3, .f32⟩
  | 116 => ⟨S3x3, .f32⟩
  | 117 => ⟨S1x3x3, .f32⟩
  | 118 => ⟨S3x3, .f32⟩
  | 119 => ⟨S1x3x3, .f32⟩
  | 120 => ⟨S3x3, .f32⟩
  | 121 => ⟨S1x3x3, .f32⟩
  | 122 => ⟨S3x3, .f32⟩
  | 123 => ⟨S1x3x3, .f32⟩
  | 124 => ⟨S3x3, .f32⟩
  | 125 => ⟨S1x3x3, .f32⟩
  | 126 => ⟨S3x3, .f32⟩
  | 127 => ⟨S1x3x3, .f32⟩
  | _ => ⟨S131072x512, .f32⟩

abbrev hbmTy0_1 (i : Nat) : BufTy := match i % 128 with
  | 0 => ⟨S3x3, .f32⟩
  | 1 => ⟨S1x3x3, .f32⟩
  | 2 => ⟨S3x3, .f32⟩
  | 3 => ⟨S1x3x3, .f32⟩
  | 4 => ⟨S3x3, .f32⟩
  | 5 => ⟨S1x3x3, .f32⟩
  | 6 => ⟨S3x3, .f32⟩
  | 7 => ⟨S1x3x3, .f32⟩
  | 8 => ⟨S3x3, .f32⟩
  | 9 => ⟨S1x3x3, .f32⟩
  | 10 => ⟨S3x3, .f32⟩
  | 11 => ⟨S1x3x3, .f32⟩
  | 12 => ⟨S3x3, .f32⟩
  | 13 => ⟨S1x3x3, .f32⟩
  | 14 => ⟨S3x3, .f32⟩
  | 15 => ⟨S1x3x3, .f32⟩
  | 16 => ⟨S3x3, .f32⟩
  | 17 => ⟨S1x3x3, .f32⟩
  | 18 => ⟨S3x3, .f32⟩
  | 19 => ⟨S1x3x3, .f32⟩
  | 20 => ⟨S1x3x3, .f32⟩
  | 21 => ⟨S1x3x3, .f32⟩
  | 22 => ⟨S1x3x3, .f32⟩
  | 23 => ⟨S1x3x3, .f32⟩
  | 24 => ⟨S1x3x3, .f32⟩
  | 25 => ⟨S1x3x3, .f32⟩
  | 26 => ⟨S1x3x3, .f32⟩
  | 27 => ⟨S1x3x3, .f32⟩
  | 28 => ⟨S1x3x3, .f32⟩
  | 29 => ⟨S1x3x3, .f32⟩
  | 30 => ⟨S1x3x3, .f32⟩
  | 31 => ⟨S1x3x3, .f32⟩
  | 32 => ⟨S1x3x3, .f32⟩
  | 33 => ⟨S1x3x3, .f32⟩
  | 34 => ⟨S1x3x3, .f32⟩
  | 35 => ⟨S1x3x3, .f32⟩
  | 36 => ⟨S1x3x3, .f32⟩
  | 37 => ⟨S1x3x3, .f32⟩
  | 38 => ⟨S1x3x3, .f32⟩
  | 39 => ⟨S1x3x3, .f32⟩
  | 40 => ⟨S1x3x3, .f32⟩
  | 41 => ⟨S16x3x3, .f32⟩
  | 42 => ⟨S6x3x3, .f32⟩
  | 43 => ⟨S22x3x3, .f32⟩
  | 44 => ⟨S22x3x3, .bf16⟩
  | 45 => ⟨S131072x66, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S512x128, .bf16⟩
  | .local _ .vmem, ⟨3, _⟩ => ⟨S1x128, .f32⟩
  | .local _ .vmem, ⟨4, _⟩ => ⟨S22x3x3, .bf16⟩
  | .local _ .vmem, ⟨5, _⟩ => ⟨S4096x66, .f32⟩
  | .local _ .vmem, ⟨6, _⟩ => ⟨S4096x66, .f32⟩
  | .local _ .vmem, ⟨7, _⟩ => ⟨S4096x128, .f32⟩
  | .local _ .vmem, ⟨8, _⟩ => ⟨S4096x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_c : Ref sig .tc := ⟨.hbm, 50, rfl⟩
abbrev main_call0_v0 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_c_0 : Ref sig .tc := ⟨.hbm, 99, rfl⟩
abbrev main_call1_v0 : Ref sig .tc := ⟨.hbm, 100, rfl⟩
abbrev main_v92 : Ref sig .tc := ⟨.hbm, 101, rfl⟩
abbrev main_v93 : Ref sig .tc := ⟨.hbm, 102, rfl⟩
abbrev main_cst : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22x3x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x66 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S22x515x3_S1x512x3_1_0_0 : S22x515x3.Slices ![1, 0, 0] S1x512x3
  shapeCasts_S1x512x3_S512x3 : S1x512x3.ShapeCasts S512x3
  slices_S22x515x3_S1x512x3_2_0_0 : S22x515x3.Slices ![2, 0, 0] S1x512x3
  slices_S22x515x3_S1x512x3_3_0_0 : S22x515x3.Slices ![3, 0, 0] S1x512x3
  slices_S22x515x3_S1x512x3_4_0_0 : S22x515x3.Slices ![4, 0, 0] S1x512x3
  slices_S22x515x3_S1x512x3_5_0_0 : S22x515x3.Slices ![5, 0, 0] S1x512x3
  slices_S22x515x3_S1x512x3_6_0_0 : S22x515x3.Slices ![6, 0, 0] S1x512x3
  slices_S22x515x3_S1x512x3_7_0_0 : S22x515x3.Slices ![7, 0, 0] S1x512x3
  slices_S22x515x3_S1x512x3_8_0_0 : S22x515x3.Slices ![8, 0, 0] S1x512x3
  slices_S22x515x3_S1x512x3_9_0_0 : S22x515x3.Slices ![9, 0, 0] S1x512x3
  slices_S22x515x3_S1x512x3_10_0_0 : S22x515x3.Slices ![10, 0, 0] S1x512x3
  slices_S22x515x3_S1x512x3_11_0_0 : S22x515x3.Slices ![11, 0, 0] S1x512x3
  slices_S22x515x3_S1x512x3_12_0_0 : S22x515x3.Slices ![12, 0, 0] S1x512x3
  slices_S22x515x3_S1x512x3_13_0_0 : S22x515x3.Slices ![13, 0, 0] S1x512x3
  slices_S22x515x3_S1x512x3_14_0_0 : S22x515x3.Slices ![14, 0, 0] S1x512x3
  slices_S22x515x3_S1x512x3_15_0_0 : S22x515x3.Slices ![15, 0, 0] S1x512x3
  slices_S22x515x3_S1x512x3_16_0_0 : S22x515x3.Slices ![16, 0, 0] S1x512x3
  slices_S22x515x3_S1x512x3_17_0_0 : S22x515x3.Slices ![17, 0, 0] S1x512x3
  slices_S22x515x3_S1x512x3_18_0_0 : S22x515x3.Slices ![18, 0, 0] S1x512x3
  slices_S22x515x3_S1x512x3_19_0_0 : S22x515x3.Slices ![19, 0, 0] S1x512x3
  slices_S22x515x3_S1x512x3_20_0_0 : S22x515x3.Slices ![20, 0, 0] S1x512x3
  slices_S22x515x3_S1x512x3_21_0_0 : S22x515x3.Slices ![21, 0, 0] S1x512x3
  concatenates_S512x3_S512x3_S512x3_S512x3_S512x3_S512x3_S512x3_S512x3_S512x3_S512x3_S512x3_S512x3_S512x3_S512x3_S512x3_S512x3_S512x48_d1 : Shape.Concatenates [S512x3, S512x3, S512x3, S512x3, S512x3, S512x3, S512x3, S512x3, S512x3, S512x3, S512x3, S512x3, S512x3, S512x3, S512x3, S512x3] S512x48 1
  concatenates_S512x3_S512x3_S512x3_S512x3_S512x3_S512x3_S512x18_d1 : Shape.Concatenates [S512x3, S512x3, S512x3, S512x3, S512x3, S512x3] S512x18 1
  concatenates_S512x48_S512x18_S512x66_d1 : Shape.Concatenates [S512x48, S512x18] S512x66 1
  pads_S512x66_S512x128_000_0620 : S512x66.Pads (![0, 0] : Fin 2 → Nat) ![0, 62] ![0, 0] S512x128
  h_S_ : 0 < S_.numel
  bitsLt_bf16_f32 : FTy.bits .bf16 < FTy.bits .f32
  slices_S22x3_S1x3_1_0 : S22x3.Slices ![1, 0] S1x3
  shapeCasts_S1x3_S3 : S1x3.ShapeCasts S3
  slices_S22x3_S1x3_2_0 : S22x3.Slices ![2, 0] S1x3
  slices_S22x3_S1x3_3_0 : S22x3.Slices ![3, 0] S1x3
  slices_S22x3_S1x3_4_0 : S22x3.Slices ![4, 0] S1x3
  slices_S22x3_S1x3_5_0 : S22x3.Slices ![5, 0] S1x3
  slices_S22x3_S1x3_6_0 : S22x3.Slices ![6, 0] S1x3
  slices_S22x3_S1x3_7_0 : S22x3.Slices ![7, 0] S1x3
  slices_S22x3_S1x3_8_0 : S22x3.Slices ![8, 0] S1x3
  slices_S22x3_S1x3_9_0 : S22x3.Slices ![9, 0] S1x3
  slices_S22x3_S1x3_10_0 : S22x3.Slices ![10, 0] S1x3
  slices_S22x3_S1x3_11_0 : S22x3.Slices ![11, 0] S1x3
  slices_S22x3_S1x3_12_0 : S22x3.Slices ![12, 0] S1x3
  slices_S22x3_S1x3_13_0 : S22x3.Slices ![13, 0] S1x3
  slices_S22x3_S1x3_14_0 : S22x3.Slices ![14, 0] S1x3
  slices_S22x3_S1x3_15_0 : S22x3.Slices ![15, 0] S1x3
  slices_S22x3_S1x3_16_0 : S22x3.Slices ![16, 0] S1x3
  slices_S22x3_S1x3_17_0 : S22x3.Slices ![17, 0] S1x3
  slices_S22x3_S1x3_18_0 : S22x3.Slices ![18, 0] S1x3
  slices_S22x3_S1x3_19_0 : S22x3.Slices ![19, 0] S1x3
  slices_S22x3_S1x3_20_0 : S22x3.Slices ![20, 0] S1x3
  slices_S22x3_S1x3_21_0 : S22x3.Slices ![21, 0] S1x3
  concatenates_S3_S3_S3_S3_S3_S3_S3_S3_S3_S3_S3_S3_S3_S3_S3_S3_S48_d0 : Shape.Concatenates [S3, S3, S3, S3, S3, S3, S3, S3, S3, S3, S3, S3, S3, S3, S3, S3] S48 0
  concatenates_S3_S3_S3_S3_S3_S3_S18_d0 : Shape.Concatenates [S3, S3, S3, S3, S3, S3] S18 0
  concatenates_S48_S18_S66_d0 : Shape.Concatenates [S48, S18] S66 0
  pads_S66_S128_0620 : S66.Pads (![0] : Fin 1 → Nat) ![62] ![0] S128
  shapeCasts_S128_S1x128 : S128.ShapeCasts S1x128
  bcast_S_S3x3 : S_.BroadcastsInDim S3x3 (![] : Fin 0 → Fin S3x3.rank)
  slices_S22x515x3_S1x3x3_1_512_0 : S22x515x3.Slices ![1, 512, 0] S1x3x3
  shapeCasts_S1x3x3_S3x3 : S1x3x3.ShapeCasts S3x3
  slices_S22x515x3_S1x3x3_2_512_0 : S22x515x3.Slices ![2, 512, 0] S1x3x3
  slices_S22x515x3_S1x3x3_3_512_0 : S22x515x3.Slices ![3, 512, 0] S1x3x3
  slices_S22x515x3_S1x3x3_4_512_0 : S22x515x3.Slices ![4, 512, 0] S1x3x3
  slices_S22x515x3_S1x3x3_5_512_0 : S22x515x3.Slices ![5, 512, 0] S1x3x3
  slices_S22x515x3_S1x3x3_6_512_0 : S22x515x3.Slices ![6, 512, 0] S1x3x3
  slices_S22x515x3_S1x3x3_7_512_0 : S22x515x3.Slices ![7, 512, 0] S1x3x3
  slices_S22x515x3_S1x3x3_8_512_0 : S22x515x3.Slices ![8, 512, 0] S1x3x3
  slices_S22x515x3_S1x3x3_9_512_0 : S22x515x3.Slices ![9, 512, 0] S1x3x3
  slices_S22x515x3_S1x3x3_10_512_0 : S22x515x3.Slices ![10, 512, 0] S1x3x3
  slices_S22x515x3_S1x3x3_11_512_0 : S22x515x3.Slices ![11, 512, 0] S1x3x3
  slices_S22x515x3_S1x3x3_12_512_0 : S22x515x3.Slices ![12, 512, 0] S1x3x3
  slices_S22x515x3_S1x3x3_13_512_0 : S22x515x3.Slices ![13, 512, 0] S1x3x3
  slices_S22x515x3_S1x3x3_14_512_0 : S22x515x3.Slices ![14, 512, 0] S1x3x3
  slices_S22x515x3_S1x3x3_15_512_0 : S22x515x3.Slices ![15, 512, 0] S1x3x3
  slices_S22x515x3_S1x3x3_16_512_0 : S22x515x3.Slices ![16, 512, 0] S1x3x3
  slices_S22x515x3_S1x3x3_17_512_0 : S22x515x3.Slices ![17, 512, 0] S1x3x3
  slices_S22x515x3_S1x3x3_18_512_0 : S22x515x3.Slices ![18, 512, 0] S1x3x3
  slices_S22x515x3_S1x3x3_19_512_0 : S22x515x3.Slices ![19, 512, 0] S1x3x3
  slices_S22x515x3_S1x3x3_20_512_0 : S22x515x3.Slices ![20, 512, 0] S1x3x3
  slices_S22x515x3_S1x3x3_21_512_0 : S22x515x3.Slices ![21, 512, 0] S1x3x3
  bcast_S3x3_S1x3x3_1_2 : S3x3.BroadcastsInDim S1x3x3 (![1, 2] : Fin 2 → Fin S1x3x3.rank)
  concatenates_S1x3x3_S1x3x3_S1x3x3_S1x3x3_S1x3x3_S1x3x3_S1x3x3_S1x3x3_S1x3x3_S1x3x3_S1x3x3_S1x3x3_S1x3x3_S1x3x3_S1x3x3_S1x3x3_S16x3x3_d0 : Shape.Concatenates [S1x3x3, S1x3x3, S1x3x3, S1x3x3, S1x3x3, S1x3x3, S1x3x3, S1x3x3, S1x3x3, S1x3x3, S1x3x3, S1x3x3, S1x3x3, S1x3x3, S1x3x3, S1x3x3] S16x3x3 0
  concatenates_S1x3x3_S1x3x3_S1x3x3_S1x3x3_S1x3x3_S1x3x3_S6x3x3_d0 : Shape.Concatenates [S1x3x3, S1x3x3, S1x3x3, S1x3x3, S1x3x3, S1x3x3] S6x3x3 0
  concatenates_S16x3x3_S6x3x3_S22x3x3_d0 : Shape.Concatenates [S16x3x3, S6x3x3] S22x3x3 0
  inb_S4096x512_S4096x512_0_0 : ∀ a, (![0, 0] : Fin 2 → Nat) a + S4096x512.size a ≤ S4096x512.size a
  h_S4096x512 : 0 < S4096x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x128_S4096x3_0_0 : ∀ a, (![0, 0] : Fin 2 → Nat) a + S4096x3.size a ≤ S4096x128.size a
  h_S4096x3 : 0 < S4096x3.numel
  shapeCasts_S4096x3_S4096x3 : S4096x3.ShapeCasts S4096x3
  inb_S22x3x3_S1x3x3_2_0_0 : ∀ a, (![2, 0, 0] : Fin 3 → Nat) a + S1x3x3.size a ≤ S22x3x3.size a
  h_S1x3x3 : 0 < S1x3x3.numel
  inb_S4096x128_S4096x3_0_6 : ∀ a, (![0, 6] : Fin 2 → Nat) a + S4096x3.size a ≤ S4096x128.size a
  inb_S22x3x3_S1x3x3_5_0_0 : ∀ a, (![5, 0, 0] : Fin 3 → Nat) a + S1x3x3.size a ≤ S22x3x3.size a
  inb_S4096x128_S4096x3_0_15 : ∀ a, (![0, 15] : Fin 2 → Nat) a + S4096x3.size a ≤ S4096x128.size a
  inb_S22x3x3_S1x3x3_8_0_0 : ∀ a, (![8, 0, 0] : Fin 3 → Nat) a + S1x3x3.size a ≤ S22x3x3.size a
  inb_S4096x128_S4096x3_0_24 : ∀ a, (![0, 24] : Fin 2 → Nat) a + S4096x3.size a ≤ S4096x128.size a
  inb_S22x3x3_S1x3x3_11_0_0 : ∀ a, (![11, 0, 0] : Fin 3 → Nat) a + S1x3x3.size a ≤ S22x3x3.size a
  inb_S4096x128_S4096x3_0_33 : ∀ a, (![0, 33] : Fin 2 → Nat) a + S4096x3.size a ≤ S4096x128.size a
  inb_S22x3x3_S1x3x3_1_0_0 : ∀ a, (![1, 0, 0] : Fin 3 → Nat) a + S1x3x3.size a ≤ S22x3x3.size a
  inb_S4096x128_S4096x3_0_3 : ∀ a, (![0, 3] : Fin 2 → Nat) a + S4096x3.size a ≤ S4096x128.size a
  inb_S22x3x3_S1x3x3_4_0_0 : ∀ a, (![4, 0, 0] : Fin 3 → Nat) a + S1x3x3.size a ≤ S22x3x3.size a
  inb_S4096x128_S4096x3_0_12 : ∀ a, (![0, 12] : Fin 2 → Nat) a + S4096x3.size a ≤ S4096x128.size a
  inb_S22x3x3_S1x3x3_7_0_0 : ∀ a, (![7, 0, 0] : Fin 3 → Nat) a + S1x3x3.size a ≤ S22x3x3.size a
  inb_S4096x128_S4096x3_0_21 : ∀ a, (![0, 21] : Fin 2 → Nat) a + S4096x3.size a ≤ S4096x128.size a
  inb_S22x3x3_S1x3x3_10_0_0 : ∀ a, (![10, 0, 0] : Fin 3 → Nat) a + S1x3x3.size a ≤ S22x3x3.size a
  inb_S4096x128_S4096x3_0_30 : ∀ a, (![0, 30] : Fin 2 → Nat) a + S4096x3.size a ≤ S4096x128.size a
  inb_S22x3x3_S1x3x3_3_0_0 : ∀ a, (![3, 0, 0] : Fin 3 → Nat) a + S1x3x3.size a ≤ S22x3x3.size a
  inb_S4096x128_S4096x3_0_9 : ∀ a, (![0, 9] : Fin 2 → Nat) a + S4096x3.size a ≤ S4096x128.size a
  inb_S22x3x3_S1x3x3_6_0_0 : ∀ a, (![6, 0, 0] : Fin 3 → Nat) a + S1x3x3.size a ≤ S22x3x3.size a
  inb_S4096x128_S4096x3_0_18 : ∀ a, (![0, 18] : Fin 2 → Nat) a + S4096x3.size a ≤ S4096x128.size a
  inb_S22x3x3_S1x3x3_9_0_0 : ∀ a, (![9, 0, 0] : Fin 3 → Nat) a + S1x3x3.size a ≤ S22x3x3.size a
  inb_S4096x128_S4096x3_0_27 : ∀ a, (![0, 27] : Fin 2 → Nat) a + S4096x3.size a ≤ S4096x128.size a
  inb_S22x3x3_S1x3x3_12_0_0 : ∀ a, (![12, 0, 0] : Fin 3 → Nat) a + S1x3x3.size a ≤ S22x3x3.size a
  inb_S4096x128_S4096x3_0_36 : ∀ a, (![0, 36] : Fin 2 → Nat) a + S4096x3.size a ≤ S4096x128.size a
  inb_S22x3x3_S1x3x3_15_0_0 : ∀ a, (![15, 0, 0] : Fin 3 → Nat) a + S1x3x3.size a ≤ S22x3x3.size a
  inb_S4096x128_S4096x3_0_45 : ∀ a, (![0, 45] : Fin 2 → Nat) a + S4096x3.size a ≤ S4096x128.size a
  inb_S22x3x3_S1x3x3_14_0_0 : ∀ a, (![14, 0, 0] : Fin 3 → Nat) a + S1x3x3.size a ≤ S22x3x3.size a
  inb_S4096x128_S4096x3_0_42 : ∀ a, (![0, 42] : Fin 2 → Nat) a + S4096x3.size a ≤ S4096x128.size a
  inb_S22x3x3_S1x3x3_17_0_0 : ∀ a, (![17, 0, 0] : Fin 3 → Nat) a + S1x3x3.size a ≤ S22x3x3.size a
  inb_S4096x128_S4096x3_0_51 : ∀ a, (![0, 51] : Fin 2 → Nat) a + S4096x3.size a ≤ S4096x128.size a
  inb_S22x3x3_S1x3x3_19_0_0 : ∀ a, (![19, 0, 0] : Fin 3 → Nat) a + S1x3x3.size a ≤ S22x3x3.size a
  inb_S4096x128_S4096x3_0_57 : ∀ a, (![0, 57] : Fin 2 → Nat) a + S4096x3.size a ≤ S4096x128.size a
  inb_S22x3x3_S1x3x3_21_0_0 : ∀ a, (![21, 0, 0] : Fin 3 → Nat) a + S1x3x3.size a ≤ S22x3x3.size a
  inb_S4096x128_S4096x3_0_63 : ∀ a, (![0, 63] : Fin 2 → Nat) a + S4096x3.size a ≤ S4096x128.size a
  inb_S22x3x3_S1x3x3_13_0_0 : ∀ a, (![13, 0, 0] : Fin 3 → Nat) a + S1x3x3.size a ≤ S22x3x3.size a
  inb_S4096x128_S4096x3_0_39 : ∀ a, (![0, 39] : Fin 2 → Nat) a + S4096x3.size a ≤ S4096x128.size a
  inb_S22x3x3_S1x3x3_16_0_0 : ∀ a, (![16, 0, 0] : Fin 3 → Nat) a + S1x3x3.size a ≤ S22x3x3.size a
  inb_S4096x128_S4096x3_0_48 : ∀ a, (![0, 48] : Fin 2 → Nat) a + S4096x3.size a ≤ S4096x128.size a
  inb_S22x3x3_S1x3x3_18_0_0 : ∀ a, (![18, 0, 0] : Fin 3 → Nat) a + S1x3x3.size a ≤ S22x3x3.size a
  inb_S4096x128_S4096x3_0_54 : ∀ a, (![0, 54] : Fin 2 → Nat) a + S4096x3.size a ≤ S4096x128.size a
  inb_S22x3x3_S1x3x3_20_0_0 : ∀ a, (![20, 0, 0] : Fin 3 → Nat) a + S1x3x3.size a ≤ S22x3x3.size a
  inb_S4096x128_S4096x3_0_60 : ∀ a, (![0, 60] : Fin 2 → Nat) a + S4096x3.size a ≤ S4096x128.size a
  inb_S4096x128_S4096x66_0_0 : ∀ a, (![0, 0] : Fin 2 → Nat) a + S4096x66.size a ≤ S4096x128.size a
  h_S4096x66 : 0 < S4096x66.numel
  inb_S4096x66_S4096x66_0_0 : ∀ a, (![0, 0] : Fin 2 → Nat) a + S4096x66.size a ≤ S4096x66.size a
  dot_S4096x512_S512x128_S4096x128_1_0_0_1_n_n_wf : DotDims.WF S4096x512 S512x128 S4096x128 [1] [0] [0] [1] [] []
  dot_S4096x3_S3x3_S4096x3_1_0_0_1_n_n_wf : DotDims.WF S4096x3 S3x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S22x3x3.size a ≤ S22x3x3.size a
  hwx0_3 : ∀ i : grid0.Coords, EltTy.bits .bf16 = 32 ∨ (Rect.block (s := S22x3x3) S22x3x3.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x66.size a ≤ S131072x66.size a
  hwx0_4 : ∀ i : grid0.Coords, EltTy.bits .f32 = 32 ∨ (Rect.block (s := S131072x66) S4096x66.size (cc0_transform_4 i) (hinb0_4 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x3_S3x3_S4096x3_1_0_0_1_n_n : DotDims S4096x3 S3x3 S4096x3 where
  lhsContracting := [1]
  rhsContracting := [0]
  lhsNonContracting := [0]
  rhsNonContracting := [1]
  lhsBatch := []
  rhsBatch := []
  wf := dot_S4096x3_S3x3_S4096x3_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v162) S22x3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v163) S4096x66.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x3 : Shape := ⟨2, ![512, 3]⟩
abbrev S3 : Shape := ⟨1, ![3]⟩
abbrev S22x515x3 : Shape := ⟨3, ![22, 515, 3]⟩
abbrev S22x3 : Shape := ⟨2, ![22, 3]⟩
abbrev S131072x3 : Shape := ⟨2, ![131072, 3]⟩
abbrev S1x3 : Shape := ⟨2, ![1, 3]⟩
abbrev S_ : Shape := ⟨0, ![]⟩
abbrev S131072x515 : Shape := ⟨2, ![131072, 515]⟩
abbrev S1x515x3 : Shape := ⟨3, ![1, 515, 3]⟩
abbrev S515x3 : Shape := ⟨2, ![515, 3]⟩
abbrev S131072x48 : Shape := ⟨2, ![131072, 48]⟩
abbrev S131072x18 : Shape := ⟨2, ![131072, 18]⟩
abbrev S131072x66 : Shape := ⟨2, ![131072, 66]⟩

abbrev nBuf : Space → Nat
  | .hbm => 289
  | .vmem => 0
  | .smem => 0
  | _ => 0

abbrev hbmTy0_0 (i : Nat) : BufTy := match i % 128 with
  | 0 => ⟨S131072x512, .f32⟩
  | 1 => ⟨S512x3, .f32⟩
  | 2 => ⟨S3, .f32⟩
  | 3 => ⟨S22x515x3, .f32⟩
  | 4 => ⟨S22x3, .f32⟩
  | 5 => ⟨S131072x3, .f32⟩
  | 6 => ⟨S1x3, .f32⟩
  | 7 => ⟨S131072x3, .f32⟩
  | 8 => ⟨S131072x3, .f32⟩
  | 9 => ⟨S131072x3, .f32⟩
  | 10 => ⟨S_, .f32⟩
  | 11 => ⟨S131072x3, .f32⟩
  | 12 => ⟨S131072x3, .f32⟩
  | 13 => ⟨S131072x515, .f32⟩
  | 14 => ⟨S1x515x3, .f32⟩
  | 15 => ⟨S515x3, .f32⟩
  | 16 => ⟨S131072x3, .f32⟩
  | 17 => ⟨S1x3, .f32⟩
  | 18 => ⟨S3, .f32⟩
  | 19 => ⟨S1x3, .f32⟩
  | 20 => ⟨S131072x3, .f32⟩
  | 21 => ⟨S131072x3, .f32⟩
  | 22 => ⟨S131072x3, .f32⟩
  | 23 => ⟨S_, .f32⟩
  | 24 => ⟨S131072x3, .f32⟩
  | 25 => ⟨S131072x3, .f32⟩
  | 26 => ⟨S131072x515, .f32⟩
  | 27 => ⟨S1x515x3, .f32⟩
  | 28 => ⟨S515x3, .f32⟩
  | 29 => ⟨S131072x3, .f32⟩
  | 30 => ⟨S1x3, .f32⟩
  | 31 => ⟨S3, .f32⟩
  | 32 => ⟨S1x3, .f32⟩
  | 33 => ⟨S131072x3, .f32⟩
  | 34 => ⟨S131072x3, .f32⟩
  | 35 => ⟨S131072x3, .f32⟩
  | 36 => ⟨S_, .f32⟩
  | 37 => ⟨S131072x3, .f32⟩
  | 38 => ⟨S131072x3, .f32⟩
  | 39 => ⟨S131072x515, .f32⟩
  | 40 => ⟨S1x515x3, .f32⟩
  | 41 => ⟨S515x3, .f32⟩
  | 42 => ⟨S131072x3, .f32⟩
  | 43 => ⟨S1x3, .f32⟩
  | 44 => ⟨S3, .f32⟩
  | 45 => ⟨S1x3, .f32⟩
  | 46 => ⟨S131072x3, .f32⟩
  | 47 => ⟨S131072x3, .f32⟩
  | 48 => ⟨S131072x3, .f32⟩
  | 49 => ⟨S_, .f32⟩
  | 50 => ⟨S131072x3, .f32⟩
  | 51 => ⟨S131072x3, .f32⟩
  | 52 => ⟨S131072x515, .f32⟩
  | 53 => ⟨S1x515x3, .f32⟩
  | 54 => ⟨S515x3, .f32⟩
  | 55 => ⟨S131072x3, .f32⟩
  | 56 => ⟨S1x3, .f32⟩
  | 57 => ⟨S3, .f32⟩
  | 58 => ⟨S1x3, .f32⟩
  | 59 => ⟨S131072x3, .f32⟩
  | 60 => ⟨S131072x3, .f32⟩
  | 61 => ⟨S131072x3, .f32⟩
  | 62 => ⟨S_, .f32⟩
  | 63 => ⟨S131072x3, .f32⟩
  | 64 => ⟨S131072x3, .f32⟩
  | 65 => ⟨S131072x515, .f32⟩
  | 66 => ⟨S1x515x3, .f32⟩
  | 67 => ⟨S515x3, .f32⟩
  | 68 => ⟨S131072x3, .f32⟩
  | 69 => ⟨S1x3, .f32⟩
  | 70 => ⟨S3, .f32⟩
  | 71 => ⟨S1x3, .f32⟩
  | 72 => ⟨S131072x3, .f32⟩
  | 73 => ⟨S131072x3, .f32⟩
  | 74 => ⟨S131072x3, .f32⟩
  | 75 => ⟨S_, .f32⟩
  | 76 => ⟨S131072x3, .f32⟩
  | 77 => ⟨S131072x3, .f32⟩
  | 78 => ⟨S131072x515, .f32⟩
  | 79 => ⟨S1x515x3, .f32⟩
  | 80 => ⟨S515x3, .f32⟩
  | 81 => ⟨S131072x3, .f32⟩
  | 82 => ⟨S1x3, .f32⟩
  | 83 => ⟨S3, .f32⟩
  | 84 => ⟨S1x3, .f32⟩
  | 85 => ⟨S131072x3, .f32⟩
  | 86 => ⟨S131072x3, .f32⟩
  | 87 => ⟨S131072x3, .f32⟩
  | 88 => ⟨S_, .f32⟩
  | 89 => ⟨S131072x3, .f32⟩
  | 90 => ⟨S131072x3, .f32⟩
  | 91 => ⟨S131072x515, .f32⟩
  | 92 => ⟨S1x515x3, .f32⟩
  | 93 => ⟨S515x3, .f32⟩
  | 94 => ⟨S131072x3, .f32⟩
  | 95 => ⟨S1x3, .f32⟩
  | 96 => ⟨S3, .f32⟩
  | 97 => ⟨S1x3, .f32⟩
  | 98 => ⟨S131072x3, .f32⟩
  | 99 => ⟨S131072x3, .f32⟩
  | 100 => ⟨S131072x3, .f32⟩
  | 101 => ⟨S_, .f32⟩
  | 102 => ⟨S131072x3, .f32⟩
  | 103 => ⟨S131072x3, .f32⟩
  | 104 => ⟨S131072x515, .f32⟩
  | 105 => ⟨S1x515x3, .f32⟩
  | 106 => ⟨S515x3, .f32⟩
  | 107 => ⟨S131072x3, .f32⟩
  | 108 => ⟨S1x3, .f32⟩
  | 109 => ⟨S3, .f32⟩
  | 110 => ⟨S1x3, .f32⟩
  | 111 => ⟨S131072x3, .f32⟩
  | 112 => ⟨S131072x3, .f32⟩
  | 113 => ⟨S131072x3, .f32⟩
  | 114 => ⟨S_, .f32⟩
  | 115 => ⟨S131072x3, .f32⟩
  | 116 => ⟨S131072x3, .f32⟩
  | 117 => ⟨S131072x515, .f32⟩
  | 118 => ⟨S1x515x3, .f32⟩
  | 119 => ⟨S515x3, .f32⟩
  | 120 => ⟨S131072x3, .f32⟩
  | 121 => ⟨S1x3, .f32⟩
  | 122 => ⟨S3, .f32⟩
  | 123 => ⟨S1x3, .f32⟩
  | 124 => ⟨S131072x3, .f32⟩
  | 125 => ⟨S131072x3, .f32⟩
  | 126 => ⟨S131072x3, .f32⟩
  | 127 => ⟨S_, .f32⟩
  | _ => ⟨S131072x512, .f32⟩

abbrev hbmTy0_1 (i : Nat) : BufTy := match i % 128 with
  | 0 => ⟨S131072x3, .f32⟩
  | 1 => ⟨S131072x3, .f32⟩
  | 2 => ⟨S131072x515, .f32⟩
  | 3 => ⟨S1x515x3, .f32⟩
  | 4 => ⟨S515x3, .f32⟩
  | 5 => ⟨S131072x3, .f32⟩
  | 6 => ⟨S1x3, .f32⟩
  | 7 => ⟨S3, .f32⟩
  | 8 => ⟨S1x3, .f32⟩
  | 9 => ⟨S131072x3, .f32⟩
  | 10 => ⟨S131072x3, .f32⟩
  | 11 => ⟨S131072x3, .f32⟩
  | 12 => ⟨S_, .f32⟩
  | 13 => ⟨S131072x3, .f32⟩
  | 14 => ⟨S131072x3, .f32⟩
  | 15 => ⟨S131072x515, .f32⟩
  | 16 => ⟨S1x515x3, .f32⟩
  | 17 => ⟨S515x3, .f32⟩
  | 18 => ⟨S131072x3, .f32⟩
  | 19 => ⟨S1x3, .f32⟩
  | 20 => ⟨S3, .f32⟩
  | 21 => ⟨S1x3, .f32⟩
  | 22 => ⟨S131072x3, .f32⟩
  | 23 => ⟨S131072x3, .f32⟩
  | 24 => ⟨S131072x3, .f32⟩
  | 25 => ⟨S_, .f32⟩
  | 26 => ⟨S131072x3, .f32⟩
  | 27 => ⟨S131072x3, .f32⟩
  | 28 => ⟨S131072x515, .f32⟩
  | 29 => ⟨S1x515x3, .f32⟩
  | 30 => ⟨S515x3, .f32⟩
  | 31 => ⟨S131072x3, .f32⟩
  | 32 => ⟨S1x3, .f32⟩
  | 33 => ⟨S3, .f32⟩
  | 34 => ⟨S1x3, .f32⟩
  | 35 => ⟨S131072x3, .f32⟩
  | 36 => ⟨S131072x3, .f32⟩
  | 37 => ⟨S131072x3, .f32⟩
  | 38 => ⟨S_, .f32⟩
  | 39 => ⟨S131072x3, .f32⟩
  | 40 => ⟨S131072x3, .f32⟩
  | 41 => ⟨S131072x515, .f32⟩
  | 42 => ⟨S1x515x3, .f32⟩
  | 43 => ⟨S515x3, .f32⟩
  | 44 => ⟨S131072x3, .f32⟩
  | 45 => ⟨S1x3, .f32⟩
  | 46 => ⟨S3, .f32⟩
  | 47 => ⟨S1x3, .f32⟩
  | 48 => ⟨S131072x3, .f32⟩
  | 49 => ⟨S131072x3, .f32⟩
  | 50 => ⟨S131072x3, .f32⟩
  | 51 => ⟨S_, .f32⟩
  | 52 => ⟨S131072x3, .f32⟩
  | 53 => ⟨S131072x3, .f32⟩
  | 54 => ⟨S131072x515, .f32⟩
  | 55 => ⟨S1x515x3, .f32⟩
  | 56 => ⟨S515x3, .f32⟩
  | 57 => ⟨S131072x3, .f32⟩
  | 58 => ⟨S1x3, .f32⟩
  | 59 => ⟨S3, .f32⟩
  | 60 => ⟨S1x3, .f32⟩
  | 61 => ⟨S131072x3, .f32⟩
  | 62 => ⟨S131072x3, .f32⟩
  | 63 => ⟨S131072x3, .f32⟩
  | 64 => ⟨S_, .f32⟩
  | 65 => ⟨S131072x3, .f32⟩
  | 66 => ⟨S131072x3, .f32⟩
  | 67 => ⟨S131072x515, .f32⟩
  | 68 => ⟨S1x515x3, .f32⟩
  | 69 => ⟨S515x3, .f32⟩
  | 70 => ⟨S131072x3, .f32⟩
  | 71 => ⟨S1x3, .f32⟩
  | 72 => ⟨S3, .f32⟩
  | 73 => ⟨S1x3, .f32⟩
  | 74 => ⟨S131072x3, .f32⟩
  | 75 => ⟨S131072x3, .f32⟩
  | 76 => ⟨S131072x3, .f32⟩
  | 77 => ⟨S_, .f32⟩
  | 78 => ⟨S131072x3, .f32⟩
  | 79 => ⟨S131072x3, .f32⟩
  | 80 => ⟨S131072x515, .f32⟩
  | 81 => ⟨S1x515x3, .f32⟩
  | 82 => ⟨S515x3, .f32⟩
  | 83 => ⟨S131072x3, .f32⟩
  | 84 => ⟨S1x3, .f32⟩
  | 85 => ⟨S3, .f32⟩
  | 86 => ⟨S1x3, .f32⟩
  | 87 => ⟨S131072x3, .f32⟩
  | 88 => ⟨S131072x3, .f32⟩
  | 89 => ⟨S131072x3, .f32⟩
  | 90 => ⟨S_, .f32⟩
  | 91 => ⟨S131072x3, .f32⟩
  | 92 => ⟨S131072x3, .f32⟩
  | 93 => ⟨S131072x515, .f32⟩
  | 94 => ⟨S1x515x3, .f32⟩
  | 95 => ⟨S515x3, .f32⟩
  | 96 => ⟨S131072x3, .f32⟩
  | 97 => ⟨S1x3, .f32⟩
  | 98 => ⟨S3, .f32⟩
  | 99 => ⟨S1x3, .f32⟩
  | 100 => ⟨S131072x3, .f32⟩
  | 101 => ⟨S131072x3, .f32⟩
  | 102 => ⟨S131072x3, .f32⟩
  | 103 => ⟨S_, .f32⟩
  | 104 => ⟨S131072x3, .f32⟩
  | 105 => ⟨S131072x3, .f32⟩
  | 106 => ⟨S131072x515, .f32⟩
  | 107 => ⟨S1x515x3, .f32⟩
  | 108 => ⟨S515x3, .f32⟩
  | 109 => ⟨S131072x3, .f32⟩
  | 110 => ⟨S1x3, .f32⟩
  | 111 => ⟨S3, .f32⟩
  | 112 => ⟨S1x3, .f32⟩
  | 113 => ⟨S131072x3, .f32⟩
  | 114 => ⟨S131072x3, .f32⟩
  | 115 => ⟨S131072x3, .f32⟩
  | 116 => ⟨S_, .f32⟩
  | 117 => ⟨S131072x3, .f32⟩
  | 118 => ⟨S131072x3, .f32⟩
  | 119 => ⟨S131072x515, .f32⟩
  | 120 => ⟨S1x515x3, .f32⟩
  | 121 => ⟨S515x3, .f32⟩
  | 122 => ⟨S131072x3, .f32⟩
  | 123 => ⟨S1x3, .f32⟩
  | 124 => ⟨S3, .f32⟩
  | 125 => ⟨S1x3, .f32⟩
  | 126 => ⟨S131072x3, .f32⟩
  | 127 => ⟨S131072x3, .f32⟩
  | _ => ⟨S131072x512, .f32⟩

abbrev hbmTy0_2 (i : Nat) : BufTy := match i % 128 with
  | 0 => ⟨S131072x3, .f32⟩
  | 1 => ⟨S_, .f32⟩
  | 2 => ⟨S131072x3, .f32⟩
  | 3 => ⟨S131072x3, .f32⟩
  | 4 => ⟨S131072x515, .f32⟩
  | 5 => ⟨S1x515x3, .f32⟩
  | 6 => ⟨S515x3, .f32⟩
  | 7 => ⟨S131072x3, .f32⟩
  | 8 => ⟨S1x3, .f32⟩
  | 9 => ⟨S3, .f32⟩
  | 10 => ⟨S1x3, .f32⟩
  | 11 => ⟨S131072x3, .f32⟩
  | 12 => ⟨S131072x3, .f32⟩
  | 13 => ⟨S131072x3, .f32⟩
  | 14 => ⟨S_, .f32⟩
  | 15 => ⟨S131072x3, .f32⟩
  | 16 => ⟨S131072x3, .f32⟩
  | 17 => ⟨S131072x515, .f32⟩
  | 18 => ⟨S1x515x3, .f32⟩
  | 19 => ⟨S515x3, .f32⟩
  | 20 => ⟨S131072x3, .f32⟩
  | 21 => ⟨S1x3, .f32⟩
  | 22 => ⟨S3, .f32⟩
  | 23 => ⟨S1x3, .f32⟩
  | 24 => ⟨S131072x3, .f32⟩
  | 25 => ⟨S131072x3, .f32⟩
  | 26 => ⟨S131072x3, .f32⟩
  | 27 => ⟨S_, .f32⟩
  | 28 => ⟨S131072x3, .f32⟩
  | 29 => ⟨S131072x3, .f32⟩
  | 30 => ⟨S131072x48, .f32⟩
  | 31 => ⟨S131072x18, .f32⟩
  | 32 => ⟨S131072x66, .f32⟩
  | _ => ⟨S131072x512, .f32⟩

abbrev hbmTy (i : Nat) : BufTy := match i / 128 with
  | 0 => hbmTy0_0 i
  | 1 => hbmTy0_1 i
  | 2 => hbmTy0_2 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_4 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_5 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_6 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_7 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_cst_8 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_9 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_cst_10 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_cst_11 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_cst_12 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_cst_13 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_cst_14 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_cst_15 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_cst_16 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_cst_17 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_cst_18 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_cst_19 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_cst_20 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S_S131072x3 : S_.BroadcastsInDim S131072x3 (![] : Fin 0 → Fin S131072x3.rank)
  concatenates_S131072x512_S131072x3_S131072x515_d1 : Shape.Concatenates [S131072x512, S131072x3] S131072x515 1
  slices_S22x515x3_S1x515x3_2_0_0 : S22x515x3.Slices ![2, 0, 0] S1x515x3
  shapeCasts_S1x515x3_S515x3 : S1x515x3.ShapeCasts S515x3
  slices_S22x3_S1x3_2_0 : S22x3.Slices ![2, 0] S1x3
  shapeCasts_S1x3_S3 : S1x3.ShapeCasts S3
  slices_S22x515x3_S1x515x3_5_0_0 : S22x515x3.Slices ![5, 0, 0] S1x515x3
  slices_S22x3_S1x3_5_0 : S22x3.Slices ![5, 0] S1x3
  slices_S22x515x3_S1x515x3_8_0_0 : S22x515x3.Slices ![8, 0, 0] S1x515x3
  slices_S22x3_S1x3_8_0 : S22x3.Slices ![8, 0] S1x3
  slices_S22x515x3_S1x515x3_11_0_0 : S22x515x3.Slices ![11, 0, 0] S1x515x3
  slices_S22x3_S1x3_11_0 : S22x3.Slices ![11, 0] S1x3
  slices_S22x515x3_S1x515x3_1_0_0 : S22x515x3.Slices ![1, 0, 0] S1x515x3
  slices_S22x3_S1x3_1_0 : S22x3.Slices ![1, 0] S1x3
  slices_S22x515x3_S1x515x3_4_0_0 : S22x515x3.Slices ![4, 0, 0] S1x515x3
  slices_S22x3_S1x3_4_0 : S22x3.Slices ![4, 0] S1x3
  slices_S22x515x3_S1x515x3_7_0_0 : S22x515x3.Slices ![7, 0, 0] S1x515x3
  slices_S22x3_S1x3_7_0 : S22x3.Slices ![7, 0] S1x3
  slices_S22x515x3_S1x515x3_10_0_0 : S22x515x3.Slices ![10, 0, 0] S1x515x3
  slices_S22x3_S1x3_10_0 : S22x3.Slices ![10, 0] S1x3
  slices_S22x515x3_S1x515x3_3_0_0 : S22x515x3.Slices ![3, 0, 0] S1x515x3
  slices_S22x3_S1x3_3_0 : S22x3.Slices ![3, 0] S1x3
  slices_S22x515x3_S1x515x3_6_0_0 : S22x515x3.Slices ![6, 0, 0] S1x515x3
  slices_S22x3_S1x3_6_0 : S22x3.Slices ![6, 0] S1x3
  slices_S22x515x3_S1x515x3_9_0_0 : S22x515x3.Slices ![9, 0, 0] S1x515x3
  slices_S22x3_S1x3_9_0 : S22x3.Slices ![9, 0] S1x3
  slices_S22x515x3_S1x515x3_12_0_0 : S22x515x3.Slices ![12, 0, 0] S1x515x3
  slices_S22x3_S1x3_12_0 : S22x3.Slices ![12, 0] S1x3
  slices_S22x515x3_S1x515x3_15_0_0 : S22x515x3.Slices ![15, 0, 0] S1x515x3
  slices_S22x3_S1x3_15_0 : S22x3.Slices ![15, 0] S1x3
  slices_S22x515x3_S1x515x3_14_0_0 : S22x515x3.Slices ![14, 0, 0] S1x515x3
  slices_S22x3_S1x3_14_0 : S22x3.Slices ![14, 0] S1x3
  slices_S22x515x3_S1x515x3_17_0_0 : S22x515x3.Slices ![17, 0, 0] S1x515x3
  slices_S22x3_S1x3_17_0 : S22x3.Slices ![17, 0] S1x3
  slices_S22x515x3_S1x515x3_19_0_0 : S22x515x3.Slices ![19, 0, 0] S1x515x3
  slices_S22x3_S1x3_19_0 : S22x3.Slices ![19, 0] S1x3
  slices_S22x515x3_S1x515x3_21_0_0 : S22x515x3.Slices ![21, 0, 0] S1x515x3
  slices_S22x3_S1x3_21_0 : S22x3.Slices ![21, 0] S1x3
  slices_S22x515x3_S1x515x3_13_0_0 : S22x515x3.Slices ![13, 0, 0] S1x515x3
  slices_S22x3_S1x3_13_0 : S22x3.Slices ![13, 0] S1x3
  slices_S22x515x3_S1x515x3_16_0_0 : S22x515x3.Slices ![16, 0, 0] S1x515x3
  slices_S22x3_S1x3_16_0 : S22x3.Slices ![16, 0] S1x3
  slices_S22x515x3_S1x515x3_18_0_0 : S22x515x3.Slices ![18, 0, 0] S1x515x3
  slices_S22x3_S1x3_18_0 : S22x3.Slices ![18, 0] S1x3
  slices_S22x515x3_S1x515x3_20_0_0 : S22x515x3.Slices ![20, 0, 0] S1x515x3
  slices_S22x3_S1x3_20_0 : S22x3.Slices ![20, 0] S1x3
  concatenates_S131072x3_S131072x3_S131072x3_S131072x3_S131072x3_S131072x3_S131072x3_S131072x3_S131072x3_S131072x3_S131072x3_S131072x3_S131072x3_S131072x3_S131072x3_S131072x3_S131072x48_d1 : Shape.Concatenates [S131072x3, S131072x3, S131072x3, S131072x3, S131072x3, S131072x3, S131072x3, S131072x3, S131072x3, S131072x3, S131072x3, S131072x3, S131072x3, S131072x3, S131072x3, S131072x3] S131072x48 1
  concatenates_S131072x3_S131072x3_S131072x3_S131072x3_S131072x3_S131072x3_S131072x18_d1 : Shape.Concatenates [S131072x3, S131072x3, S131072x3, S131072x3, S131072x3, S131072x3] S131072x18 1
  concatenates_S131072x48_S131072x18_S131072x66_d1 : Shape.Concatenates [S131072x48, S131072x18] S131072x66 1
  dot_S131072x512_S512x3_S131072x3_1_0_0_1_n_n_wf : DotDims.WF S131072x512 S512x3 S131072x3 [1] [0] [0] [1] [] []
  dot_S131072x515_S515x3_S131072x3_1_0_0_1_n_n_wf : DotDims.WF S131072x515 S515x3 S131072x3 [1] [0] [0] [1] [] []

variable [Facts₀]

def dot_S131072x512_S512x3_S131072x3_1_0_0_1_n_n : DotDims S131072x512 S512x3 S131072x3 where
  lhsContracting := [1]
  rhsContracting := [0]
  lhsNonContracting := [0]
  rhsNonContracting := [1]
  lhsBatch := []
  rhsBatch := []
  wf := dot_S131072x512_S512x3_S131072x3_1_0_0_1_n_n_wf
def dot_S131072x515_S515x3_S131072x3_1_0_0_1_n_n : DotDims S131072x515 S515x3 S131072x3 where
  lhsContracting := [1]
  rhsContracting := [0]
  lhsNonContracting := [0]
  rhsNonContracting := [1]
  lhsBatch := []
  rhsBatch := []
  wf := dot_S131072x515_S515x3_S131072x3_1_0_0_1_n_n_wf

class Facts : Prop extends Facts₀ where

variable [Facts]
-- ==== Proof.BitsEntry.lean ====
/-
  The program's run up to its one pallas_call, and what the call finds: the host prelude builds the fused
  weight matrix (every joint's context-side weight slice side by side, zero-padded to 128 lanes), the fused
  bias row and the stack of 3x3 parent-joint weights; none of those host operations writes an argument array,
  so the call finds the five arguments as launched. Stated for any float instance.
-/
import proofs.«137270_j20160576487702_2_alg».proof.Proof.Gen.Kernel.Launch
import proofs.«137270_j20160576487702_2_alg».proof.Proof.Gen.Kernel.Skeleton
import proofs.«137270_j20160576487702_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the call is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the call: five stretches of host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes a buffer that is none of the results: such a buffer is found as launched. -/
theorem V_keep (c : Dev nD) (b : Ref sig .tc)
    (h : ∀ op ∈ (List.flatten [hostOps0, hostOps0_1, hostOps0_2, hostOps0_3, hostOps0_4] : List (HloOp τ sig (Elt F))), (Proc.devRef .tc b : DevRef τ sig) ∉ op.writes) :
    V m c b = m ((c : Thread nD τ).loc b) :=
  StableHlo.after_of_forall_not_mem (b := Proc.devRef .tc b) _ _ h

set_option maxHeartbeats 4000000 in
theorem V_main_arg0 (c : Dev nD) : V m c main_arg0 = m ((c : Thread nD τ).loc main_arg0) :=
  V_keep m c main_arg0 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  V_keep m c main_arg1 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  V_keep m c main_arg2 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  V_keep m c main_arg3 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  V_keep m c main_arg4 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From a run to the library's frame post, the five argument arrays end as launched: the first is the staged
    input of window 0, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.Kernel.Entry

end
-- ==== Proof.BitsRun.lean ====
/-
  The kernel body at one grid point, run once on whole staging memrefs. The body first stores the fused product
  (context block times the fused weight matrix, plus the fused bias row) whole into its first scratch array, then
  fills its second scratch array three lanes at a time — the root joint, then each child from its parent's three
  lanes — and last copies lanes 0..65 of the second scratch array whole into the output block. What the output
  block ends with is found by the run as a list of stored pieces; it is the one whole-block store.
-/
import proofs.«137270_j20160576487702_2_alg».proof.Proof.Gen.Kernel.Launch
import proofs.«137270_j20160576487702_2_alg».proof.Proof.Gen.Kernel.Skeleton
import proofs.«137270_j20160576487702_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO0_4 : View sig .tc .vmem S4096x66 .f32 := (Memref.whole cc0_stg4_0 : Memref sig .tc .vmem S4096x66 .f32).view
/-- Each window's current staging memref at point `t`, as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S22x3x3 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x66 .f32 := win0_4.stage (cfg0.slots t 4)
abbrev hs0_4 (t : Fin cfg0.N) : (ms0_4 t).IsWhole := hstage0_4 ((cfg0.slots t 4).cast nbuf0_4)
/-- The two scratch arrays: whole scoped buffers of the kernel's own. -/
abbrev scM0_0 : Memref sig .tc .vmem S4096x128 .f32 := Memref.whole cc0_scratch0
abbrev scM0_1 : Memref sig .tc .vmem S4096x128 .f32 := Memref.whole cc0_scratch1

/-- The pipeline's invariant with the two scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The body on whole memrefs — the four inputs at their contents, the output and the two scratch arrays at
    anything — runs to the continuation with the inputs as they were, the scratch arrays at some contents and the
    output's buffer with the run's pieces written. -/
noncomputable def kernelRun (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) :
    { L4 : List (View.Piece (Elt F) S4096x66 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ d, owns (c : Thread nD τ) arg6 fullShare d) ∗ (∃ d, owns (c : Thread nD τ) arg7 fullShare d)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _, _; isplitr; swap; · iexact HS0
      ipureintro; rfl
    iexists _, _; isplitr; swap; · iexact HS1
    ipureintro; rfl

end Cert.Kernel.Entry

end
-- ==== Proof.BitsFrame.lean ====
/-
  The pallas_call as a whole: at every grid point the body is handed its four input blocks (the context rows of
  the point, and the three parameter arrays whole) and leaves in the output block what the body's run found; the
  two scratch arrays are the kernel's own and are handed over and taken back at arbitrary contents, since every
  lane the body reads from them it has stored earlier at the same point. From this the program runs to the end
  without a fault, and its argument arrays end as launched. Stated for any float instance.
-/
import proofs.«137270_j20160576487702_2_alg».proof.Proof.BitsEntry
import proofs.«137270_j20160576487702_2_alg».proof.Proof.BitsRun

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block tile it (one whole-block store), so they cover it. -/
theorem cover0_4 (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) (y : S4096x66.Idx) :
    ∃ pc ∈ (kernelRun c i arg1 harg1 arg2 harg2 arg3 harg3 arg4 harg4 arg5 harg5 arg6 harg6 arg7 harg7 x0 x1 x2 x3).1, y ∈ pc.1.set :=
  View.cover_of_tiledL (kernelRun c i arg1 harg1 arg2 harg2 arg3 harg3 arg4 harg4 arg5 harg5 arg6 harg6 arg7 harg7 x0 x1 x2 x3).1 S4096x66.size (by sl_kernel_rfl) y

/-- What the run leaves in the output block: its pieces read back. -/
def out0_4 (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) : Vec F S4096x66 .f32 :=
  VO0_4.read (Elt F) (VO0_4.writes (Elt F) VO0_4.junk (kernelRun c i arg1 harg1 arg2 harg2 arg3 harg3 arg4 harg4 arg5 harg5 arg6 harg6 arg7 harg7 x0 x1 x2 x3).1)

/-- What the output block holds after the body at point `t`: the run's contents at the point's memrefs and input blocks. -/
def outsAt0 (c : Dev nD) (t : Fin cfg0.N) : Vec F S4096x66 .f32 :=
  out0_4 c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (iblk m c 3 t)

/-- The pipeline's proof data: the arrays as the call finds them; after the body each input's buffer at its block and
    the output's at `outsAt0`; the invariant holds the two scratch arrays and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks, so the run applies; the invariant hands the body its
    two scratch arrays at some contents and takes them back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_4
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, each array of the pipeline ending at what the
    library computes from the proof data and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Entry

end
-- ==== Proof.IdealEntry.lean ====
/-
  The program's run up to its one pallas_call, and what the call finds: the host prelude builds the fused
  weight matrix (every joint's context-side weight slice side by side, zero-padded to 128 lanes), the fused
  bias row and the stack of 3x3 parent-joint weights; none of those host operations writes an argument array,
  so the call finds the five arguments as launched. Stated for any float instance.
-/
import proofs.«137270_j20160576487702_2_alg».proof.Proof.Gen.KernelIdeal.Launch
import proofs.«137270_j20160576487702_2_alg».proof.Proof.Gen.KernelIdeal.Skeleton
import proofs.«137270_j20160576487702_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the call is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- The program up to the call: five stretches of host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes a buffer that is none of the results: such a buffer is found as launched. -/
theorem V_keep (c : Dev nD) (b : Ref sig .tc)
    (h : ∀ op ∈ (List.flatten [hostOps0, hostOps0_1, hostOps0_2, hostOps0_3, hostOps0_4] : List (HloOp τ sig (Elt F))), (Proc.devRef .tc b : DevRef τ sig) ∉ op.writes) :
    V m c b = m ((c : Thread nD τ).loc b) :=
  StableHlo.after_of_forall_not_mem (b := Proc.devRef .tc b) _ _ h

set_option maxHeartbeats 4000000 in
theorem V_main_arg0 (c : Dev nD) : V m c main_arg0 = m ((c : Thread nD τ).loc main_arg0) :=
  V_keep m c main_arg0 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  V_keep m c main_arg1 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  V_keep m c main_arg2 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  V_keep m c main_arg3 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))
set_option maxHeartbeats 4000000 in
theorem V_main_arg4 (c : Dev nD) : V m c main_arg4 = m ((c : Thread nD τ).loc main_arg4) :=
  V_keep m c main_arg4 (List.forall_iff_forall_mem.mp (by
    simp only [hostOps0, hostOps0_1, hostOps0_2, hostOps0_3, hostOps0_4, List.flatten_cons, List.flatten_nil, List.append_nil, List.cons_append,
      List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From a run to the library's frame post, the five argument arrays end as launched: the first is the staged
    input of window 0, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.KernelIdeal.Entry

end
-- ==== Proof.IdealRun.lean ====
/-
  The kernel body at one grid point, run once on whole staging memrefs. The body first stores the fused product
  (context block times the fused weight matrix, plus the fused bias row) whole into its first scratch array, then
  fills its second scratch array three lanes at a time — the root joint, then each child from its parent's three
  lanes — and last copies lanes 0..65 of the second scratch array whole into the output block. What the output
  block ends with is found by the run as a list of stored pieces; it is the one whole-block store.
-/
import proofs.«137270_j20160576487702_2_alg».proof.Proof.Gen.KernelIdeal.Launch
import proofs.«137270_j20160576487702_2_alg».proof.Proof.Gen.KernelIdeal.Skeleton
import proofs.«137270_j20160576487702_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which its contents are stated. -/
abbrev VO0_4 : View sig .tc .vmem S4096x66 .f32 := (Memref.whole cc0_stg4_0 : Memref sig .tc .vmem S4096x66 .f32).view
/-- Each window's current staging memref at point `t`, as the pipeline passes it, and its wholeness. -/
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S22x3x3 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x66 .f32 := win0_4.stage (cfg0.slots t 4)
abbrev hs0_4 (t : Fin cfg0.N) : (ms0_4 t).IsWhole := hstage0_4 ((cfg0.slots t 4).cast nbuf0_4)
/-- The two scratch arrays: whole scoped buffers of the kernel's own. -/
abbrev scM0_0 : Memref sig .tc .vmem S4096x128 .f32 := Memref.whole cc0_scratch0
abbrev scM0_1 : Memref sig .tc .vmem S4096x128 .f32 := Memref.whole cc0_scratch1

/-- The pipeline's invariant with the two scratch arrays as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The body on whole memrefs — the four inputs at their contents, the output and the two scratch arrays at
    anything — runs to the continuation with the inputs as they were, the scratch arrays at some contents and the
    output's buffer with the run's pieces written. -/
noncomputable def kernelRun (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) :
    { L4 : List (View.Piece (Elt F) S4096x66 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ d, owns (c : Thread nD τ) arg6 fullShare d) ∗ (∃ d, owns (c : Thread nD τ) arg7 fullShare d)) -∗ K ⟨⟩))
          ⊢ wp frame (wpE (defs₀ (F := F)) Variants.none c none) E (cc0__kernel i arg1 harg1 arg2 harg2 arg3 harg3 arg4 harg4 arg5 harg5 arg6 harg6 arg7 harg7) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _, _; isplitr; swap; · iexact HS0
      ipureintro; rfl
    iexists _, _; isplitr; swap; · iexact HS1
    ipureintro; rfl

end Cert.KernelIdeal.Entry

end
-- ==== Proof.IdealFrame.lean ====
/-
  The pallas_call as a whole: at every grid point the body is handed its four input blocks (the context rows of
  the point, and the three parameter arrays whole) and leaves in the output block what the body's run found; the
  two scratch arrays are the kernel's own and are handed over and taken back at arbitrary contents, since every
  lane the body reads from them it has stored earlier at the same point. From this the program runs to the end
  without a fault, and its argument arrays end as launched. Stated for any float instance.
-/
import proofs.«137270_j20160576487702_2_alg».proof.Proof.IdealEntry
import proofs.«137270_j20160576487702_2_alg».proof.Proof.IdealRun

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output block tile it (one whole-block store), so they cover it. -/
theorem cover0_4 (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) (y : S4096x66.Idx) :
    ∃ pc ∈ (kernelRun c i arg1 harg1 arg2 harg2 arg3 harg3 arg4 harg4 arg5 harg5 arg6 harg6 arg7 harg7 x0 x1 x2 x3).1, y ∈ pc.1.set :=
  View.cover_of_tiledL (kernelRun c i arg1 harg1 arg2 harg2 arg3 harg3 arg4 harg4 arg5 harg5 arg6 harg6 arg7 harg7 x0 x1 x2 x3).1 S4096x66.size (by sl_kernel_rfl) y

/-- What the run leaves in the output block: its pieces read back. -/
def out0_4 (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole)
    (x0 : Vec F S4096x512 .f32) (x1 : Vec F S512x128 .bf16) (x2 : Vec F S1x128 .f32) (x3 : Vec F S22x3x3 .bf16) : Vec F S4096x66 .f32 :=
  VO0_4.read (Elt F) (VO0_4.writes (Elt F) VO0_4.junk (kernelRun c i arg1 harg1 arg2 harg2 arg3 harg3 arg4 harg4 arg5 harg5 arg6 harg6 arg7 harg7 x0 x1 x2 x3).1)

/-- What the output block holds after the body at point `t`: the run's contents at the point's memrefs and input blocks. -/
def outsAt0 (c : Dev nD) (t : Fin cfg0.N) : Vec F S4096x66 .f32 :=
  out0_4 c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (iblk m c 3 t)

/-- The pipeline's proof data: the arrays as the call finds them; after the body each input's buffer at its block and
    the output's at `outsAt0`; the invariant holds the two scratch arrays and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point: the inputs' memrefs hold their blocks, so the run applies; the invariant hands the body its
    two scratch arrays at some contents and takes them back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_4
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, each array of the pipeline ending at what the
    library computes from the proof data and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and its five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Entry

end
-- ==== Proof.Joints.lean ====
/-
  The layer both programs compute, as functions of whole arrays over the extended reals, for any number of rows.

  Every row of the context array is treated independently. The root joint is
  `act (Σ_d x_d · W0[d, k] + b0[k])`, where `act y = tanh y · π̃` and π̃ is one fixed binary32 number. Every other
  joint `j` has one parent `p(j)`, already computed, and is
  `act (Σ_{d < 515} [x, J_p]_d · W[j, d, k] + b[j, k])`, the context row followed by the parent's three numbers
  contracted against all 515 rows of joint `j`'s weight matrix. The result lays the 22 joints side by side,
  three columns each.

  The second form of a child splits the contraction where the row was joined: the 512 context terms plus the bias
  first, the three parent terms added afterwards. Both are one number: on the extended reals addition is
  associative and commutative without any finiteness, so regrouping
  `(A + C) + b = (A + b) + C` needs no hypothesis on the entries.
-/
import Idealize.ShloMosaic.PureOps.Ideal
import Idealize.ShloMosaic.Lib.ValueIdx
import Mathlib.Algebra.BigOperators.Fin

noncomputable section

open scoped BigOperators

namespace Cert.Joints

open Idealize.ShloMosaic Idealize.ShloMosaic.ValueIdx

/-- A matrix of extended reals with `R` rows and `n` columns. -/
abbrev Mat (R n : Nat) := (⟨2, ![R, n]⟩ : Shape).Idx → EReal
/-- The 22 weight matrices, each 515 by 3. -/
abbrev Wts := (⟨3, ![22, 515, 3]⟩ : Shape).Idx → EReal
/-- A vector of three extended reals. -/
abbrev Vec3 := (⟨1, ![3]⟩ : Shape).Idx → EReal

/-- The squashing every joint ends with: the hyperbolic tangent, scaled by the binary32 number nearest 3.1415926. -/
def act (y : EReal) : EReal := Ideal.tanh y * Ideal.ofBits .f32 0x40490FDA#32

variable {R : Nat}

/-- The root joint at row `r`, number `k`. -/
def rootAt (X : Mat R 512) (W0 : Mat 512 3) (b0 : Vec3) (r : Fin R) (k : Fin 3) : EReal :=
  act ((∑ d : Fin 512, X (ix2 r d) * W0 (ix2 d k)) + b0 (ix1 k))

/-- The root joint. -/
def root (X : Mat R 512) (W0 : Mat 512 3) (b0 : Vec3) : Mat R 3 := fun i => rootAt X W0 b0 (i 0) (i 1)

/-- A context row followed by the parent's three numbers. -/
def joined (X : Mat R 512) (P : Mat R 3) (r : Fin R) (d : Fin 515) : EReal :=
  if h : d.val < 512 then X (ix2 r ⟨d.val, h⟩) else P (ix2 r ⟨d.val - 512, by have := d.isLt; omega⟩)

/-- Joint `j` from its parent `P` at row `r`, number `k`: one contraction over the joined row. -/
def childAt (W : Wts) (b : Mat 22 3) (j : Fin 22) (X : Mat R 512) (P : Mat R 3) (r : Fin R) (k : Fin 3) : EReal :=
  act ((∑ d : Fin 515, joined X P r d * W (ix3 j d k)) + b (ix2 j k))

/-- Joint `j` from its parent. -/
def child (W : Wts) (b : Mat 22 3) (j : Fin 22) (X : Mat R 512) (P : Mat R 3) : Mat R 3 :=
  fun i => childAt W b j X P (i 0) (i 1)

/-- The same number with the contraction split: context terms and bias first, the three parent terms after. -/
def childSplitAt (W : Wts) (b : Mat 22 3) (j : Fin 22) (X : Mat R 512) (P : Mat R 3) (r : Fin R) (k : Fin 3) : EReal :=
  act (((∑ d : Fin 512, X (ix2 r d) * W (ix3 j ⟨d.val, by have := d.isLt; omega⟩ k)) + b (ix2 j k))
    + ∑ e : Fin 3, P (ix2 r e) * W (ix3 j ⟨512 + e.val, by have := e.isLt; omega⟩ k))

/-- The two forms agree: a sum over 515 = 512 + 3 places is the sum over the first 512 plus the sum over the last 3, and
    addition of extended reals may be regrouped freely. -/
theorem childSplitAt_eq (W : Wts) (b : Mat 22 3) (j : Fin 22) (X : Mat R 512) (P : Mat R 3) (r : Fin R) (k : Fin 3) :
    childSplitAt W b j X P r k = childAt W b j X P r k := by
  unfold childSplitAt childAt
  congr 1
  have hs : (∑ d : Fin (512 + 3), joined X P r d * W (ix3 j d k))
      = (∑ d : Fin 512, X (ix2 r d) * W (ix3 j ⟨d.val, by have := d.isLt; omega⟩ k))
        + ∑ e : Fin 3, P (ix2 r e) * W (ix3 j ⟨512 + e.val, by have := e.isLt; omega⟩ k) := by
    rw [Fin.sum_univ_add]
    refine congrArg₂ (· + ·) (Finset.sum_congr rfl fun d _ => ?_) (Finset.sum_congr rfl fun e _ => ?_)
    · unfold joined
      rw [dif_pos (show (Fin.castAdd 3 d).val < 512 from d.isLt)]
      rfl
    · unfold joined
      rw [dif_neg (show ¬ (Fin.natAdd 512 e).val < 512 by simp [Fin.natAdd])]
      refine congrArg₂ (· * ·) (congrArg (fun q => P (ix2 r q)) (Fin.ext ?_)) rfl
      show 512 + e.val - 512 = e.val
      omega
  exact (add_right_comm _ _ _).trans (congrArg (· + b (ix2 j k)) hs.symm)

section Layer

variable (X : Mat R 512) (W0 : Mat 512 3) (b0 : Vec3) (W : Wts) (b : Mat 22 3)

/-- The 22 joints in the order the chains compute them; each names its parent. -/
def j0 : Mat R 3 := root X W0 b0
def j2 : Mat R 3 := child W b 2 X (j0 X W0 b0)
def j5 : Mat R 3 := child W b 5 X (j2 X W0 b0 W b)
def j8 : Mat R 3 := child W b 8 X (j5 X W0 b0 W b)
def j11 : Mat R 3 := child W b 11 X (j8 X W0 b0 W b)
def j1 : Mat R 3 := child W b 1 X (j0 X W0 b0)
def j4 : Mat R 3 := child W b 4 X (j1 X W0 b0 W b)
def j7 : Mat R 3 := child W b 7 X (j4 X W0 b0 W b)
def j10 : Mat R 3 := child W b 10 X (j7 X W0 b0 W b)
def j3 : Mat R 3 := child W b 3 X (j0 X W0 b0)
def j6 : Mat R 3 := child W b 6 X (j3 X W0 b0 W b)
def j9 : Mat R 3 := child W b 9 X (j6 X W0 b0 W b)
def j12 : Mat R 3 := child W b 12 X (j9 X W0 b0 W b)
def j15 : Mat R 3 := child W b 15 X (j12 X W0 b0 W b)
def j14 : Mat R 3 := child W b 14 X (j9 X W0 b0 W b)
def j17 : Mat R 3 := child W b 17 X (j14 X W0 b0 W b)
def j19 : Mat R 3 := child W b 19 X (j17 X W0 b0 W b)
def j21 : Mat R 3 := child W b 21 X (j19 X W0 b0 W b)
def j13 : Mat R 3 := child W b 13 X (j9 X W0 b0 W b)
def j16 : Mat R 3 := child W b 16 X (j13 X W0 b0 W b)
def j18 : Mat R 3 := child W b 18 X (j16 X W0 b0 W b)
def j20 : Mat R 3 := child W b 20 X (j18 X W0 b0 W b)

/-- Joint number `j` (numbers past 21 are never asked for). -/
def joint : Nat → Mat R 3
  | 0 => j0 X W0 b0 | 1 => j1 X W0 b0 W b | 2 => j2 X W0 b0 W b | 3 => j3 X W0 b0 W b | 4 => j4 X W0 b0 W b
  | 5 => j5 X W0 b0 W b | 6 => j6 X W0 b0 W b | 7 => j7 X W0 b0 W b | 8 => j8 X W0 b0 W b | 9 => j9 X W0 b0 W b
  | 10 => j10 X W0 b0 W b | 11 => j11 X W0 b0 W b | 12 => j12 X W0 b0 W b | 13 => j13 X W0 b0 W b
  | 14 => j14 X W0 b0 W b | 15 => j15 X W0 b0 W b | 16 => j16 X W0 b0 W b | 17 => j17 X W0 b0 W b
  | 18 => j18 X W0 b0 W b | 19 => j19 X W0 b0 W b | 20 => j20 X W0 b0 W b | 21 => j21 X W0 b0 W b
  | _ => j0 X W0 b0

/-- The layer's result at row `r`, column `c`: number `c % 3` of joint `c / 3`. -/
def outAt (r : Fin R) (c : Fin 66) : EReal :=
  joint X W0 b0 W b (c.val / 3) (ix2 r ⟨c.val % 3, Nat.mod_lt _ (by norm_num)⟩)

/-- The layer's result: the joints side by side, three columns each. -/
def out : Mat R 66 := fun i => outAt X W0 b0 W b (i 0) (i 1)

end Layer

end Cert.Joints

end
-- ==== Proof.BlockJoints.lean ====
/-
  The same layer as the kernel arranges it. All 22 joints' context-side weights sit side by side in one fused matrix
  with 128 columns (joint `j`, number `k` in column `3 j + k`; the columns from 66 on are padding and are never
  read), the biases in one fused row, and the parent-side 3x3 weights in a stack. One product of a block of context
  rows with the fused matrix, plus the fused row, gives every joint's context term and bias at once; a child then
  adds its parent's three numbers contracted with its 3x3 matrix. Row by row this is the split form of the layer, so it
  is the layer itself, whatever block of rows the kernel is looking at.
-/
import proofs.«137270_j20160576487702_2_alg».proof.Proof.Joints

noncomputable section

open scoped BigOperators

namespace Cert.Joints

open Idealize.ShloMosaic Idealize.ShloMosaic.ValueIdx

/-- The stack of 22 parent-side 3x3 weight matrices. -/
abbrev Stack := (⟨3, ![22, 3, 3]⟩ : Shape).Idx → EReal

/-- The fused column of joint `j`, number `k`. -/
def col (j : Fin 22) (k : Fin 3) : Fin 128 := ⟨3 * j.val + k.val, by have := j.isLt; have := k.isLt; omega⟩

variable {R R' : Nat}

/-- The fused product plus the fused bias row, at row `p` and fused column `c`. -/
def baseAt (x : Mat R' 512) (Wall : Mat 512 128) (ball : Mat 1 128) (p : Fin R') (c : Fin 128) : EReal :=
  (∑ d : Fin 512, x (ix2 p d) * Wall (ix2 d c)) + ball (ix2 0 c)

/-- The root joint off the fused product. -/
def kRootAt (x : Mat R' 512) (Wall : Mat 512 128) (ball : Mat 1 128) (p : Fin R') (k : Fin 3) : EReal :=
  act (baseAt x Wall ball p (col 0 k))

/-- A child off the fused product and its parent's three numbers. -/
def kChildAt (x : Mat R' 512) (Wall : Mat 512 128) (ball : Mat 1 128) (Wj : Stack) (j : Fin 22) (P : Mat R' 3)
    (p : Fin R') (k : Fin 3) : EReal :=
  act (baseAt x Wall ball p (col j k) + ∑ e : Fin 3, P (ix2 p e) * Wj (ix3 j e k))

/-- What the fused arrays hold, in terms of the layer's parameters. -/
structure Fused (W0 : Mat 512 3) (b0 : Vec3) (W : Wts) (b : Mat 22 3) (Wall : Mat 512 128) (ball : Mat 1 128) (Wj : Stack) : Prop where
  wall0 : ∀ (d : Fin 512) (k : Fin 3), Wall (ix2 d (col 0 k)) = W0 (ix2 d k)
  wall : ∀ (j : Fin 22), j.val ≠ 0 → ∀ (d : Fin 512) (k : Fin 3),
    Wall (ix2 d (col j k)) = W (ix3 j ⟨d.val, by have := d.isLt; omega⟩ k)
  ball0 : ∀ k : Fin 3, ball (ix2 0 (col 0 k)) = b0 (ix1 k)
  ball : ∀ (j : Fin 22), j.val ≠ 0 → ∀ k : Fin 3, ball (ix2 0 (col j k)) = b (ix2 j k)
  stack : ∀ (j : Fin 22), j.val ≠ 0 → ∀ (e k : Fin 3),
    Wj (ix3 j e k) = W (ix3 j ⟨512 + e.val, by have := e.isLt; omega⟩ k)

variable {W0 : Mat 512 3} {b0 : Vec3} {W : Wts} {b : Mat 22 3} {Wall : Mat 512 128} {ball : Mat 1 128} {Wj : Stack}

/-- The root joint off the fused product is the layer's root joint, at a row of the block that is row `r` of the array. -/
theorem kRootAt_eq (h : Fused W0 b0 W b Wall ball Wj) (x : Mat R' 512) (X : Mat R 512) (p : Fin R') (r : Fin R)
    (hx : ∀ d : Fin 512, x (ix2 p d) = X (ix2 r d)) (k : Fin 3) :
    kRootAt x Wall ball p k = rootAt X W0 b0 r k := by
  unfold kRootAt rootAt baseAt
  rw [h.ball0 k]
  exact congrArg (fun s => act (s + b0 (ix1 k))) (Finset.sum_congr rfl fun d _ => by rw [hx d, h.wall0 d k])

/-- A child off the fused product is the layer's child, when the parent's numbers agree on the row. -/
theorem kChildAt_eq (h : Fused W0 b0 W b Wall ball Wj) (j : Fin 22) (hj : j.val ≠ 0) (x : Mat R' 512) (X : Mat R 512)
    (p : Fin R') (r : Fin R) (hx : ∀ d : Fin 512, x (ix2 p d) = X (ix2 r d)) (P' : Mat R' 3) (P : Mat R 3)
    (hP : ∀ e : Fin 3, P' (ix2 p e) = P (ix2 r e)) (k : Fin 3) :
    kChildAt x Wall ball Wj j P' p k = childAt W b j X P r k := by
  rw [← childSplitAt_eq]
  unfold kChildAt childSplitAt baseAt
  rw [h.ball j hj k]
  refine congrArg act (congrArg₂ (· + ·) (congrArg (· + b (ix2 j k)) (Finset.sum_congr rfl fun d _ => ?_))
    (Finset.sum_congr rfl fun e _ => ?_))
  · rw [hx d, h.wall j hj d k]
  · rw [hP e, h.stack j hj e k]

section BlockLayer

variable (x : Mat R' 512) (Wall : Mat 512 128) (ball : Mat 1 128) (Wj : Stack)

/-- The root joint of a block of rows, off the fused product. -/
def kroot : Mat R' 3 := fun i => kRootAt x Wall ball (i 0) (i 1)
/-- A child of a block of rows, off the fused product and its parent. -/
def kchild (j : Fin 22) (P : Mat R' 3) : Mat R' 3 := fun i => kChildAt x Wall ball Wj j P (i 0) (i 1)

/-- The 22 joints of a block of rows, in the order the kernel fills them. -/
def kj0 : Mat R' 3 := kroot x Wall ball
def kj2 : Mat R' 3 := kchild x Wall ball Wj 2 (kj0 x Wall ball)
def kj5 : Mat R' 3 := kchild x Wall ball Wj 5 (kj2 x Wall ball Wj)
def kj8 : Mat R' 3 := kchild x Wall ball Wj 8 (kj5 x Wall ball Wj)
def kj11 : Mat R' 3 := kchild x Wall ball Wj 11 (kj8 x Wall ball Wj)
def kj1 : Mat R' 3 := kchild x Wall ball Wj 1 (kj0 x Wall ball)
def kj4 : Mat R' 3 := kchild x Wall ball Wj 4 (kj1 x Wall ball Wj)
def kj7 : Mat R' 3 := kchild x Wall ball Wj 7 (kj4 x Wall ball Wj)
def kj10 : Mat R' 3 := kchild x Wall ball Wj 10 (kj7 x Wall ball Wj)
def kj3 : Mat R' 3 := kchild x Wall ball Wj 3 (kj0 x Wall ball)
def kj6 : Mat R' 3 := kchild x Wall ball Wj 6 (kj3 x Wall ball Wj)
def kj9 : Mat R' 3 := kchild x Wall ball Wj 9 (kj6 x Wall ball Wj)
def kj12 : Mat R' 3 := kchild x Wall ball Wj 12 (kj9 x Wall ball Wj)
def kj15 : Mat R' 3 := kchild x Wall ball Wj 15 (kj12 x Wall ball Wj)
def kj14 : Mat R' 3 := kchild x Wall ball Wj 14 (kj9 x Wall ball Wj)
def kj17 : Mat R' 3 := kchild x Wall ball Wj 17 (kj14 x Wall ball Wj)
def kj19 : Mat R' 3 := kchild x Wall ball Wj 19 (kj17 x Wall ball Wj)
def kj21 : Mat R' 3 := kchild x Wall ball Wj 21 (kj19 x Wall ball Wj)
def kj13 : Mat R' 3 := kchild x Wall ball Wj 13 (kj9 x Wall ball Wj)
def kj16 : Mat R' 3 := kchild x Wall ball Wj 16 (kj13 x Wall ball Wj)
def kj18 : Mat R' 3 := kchild x Wall ball Wj 18 (kj16 x Wall ball Wj)
def kj20 : Mat R' 3 := kchild x Wall ball Wj 20 (kj18 x Wall ball Wj)

/-- Joint number `n` of the block (numbers past 21 are never asked for). -/
def kjoint : Nat → Mat R' 3
  | 0 => kj0 x Wall ball | 1 => kj1 x Wall ball Wj | 2 => kj2 x Wall ball Wj | 3 => kj3 x Wall ball Wj | 4 => kj4 x Wall ball Wj | 5 => kj5 x Wall ball Wj | 6 => kj6 x Wall ball Wj | 7 => kj7 x Wall ball Wj | 8 => kj8 x Wall ball Wj | 9 => kj9 x Wall ball Wj | 10 => kj10 x Wall ball Wj | 11 => kj11 x Wall ball Wj | 12 => kj12 x Wall ball Wj | 13 => kj13 x Wall ball Wj | 14 => kj14 x Wall ball Wj | 15 => kj15 x Wall ball Wj | 16 => kj16 x Wall ball Wj | 17 => kj17 x Wall ball Wj | 18 => kj18 x Wall ball Wj | 19 => kj19 x Wall ball Wj | 20 => kj20 x Wall ball Wj | 21 => kj21 x Wall ball Wj
  | _ => kj0 x Wall ball

end BlockLayer

/-- Joint by joint, the block's joints are the layer's joints at the rows the block holds: `ρ` sends a row of the
    block to its row in the array. -/
theorem kjoint_eq (h : Fused W0 b0 W b Wall ball Wj) (x : Mat R' 512) (X : Mat R 512) (ρ : Fin R' → Fin R)
    (hx : ∀ (p : Fin R') (d : Fin 512), x (ix2 p d) = X (ix2 (ρ p) d)) (p : Fin R') :
    ∀ (n : Nat), n < 22 → ∀ k : Fin 3, kjoint x Wall ball Wj n (ix2 p k) = joint X W0 b0 W b n (ix2 (ρ p) k) := by
  have h0 : ∀ k : Fin 3, kj0 x Wall ball (ix2 p k) = j0 X W0 b0 (ix2 (ρ p) k) := fun k => kRootAt_eq h x X p (ρ p) (hx p) k
  have h2 : ∀ k : Fin 3, kj2 x Wall ball Wj (ix2 p k) = j2 X W0 b0 W b (ix2 (ρ p) k) := fun k =>
    kChildAt_eq h 2 (by decide) x X p (ρ p) (hx p) (kj0 x Wall ball) (j0 X W0 b0) h0 k
  have h5 : ∀ k : Fin 3, kj5 x Wall ball Wj (ix2 p k) = j5 X W0 b0 W b (ix2 (ρ p) k) := fun k =>
    kChildAt_eq h 5 (by decide) x X p (ρ p) (hx p) (kj2 x Wall ball Wj) (j2 X W0 b0 W b) h2 k
  have h8 : ∀ k : Fin 3, kj8 x Wall ball Wj (ix2 p k) = j8 X W0 b0 W b (ix2 (ρ p) k) := fun k =>
    kChildAt_eq h 8 (by decide) x X p (ρ p) (hx p) (kj5 x Wall ball Wj) (j5 X W0 b0 W b) h5 k
  have h11 : ∀ k : Fin 3, kj11 x Wall ball Wj (ix2 p k) = j11 X W0 b0 W b (ix2 (ρ p) k) := fun k =>
    kChildAt_eq h 11 (by decide) x X p (ρ p) (hx p) (kj8 x Wall ball Wj) (j8 X W0 b0 W b) h8 k
  have h1 : ∀ k : Fin 3, kj1 x Wall ball Wj (ix2 p k) = j1 X W0 b0 W b (ix2 (ρ p) k) := fun k =>
    kChildAt_eq h 1 (by decide) x X p (ρ p) (hx p) (kj0 x Wall ball) (j0 X W0 b0) h0 k
  have h4 : ∀ k : Fin 3, kj4 x Wall ball Wj (ix2 p k) = j4 X W0 b0 W b (ix2 (ρ p) k) := fun k =>
    kChildAt_eq h 4 (by decide) x X p (ρ p) (hx p) (kj1 x Wall ball Wj) (j1 X W0 b0 W b) h1 k
  have h7 : ∀ k : Fin 3, kj7 x Wall ball Wj (ix2 p k) = j7 X W0 b0 W b (ix2 (ρ p) k) := fun k =>
    kChildAt_eq h 7 (by decide) x X p (ρ p) (hx p) (kj4 x Wall ball Wj) (j4 X W0 b0 W b) h4 k
  have h10 : ∀ k : Fin 3, kj10 x Wall ball Wj (ix2 p k) = j10 X W0 b0 W b (ix2 (ρ p) k) := fun k =>
    kChildAt_eq h 10 (by decide) x X p (ρ p) (hx p) (kj7 x Wall ball Wj) (j7 X W0 b0 W b) h7 k
  have h3 : ∀ k : Fin 3, kj3 x Wall ball Wj (ix2 p k) = j3 X W0 b0 W b (ix2 (ρ p) k) := fun k =>
    kChildAt_eq h 3 (by decide) x X p (ρ p) (hx p) (kj0 x Wall ball) (j0 X W0 b0) h0 k
  have h6 : ∀ k : Fin 3, kj6 x Wall ball Wj (ix2 p k) = j6 X W0 b0 W b (ix2 (ρ p) k) := fun k =>
    kChildAt_eq h 6 (by decide) x X p (ρ p) (hx p) (kj3 x Wall ball Wj) (j3 X W0 b0 W b) h3 k
  have h9 : ∀ k : Fin 3, kj9 x Wall ball Wj (ix2 p k) = j9 X W0 b0 W b (ix2 (ρ p) k) := fun k =>
    kChildAt_eq h 9 (by decide) x X p (ρ p) (hx p) (kj6 x Wall ball Wj) (j6 X W0 b0 W b) h6 k
  have h12 : ∀ k : Fin 3, kj12 x Wall ball Wj (ix2 p k) = j12 X W0 b0 W b (ix2 (ρ p) k) := fun k =>
    kChildAt_eq h 12 (by decide) x X p (ρ p) (hx p) (kj9 x Wall ball Wj) (j9 X W0 b0 W b) h9 k
  have h15 : ∀ k : Fin 3, kj15 x Wall ball Wj (ix2 p k) = j15 X W0 b0 W b (ix2 (ρ p) k) := fun k =>
    kChildAt_eq h 15 (by decide) x X p (ρ p) (hx p) (kj12 x Wall ball Wj) (j12 X W0 b0 W b) h12 k
  have h14 : ∀ k : Fin 3, kj14 x Wall ball Wj (ix2 p k) = j14 X W0 b0 W b (ix2 (ρ p) k) := fun k =>
    kChildAt_eq h 14 (by decide) x X p (ρ p) (hx p) (kj9 x Wall ball Wj) (j9 X W0 b0 W b) h9 k
  have h17 : ∀ k : Fin 3, kj17 x Wall ball Wj (ix2 p k) = j17 X W0 b0 W b (ix2 (ρ p) k) := fun k =>
    kChildAt_eq h 17 (by decide) x X p (ρ p) (hx p) (kj14 x Wall ball Wj) (j14 X W0 b0 W b) h14 k
  have h19 : ∀ k : Fin 3, kj19 x Wall ball Wj (ix2 p k) = j19 X W0 b0 W b (ix2 (ρ p) k) := fun k =>
    kChildAt_eq h 19 (by decide) x X p (ρ p) (hx p) (kj17 x Wall ball Wj) (j17 X W0 b0 W b) h17 k
  have h21 : ∀ k : Fin 3, kj21 x Wall ball Wj (ix2 p k) = j21 X W0 b0 W b (ix2 (ρ p) k) := fun k =>
    kChildAt_eq h 21 (by decide) x X p (ρ p) (hx p) (kj19 x Wall ball Wj) (j19 X W0 b0 W b) h19 k
  have h13 : ∀ k : Fin 3, kj13 x Wall ball Wj (ix2 p k) = j13 X W0 b0 W b (ix2 (ρ p) k) := fun k =>
    kChildAt_eq h 13 (by decide) x X p (ρ p) (hx p) (kj9 x Wall ball Wj) (j9 X W0 b0 W b) h9 k
  have h16 : ∀ k : Fin 3, kj16 x Wall ball Wj (ix2 p k) = j16 X W0 b0 W b (ix2 (ρ p) k) := fun k =>
    kChildAt_eq h 16 (by decide) x X p (ρ p) (hx p) (kj13 x Wall ball Wj) (j13 X W0 b0 W b) h13 k
  have h18 : ∀ k : Fin 3, kj18 x Wall ball Wj (ix2 p k) = j18 X W0 b0 W b (ix2 (ρ p) k) := fun k =>
    kChildAt_eq h 18 (by decide) x X p (ρ p) (hx p) (kj16 x Wall ball Wj) (j16 X W0 b0 W b) h16 k
  have h20 : ∀ k : Fin 3, kj20 x Wall ball Wj (ix2 p k) = j20 X W0 b0 W b (ix2 (ρ p) k) := fun k =>
    kChildAt_eq h 20 (by decide) x X p (ρ p) (hx p) (kj18 x Wall ball Wj) (j18 X W0 b0 W b) h18 k
  intro n hn
  match n, hn with
  | 0, _ => exact h0
  | 1, _ => exact h1
  | 2, _ => exact h2
  | 3, _ => exact h3
  | 4, _ => exact h4
  | 5, _ => exact h5
  | 6, _ => exact h6
  | 7, _ => exact h7
  | 8, _ => exact h8
  | 9, _ => exact h9
  | 10, _ => exact h10
  | 11, _ => exact h11
  | 12, _ => exact h12
  | 13, _ => exact h13
  | 14, _ => exact h14
  | 15, _ => exact h15
  | 16, _ => exact h16
  | 17, _ => exact h17
  | 18, _ => exact h18
  | 19, _ => exact h19
  | 20, _ => exact h20
  | 21, _ => exact h21
  | n + 22, hn => exact absurd hn (by omega)

end Cert.Joints

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.IdealVec.lean ====
/-
  The kernel body's arithmetic read at an entry of a block, over the extended reals: the fused product with the
  fused bias row added; the root's squashing; and a child's step — its three fused lanes plus the product of the
  parent's three numbers with the child's 3x3 weights, squashed. A change of float format is the identity over the
  extended reals, so the roundings to the narrow format before each product drop out.
-/
import proofs.«137270_j20160576487702_2_alg».proof.Proof.Gen.KernelIdeal.Skeleton
import proofs.«137270_j20160576487702_2_alg».proof.Proof.BlockJoints
import proofs.«137270_j20160576487702_2_alg».proof.Proof.LibMatProd
import proofs.«137270_j20160576487702_2_alg».proof.Proof.LibBroadcastTo
import Idealize.ShloMosaic.Lib.Pipeline.Value
import Idealize.ShloMosaic.Lib.ValueIdx

noncomputable section

open scoped BigOperators

namespace Cert.KernelIdeal.BlockValue

open Cert.KernelIdeal Cert.KernelIdeal.Gen Cert.Joints
open Idealize.ShloMosaic Idealize.ShloMosaic.ValueIdx

theorem dot512 : dot_S4096x512_S512x128_S4096x128_1_0_0_1_n_n = DotDims.plain 4096 512 128 := rfl
theorem dot3 : dot_S4096x3_S3x3_S4096x3_1_0_0_1_n_n = DotDims.plain 4096 3 3 := rfl

/-- The fused product plus the fused bias row at row `p`, fused column `cc`. -/
theorem k0_pay2_apply (a : Vec Ideal S4096x512 .f32) (b : Vec Ideal S512x128 .bf16) (c : Vec Ideal S1x128 .f32)
    (p : Fin 4096) (cc : Fin 128) :
    k0_pay2 (F := Ideal) a b c (ix2 p cc) = baseAt (R' := 4096) a b c p cc := by
  unfold k0_pay2 baseAt
  simp only [shapeCast_self]
  rw [addf_apply, Cert.BroadcastTo.row_apply]
  refine congrArg (· + c (ix2 0 cc)) ?_
  rw [dot512]
  exact Cert.MatProd.matmul_plain_zero_apply none (truncf .bf16 a bitsLt_bf16_f32) b p cc

/-- The squashing of a block of three lanes. -/
def rootVec (v : Vec Ideal S4096x3 .f32) : FVec Ideal S4096x3 .f32 :=
  shapeCast S4096x3 (mulf (tanh v) (broadcast S4096x3 (Scalar.ofBits .f32 0x40490FDA#32))) shapeCasts_S4096x3_S4096x3

theorem rootVec_apply (v : Vec Ideal S4096x3 .f32) (i : S4096x3.Idx) : rootVec v i = act (v i) := by
  unfold rootVec act
  simp only [shapeCast_self]
  rfl

/-- A child's step on blocks: the fused lanes `bs`, the parent's lanes `par`, the child's 3x3 weights `wj`. -/
def stepVec (par : Vec Ideal S4096x3 .f32) (wj : Vec Ideal S1x3x3 .bf16) (bs : Vec Ideal S4096x3 .f32) : FVec Ideal S4096x3 .f32 :=
  shapeCast S4096x3 (mulf (tanh (addf bs (matmul dot_S4096x3_S3x3_S4096x3_1_0_0_1_n_n none
      (truncf .bf16 par bitsLt_bf16_f32 : FVec Ideal S4096x3 .bf16) (shapeCast S3x3 wj shapeCasts_S1x3x3_S3x3 : FVec Ideal S3x3 .bf16) (constant S4096x3 .f32 0x00000000#32))))
    (broadcast S4096x3 (Scalar.ofBits .f32 0x40490FDA#32))) shapeCasts_S4096x3_S4096x3

theorem stepVec_apply (par : Vec Ideal S4096x3 .f32) (wj : Vec Ideal S1x3x3 .bf16) (bs : Vec Ideal S4096x3 .f32)
    (p : Fin 4096) (k : Fin 3) :
    stepVec par wj bs (ix2 p k) = act (bs (ix2 p k) + ∑ e : Fin 3, par (ix2 p e) * wj (ix3 0 e k)) := by
  unfold stepVec act
  simp only [shapeCast_self]
  show Ideal.tanh (bs (ix2 p k) + _) * _ = _
  rw [dot3]
  refine congrArg (fun s => Ideal.tanh (bs (ix2 p k) + s) * Ideal.ofBits .f32 0x40490FDA#32) ?_
  refine (Cert.MatProd.matmul_plain_zero_apply none (truncf .bf16 par bitsLt_bf16_f32 : FVec Ideal S4096x3 .bf16)
    (shapeCast S3x3 wj shapeCasts_S1x3x3_S3x3 : FVec Ideal S3x3 .bf16) p k).trans (Finset.sum_congr rfl fun e _ => ?_)
  refine congrArg (par (ix2 p e) * ·) ?_
  refine shapeCast_apply wj shapeCasts_S1x3x3_S3x3 (ix2 e k) (ix3 0 e k) ?_
  rw [Shape.rowMajor_val_three, Shape.rowMajor_val_two]
  show ((0 : ℕ) * 3 + e.val) * 3 + k.val = e.val * 3 + k.val
  omega

end Cert.KernelIdeal.BlockValue

end
-- ==== Proof.IdealBlock.lean ====
/-
  What the kernel body leaves in its second scratch array and in the output block, read at an entry. The body's
  stores into the second scratch array are followed newest first: each store writes three lanes, the lanes of
  one joint, and never the lanes of another, so a lane triple once stored is read back unchanged by every later
  step. By induction over the 22 stores, lanes `3 q .. 3 q + 2` hold joint `q` of the block (the root off the fused
  product; each child off its fused lanes, its parent's lanes and its 3x3 weights). The output block is lanes
  0 .. 65 of that array after the last store: the 22 joints side by side.
-/
import proofs.«137270_j20160576487702_2_alg».proof.Proof.IdealRun
import proofs.«137270_j20160576487702_2_alg».proof.Proof.IdealVec

set_option maxRecDepth 16384

noncomputable section

open scoped BigOperators

namespace Cert.KernelIdeal.BlockValue

open Cert.KernelIdeal Cert.KernelIdeal.Gen Cert.KernelIdeal.Entry Cert.Joints
open Idealize.ShloMosaic Idealize.ShloMosaic.TcCoe Idealize.ShloMosaic.ValueIdx
open Idealize.SL.Sem

/-- A piece stored into a 128-lane scratch array. -/
abbrev Piece128 := View.Piece (Elt Ideal) S4096x128 .f32

theorem hz2 : (![0, 0] : Fin 2 → Nat) = fun _ => 0 := funext fun a => by fin_cases a <;> rfl

section Chain

variable (x0 : Vec Ideal S4096x512 .f32) (x1 : Vec Ideal S512x128 .bf16) (x2 : Vec Ideal S1x128 .f32) (x3 : Vec Ideal S22x3x3 .bf16)

/-- After the stores `L`, the lanes of every joint in `S` hold that joint of the block. -/
def Filled (L : List Piece128) (S : Fin 22 → Bool) : Prop :=
  ∀ q, S q = true → ∀ (p : Fin 4096) (e : Fin 3), View.canon L (ix2 p (col q e)) = kjoint (R' := 4096) x0 x1 x2 x3 q.val (ix2 p e)

/-- A further store of joint `j`'s three lanes keeps the lanes of the others and adds its own. -/
theorem filled_cons {L : List Piece128} {S : Fin 22 → Bool} (hL : Filled x0 x1 x2 x3 L S) (j : Fin 22) (oj : Nat)
    (hoj : oj = 3 * j.val) (inb : ∀ a, (![0, oj] : Fin 2 → Nat) a + S4096x3.size a ≤ S4096x128.size a)
    (w : S4096x3.Idx → EReal) (hw : ∀ (p : Fin 4096) (k : Fin 3), w (ix2 p k) = kjoint (R' := 4096) x0 x1 x2 x3 j.val (ix2 p k)) :
    Filled x0 x1 x2 x3 ((⟨Rect.unit (s := S4096x128) ![0, oj] S4096x3.size inb, w⟩ : Piece128) :: L) (fun q => decide (q = j) || S q) := by
  intro q hq p e
  by_cases hqj : q = j
  · subst hqj
    have hemb : ix2 p (col q e) = (Rect.unit (s := S4096x128) ![0, oj] S4096x3.size inb).emb (ix2 p e) := by
      funext a; apply Fin.ext
      match a with
      | ⟨0, _⟩ => show p.val = 0 + 1 * p.val; omega
      | ⟨1, _⟩ => show 3 * q.val + e.val = oj + 1 * e.val; omega
    rw [hemb, View.canon_cons_emb]; exact hw p e
  · have hnm : ix2 p (col q e) ∉ (Rect.unit (s := S4096x128) ![0, oj] S4096x3.size inb).set := by
      rw [Rect.mem_set_unit]; intro h
      have h1 : oj ≤ 3 * q.val + e.val ∧ 3 * q.val + e.val < oj + 3 := h 1
      have he := e.isLt
      exact hqj (Fin.ext (by omega))
    exact (View.canon_cons_of_not_mem (⟨Rect.unit (s := S4096x128) ![0, oj] S4096x3.size inb, w⟩ : Piece128) L hnm).trans
      (hL q (by simpa [hqj] using hq) p e)

end Chain

/-- Before any store, no joint's lanes are claimed. -/
theorem filled_nil (x0 : Vec Ideal S4096x512 .f32) (x1 : Vec Ideal S512x128 .bf16) (x2 : Vec Ideal S1x128 .f32) (x3 : Vec Ideal S22x3x3 .bf16) : Filled x0 x1 x2 x3 [] (fun _ => false) := fun q hq => absurd hq (by simp)

/-- Three fused lanes read back from the first scratch array after its one whole store. -/
theorem base_load (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) (v6 : View sig .tc .vmem S4096x128 .f32) (oj : Nat)
    (inb : ∀ a, (![0, oj] : Fin 2 → Nat) a + S4096x3.size a ≤ S4096x128.size a) (p : Fin 4096) (k : Fin 3) (cc : Fin 128)
    (hcc : cc.val = oj + k.val) :
    v6.readCov (kernelRun.sl.HS0_1 (F := Ideal) c arg1 harg1 arg2 harg2 arg3 harg3 x0 x1 x2) (Rect.unit (s := S4096x128) ![0, oj] S4096x3.size inb).toLoadRect (ix2 p k)
      = baseAt (R' := 4096) x0 x1 x2 p cc := by
  rw [View.readCov_eq_canon']
  have hidx : (Rect.unit (s := S4096x128) ![0, oj] S4096x3.size inb).toLoadRect.idx (ix2 p k) = ix2 p cc := by
    funext a; apply Fin.ext
    match a with
    | ⟨0, _⟩ => show 0 + 1 * p.val = p.val; omega
    | ⟨1, _⟩ => show oj + 1 * k.val = cc.val; omega
  show View.canon _ ((Rect.unit (s := S4096x128) ![0, oj] S4096x3.size inb).toLoadRect.idx (ix2 p k)) = _
  rw [hidx]
  unfold kernelRun.sl.HS0_1
  rw [View.canon_unit_zero hz2]
  simp only [View.readAt_eq_ld, harg1.read_unread, harg2.read_unread, harg3.read_unread]
  rw [View.ld_unit_zero hz2, View.ld_unit_zero hz2, View.ld_unit_zero hz2]
  exact k0_pay2_apply x0 x1 x2 p cc

/-- A parent's three lanes read back from the second scratch array. -/
theorem par_load (x0 : Vec Ideal S4096x512 .f32) (x1 : Vec Ideal S512x128 .bf16) (x2 : Vec Ideal S1x128 .f32) (x3 : Vec Ideal S22x3x3 .bf16) {L : List Piece128} {S : Fin 22 → Bool} (hL : Filled x0 x1 x2 x3 L S)
    (v7 : View sig .tc .vmem S4096x128 .f32) (q : Fin 22) (hq : S q = true) (oq : Nat) (hoq : oq = 3 * q.val)
    (inb : ∀ a, (![0, oq] : Fin 2 → Nat) a + S4096x3.size a ≤ S4096x128.size a) (p : Fin 4096) (e : Fin 3) :
    v7.readCov L (Rect.unit (s := S4096x128) ![0, oq] S4096x3.size inb).toLoadRect (ix2 p e) = kjoint (R' := 4096) x0 x1 x2 x3 q.val (ix2 p e) := by
  rw [View.readCov_eq_canon']
  have hidx : (Rect.unit (s := S4096x128) ![0, oq] S4096x3.size inb).toLoadRect.idx (ix2 p e) = ix2 p (col q e) := by
    funext a; apply Fin.ext
    match a with
    | ⟨0, _⟩ => show 0 + 1 * p.val = p.val; omega
    | ⟨1, _⟩ => show oq + 1 * e.val = 3 * q.val + e.val; omega
  show View.canon L ((Rect.unit (s := S4096x128) ![0, oq] S4096x3.size inb).toLoadRect.idx (ix2 p e)) = _
  rw [hidx]
  exact hL q hq p e

/-- One joint's 3x3 weights read out of the stack. -/
theorem wj_load (x3 : Vec Ideal S22x3x3 .bf16) (arg4 : Memref sig .tc .vmem S22x3x3 .bf16) (harg4 : arg4.IsWhole) (jn : Nat) (hj : jn < 22)
    (inb : ∀ a, (![jn, 0, 0] : Fin 3 → Nat) a + S1x3x3.size a ≤ S22x3x3.size a) (e k : Fin 3) :
    View.readAt (Elt Ideal) arg4.view (Rect.unit (s := S22x3x3) ![jn, 0, 0] S1x3x3.size inb).toLoadRect (harg4.unread x3) (ix3 0 e k)
      = x3 (ix3 ⟨jn, hj⟩ e k) := by
  show arg4.view.read (Elt Ideal) (harg4.unread x3) ((Rect.unit (s := S22x3x3) ![jn, 0, 0] S1x3x3.size inb).toLoadRect.idx (ix3 0 e k)) = _
  rw [harg4.read_unread]
  refine congrArg x3 ?_
  funext a; apply Fin.ext
  match a with
  | ⟨0, _⟩ => show jn + 1 * 0 = jn; omega
  | ⟨1, _⟩ => show 0 + 1 * e.val = e.val; omega
  | ⟨2, _⟩ => show 0 + 1 * k.val = k.val; omega

/-- The store of a child: its payload is the child's step on its fused lanes, its parent's lanes and its 3x3 weights. -/
theorem filled_child (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) {L : List Piece128} {S : Fin 22 → Bool} (hL : Filled x0 x1 x2 x3 L S)
    (j q : Fin 22) (jn : Nat) (hjv : j.val = jn) (hq : S q = true)
    (hkj : kjoint (R' := 4096) x0 x1 x2 x3 j.val = kchild x0 x1 x2 x3 j (kjoint (R' := 4096) x0 x1 x2 x3 q.val))
    (oj oq : Nat) (hoj : oj = 3 * jn) (hoq : oq = 3 * q.val)
    (inbj : ∀ a, (![0, oj] : Fin 2 → Nat) a + S4096x3.size a ≤ S4096x128.size a)
    (inbq : ∀ a, (![0, oq] : Fin 2 → Nat) a + S4096x3.size a ≤ S4096x128.size a)
    (inbw : ∀ a, (![jn, 0, 0] : Fin 3 → Nat) a + S1x3x3.size a ≤ S22x3x3.size a)
    (inbb : ∀ a, (![0, oj] : Fin 2 → Nat) a + S4096x3.size a ≤ S4096x128.size a)
    (v6 v7 : View sig .tc .vmem S4096x128 .f32) (w : S4096x3.Idx → EReal)
    (hw : ∀ (p : Fin 4096) (k : Fin 3), w (ix2 p k) = stepVec (v7.readCov L (Rect.unit (s := S4096x128) ![0, oq] S4096x3.size inbq).toLoadRect)
      (View.readAt (Elt Ideal) arg4.view (Rect.unit (s := S22x3x3) ![jn, 0, 0] S1x3x3.size inbw).toLoadRect (harg4.unread x3))
      (v6.readCov (kernelRun.sl.HS0_1 (F := Ideal) c arg1 harg1 arg2 harg2 arg3 harg3 x0 x1 x2) (Rect.unit (s := S4096x128) ![0, oj] S4096x3.size inbb).toLoadRect) (ix2 p k)) :
    Filled x0 x1 x2 x3 ((⟨Rect.unit (s := S4096x128) ![0, oj] S4096x3.size inbj, w⟩ : Piece128) :: L) (fun q' => decide (q' = j) || S q') := by
  have hjn : jn < 22 := hjv ▸ j.isLt
  have hjj : (⟨jn, hjn⟩ : Fin 22) = j := Fin.ext hjv.symm
  refine filled_cons x0 x1 x2 x3 hL j oj (by rw [hjv]; exact hoj) inbj w fun p k => ?_
  rw [hw p k, stepVec_apply, hkj]
  show _ = kChildAt x0 x1 x2 x3 j (kjoint (R' := 4096) x0 x1 x2 x3 q.val) p k
  unfold kChildAt
  rw [base_load x0 x1 x2 x3 c arg1 harg1 arg2 harg2 arg3 harg3 arg4 harg4 arg6 arg7 v6 oj inbb p k (col j k) (by show 3 * j.val + k.val = oj + k.val; omega)]
  refine congrArg (fun s => act (baseAt (R' := 4096) x0 x1 x2 p (col j k) + s)) (Finset.sum_congr rfl fun e _ => ?_)
  rw [par_load x0 x1 x2 x3 hL v7 q hq oq hoq inbq p e, wj_load x3 arg4 harg4 jn hjn inbw e k, hjj]

/-- The joints whose lanes are filled after each store. -/
abbrev S1 : Fin 22 → Bool := fun q => decide (q = (0 : Fin 22)) || false
abbrev S2 : Fin 22 → Bool := fun q => decide (q = (2 : Fin 22)) || S1 q
abbrev S3 : Fin 22 → Bool := fun q => decide (q = (5 : Fin 22)) || S2 q
abbrev S4 : Fin 22 → Bool := fun q => decide (q = (8 : Fin 22)) || S3 q
abbrev S5 : Fin 22 → Bool := fun q => decide (q = (11 : Fin 22)) || S4 q
abbrev S6 : Fin 22 → Bool := fun q => decide (q = (1 : Fin 22)) || S5 q
abbrev S7 : Fin 22 → Bool := fun q => decide (q = (4 : Fin 22)) || S6 q
abbrev S8 : Fin 22 → Bool := fun q => decide (q = (7 : Fin 22)) || S7 q
abbrev S9 : Fin 22 → Bool := fun q => decide (q = (10 : Fin 22)) || S8 q
abbrev S10 : Fin 22 → Bool := fun q => decide (q = (3 : Fin 22)) || S9 q
abbrev S11 : Fin 22 → Bool := fun q => decide (q = (6 : Fin 22)) || S10 q
abbrev S12 : Fin 22 → Bool := fun q => decide (q = (9 : Fin 22)) || S11 q
abbrev S13 : Fin 22 → Bool := fun q => decide (q = (12 : Fin 22)) || S12 q
abbrev S14 : Fin 22 → Bool := fun q => decide (q = (15 : Fin 22)) || S13 q
abbrev S15 : Fin 22 → Bool := fun q => decide (q = (14 : Fin 22)) || S14 q
abbrev S16 : Fin 22 → Bool := fun q => decide (q = (17 : Fin 22)) || S15 q
abbrev S17 : Fin 22 → Bool := fun q => decide (q = (19 : Fin 22)) || S16 q
abbrev S18 : Fin 22 → Bool := fun q => decide (q = (21 : Fin 22)) || S17 q
abbrev S19 : Fin 22 → Bool := fun q => decide (q = (13 : Fin 22)) || S18 q
abbrev S20 : Fin 22 → Bool := fun q => decide (q = (16 : Fin 22)) || S19 q
abbrev S21 : Fin 22 → Bool := fun q => decide (q = (18 : Fin 22)) || S20 q
abbrev S22 : Fin 22 → Bool := fun q => decide (q = (20 : Fin 22)) || S21 q

/-- The first store: the root joint's lanes. -/
theorem filled1 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_1 (F := Ideal) c arg1 harg1 arg2 harg2 arg3 harg3 arg6 x0 x1 x2) S1 := by
  unfold kernelRun.sl.HS1_1
  refine filled_cons x0 x1 x2 x3 (filled_nil x0 x1 x2 x3) (0 : Fin 22) 0 rfl _ _ fun p k => ?_
  show rootVec (kernelRun.sl.v12 (F := Ideal) c arg1 harg1 arg2 harg2 arg3 harg3 arg6 x0 x1 x2) (ix2 p k) = _
  rw [rootVec_apply]
  unfold kernelRun.sl.v12
  rw [base_load x0 x1 x2 x3 c arg1 harg1 arg2 harg2 arg3 harg3 arg4 harg4 arg6 arg7 arg6.view 0 _ p k (col (0 : Fin 22) k) (by show 3 * 0 + k.val = 0 + k.val; omega)]
  rfl

theorem filled2 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_2 (F := Ideal) c arg1 harg1 arg2 harg2 arg3 harg3 arg4 harg4 arg6 arg7 x0 x1 x2 x3) S2 := by
  unfold kernelRun.sl.HS1_2
  exact filled_child x0 x1 x2 x3 c arg1 harg1 arg2 harg2 arg3 harg3 arg4 harg4 arg6 arg7 (filled1 x0 x1 x2 x3 c arg1 harg1 arg2 harg2 arg3 harg3 arg4 harg4 arg6 arg7) (2 : Fin 22) (0 : Fin 22) 2 rfl rfl rfl
    6 0 rfl rfl _ _ _ _ arg6.view arg7.view _ (fun p k => rfl)

theorem filled3 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_3 (F := Ideal) c arg1 harg1 arg2 harg2 arg3 harg3 arg4 harg4 arg6 arg7 x0 x1 x2 x3) S3 := by
  unfold kernelRun.sl.HS1_3
  exact filled_child x0 x1 x2 x3 c arg1 harg1 arg2 harg2 arg3 harg3 arg4 harg4 arg6 arg7 (filled2 x0 x1 x2 x3 c arg1 harg1 arg2 harg2 arg3 harg3 arg4 harg4 arg6 arg7) (5 : Fin 22) (2 : Fin 22) 5 rfl rfl rfl
    15 6 rfl rfl _ _ _ _ arg6.view arg7.view _ (fun p k => rfl)

theorem filled4 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_4 (F := Ideal) c arg1 harg1 arg2 harg2 arg3 harg3 arg4 harg4 arg6 arg7 x0 x1 x2 x3) S4 := by
  unfold kernelRun.sl.HS1_4
  exact filled_child x0 x1 x2 x3 c arg1 harg1 arg2 harg2 arg3 harg3 arg4 harg4 arg6 arg7 (filled3 x0 x1 x2 x3 c arg1 harg1 arg2 harg2 arg3 harg3 arg4 harg4 arg6 arg7) (8 : Fin 22) (5 : Fin 22) 8 rfl rfl rfl
    24 15 rfl rfl _ _ _ _ arg6.view arg7.view _ (fun p k => rfl)

theorem filled5 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_5 (F := Ideal) c arg1 harg1 arg2 harg2 arg3 harg3 arg4 harg4 arg6 arg7 x0 x1 x2 x3) S5 := by
  unfold kernelRun.sl.HS1_5
  exact filled_child x0 x1 x2 x3 c arg1 harg1 arg2 harg2 arg3 harg3 arg4 harg4 arg6 arg7 (filled4 x0 x1 x2 x3 c arg1 harg1 arg2 harg2 arg3 harg3 arg4 harg4 arg6 arg7) (11 : Fin 22) (8 : Fin 22) 11 rfl rfl rfl
    33 24 rfl rfl _ _ _ _ arg6.view arg7.view _ (fun p k => rfl)

theorem filled6 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_6 (F := Ideal) c arg1 harg1 arg2 harg2 arg3 harg3 arg4 harg4 arg6 arg7 x0 x1 x2 x3) S6 := by
  unfold kernelRun.sl.HS1_6
  exact filled_child x0 x1 x2 x3 c arg1 harg1 arg2 harg2 arg3 harg3 arg4 harg4 arg6 arg7 (filled5 x0 x1 x2 x3 c arg1 harg1 arg2 harg2 arg3 harg3 arg4 harg4 arg6 arg7) (1 : Fin 22) (0 : Fin 22) 1 rfl rfl rfl
    3 0 rfl rfl _ _ _ _ arg6.view arg7.view _ (fun p k => rfl)

theorem filled7 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_7 (F := Ideal) c arg1 harg1 arg2 harg2 arg3 harg3 arg4 harg4 arg6 arg7 x0 x1 x2 x3) S7 := by
  unfold kernelRun.sl.HS1_7
  exact filled_child x0 x1 x2 x3 c arg1 harg1 arg2 harg2 arg3 harg3 arg4 harg4 arg6 arg7 (filled6 x0 x1 x2 x3 c arg1 harg1 arg2 harg2 arg3 harg3 arg4 harg4 arg6 arg7) (4 : Fin 22) (1 : Fin 22) 4 rfl rfl rfl
    12 3 rfl rfl _ _ _ _ arg6.view arg7.view _ (fun p k => rfl)

theorem filled8 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_8 (F := Ideal) c arg1 harg1 arg2 harg2 arg3 harg3 arg4 harg4 arg6 arg7 x0 x1 x2 x3) S8 := by
  unfold kernelRun.sl.HS1_8
  exact filled_child x0 x1 x2 x3 c arg1 harg1 arg2 harg2 arg3 harg3 arg4 harg4 arg6 arg7 (filled7 x0 x1 x2 x3 c arg1 harg1 arg2 harg2 arg3 harg3 arg4 harg4 arg6 arg7) (7 : Fin 22) (4 : Fin 22) 7 rfl rfl rfl
    21 12 rfl rfl _ _ _ _ arg6.view arg7.view _ (fun p k => rfl)

theorem filled9 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_9 (F := Ideal) c arg1 harg1 arg2 harg2 arg3 harg3 arg4 harg4 arg6 arg7 x0 x1 x2 x3) S9 := by
  unfold kernelRun.sl.HS1_9
  exact filled_child x0 x1 x2 x3 c arg1 harg1 arg2 harg2 arg3 harg3 arg4 harg4 arg6 arg7 (filled8 x0 x1 x2 x3 c arg1 harg1 arg2 harg2 arg3 harg3 arg4 harg4 arg6 arg7) (10 : Fin 22) (7 : Fin 22) 10 rfl rfl rfl
    30 21 rfl rfl _ _ _ _ arg6.view arg7.view _ (fun p k => rfl)

theorem filled10 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_10 (F := Ideal) c arg1 harg1 arg2 harg2 arg3 harg3 arg4 harg4 arg6 arg7 x0 x1 x2 x3) S10 := by
  unfold kernelRun.sl.HS1_10
  exact filled_child x0 x1 x2 x3 c arg1 harg1 arg2 harg2 arg3 harg3 arg4 harg4 arg6 arg7 (filled9 x0 x1 x2 x3 c arg1 harg1 arg2 harg2 arg3 harg3 arg4 harg4 arg6 arg7) (3 : Fin 22) (0 : Fin 22) 3 rfl rfl rfl
    9 0 rfl rfl _ _ _ _ arg6.view arg7.view _ (fun p k => rfl)

theorem filled11 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_11 (F := Ideal) c arg1 harg1 arg2 harg2 arg3 harg3 arg4 harg4 arg6 arg7 x0 x1 x2 x3) S11 := by
  unfold kernelRun.sl.HS1_11
  exact filled_child x0 x1 x2 x3 c arg1 harg1 arg2 harg2 arg3 harg3 arg4 harg4 arg6 arg7 (filled10 x0 x1 x2 x3 c arg1 harg1 arg2 harg2 arg3 harg3 arg4 harg4 arg6 arg7) (6 : Fin 22) (3 : Fin 22) 6 rfl rfl rfl
    18 9 rfl rfl _ _ _ _ arg6.view arg7.view _ (fun p k => rfl)

theorem filled12 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_12 (F := Ideal) c arg1 harg1 arg2 harg2 arg3 harg3 arg4 harg4 arg6 arg7 x0 x1 x2 x3) S12 := by
  unfold kernelRun.sl.HS1_12
  exact filled_child x0 x1 x2 x3 c arg1 harg1 arg2 harg2 arg3 harg3 arg4 harg4 arg6 arg7 (filled11 x0 x1 x2 x3 c arg1 harg1 arg2 harg2 arg3 harg3 arg4 harg4 arg6 arg7) (9 : Fin 22) (6 : Fin 22) 9 rfl rfl rfl
    27 18 rfl rfl _ _ _ _ arg6.view arg7.view _ (fun p k => rfl)

theorem filled13 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_13 (F := Ideal) c arg1 harg1 arg2 harg2 arg3 harg3 arg4 harg4 arg6 arg7 x0 x1 x2 x3) S13 := by
  unfold kernelRun.sl.HS1_13
  exact filled_child x0 x1 x2 x3 c arg1 harg1 arg2 harg2 arg3 harg3 arg4 harg4 arg6 arg7 (filled12 x0 x1 x2 x3 c arg1 harg1 arg2 harg2 arg3 harg3 arg4 harg4 arg6 arg7) (12 : Fin 22) (9 : Fin 22) 12 rfl rfl rfl
    36 27 rfl rfl _ _ _ _ arg6.view arg7.view _ (fun p k => rfl)

theorem filled14 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_14 (F := Ideal) c arg1 harg1 arg2 harg2 arg3 harg3 arg4 harg4 arg6 arg7 x0 x1 x2 x3) S14 := by
  unfold kernelRun.sl.HS1_14
  exact filled_child x0 x1 x2 x3 c arg1 harg1 arg2 harg2 arg3 harg3 arg4 harg4 arg6 arg7 (filled13 x0 x1 x2 x3 c arg1 harg1 arg2 harg2 arg3 harg3 arg4 harg4 arg6 arg7) (15 : Fin 22) (12 : Fin 22) 15 rfl rfl rfl
    45 36 rfl rfl _ _ _ _ arg6.view arg7.view _ (fun p k => rfl)

theorem filled15 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_15 (F := Ideal) c arg1 harg1 arg2 harg2 arg3 harg3 arg4 harg4 arg6 arg7 x0 x1 x2 x3) S15 := by
  unfold kernelRun.sl.HS1_15
  exact filled_child x0 x1 x2 x3 c arg1 harg1 arg2 harg2 arg3 harg3 arg4 harg4 arg6 arg7 (filled14 x0 x1 x2 x3 c arg1 harg1 arg2 harg2 arg3 harg3 arg4 harg4 arg6 arg7) (14 : Fin 22) (9 : Fin 22) 14 rfl rfl rfl
    42 27 rfl rfl _ _ _ _ arg6.view arg7.view _ (fun p k => rfl)

theorem filled16 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_16 (F := Ideal) c arg1 harg1 arg2 harg2 arg3 harg3 arg4 harg4 arg6 arg7 x0 x1 x2 x3) S16 := by
  unfold kernelRun.sl.HS1_16
  exact filled_child x0 x1 x2 x3 c arg1 harg1 arg2 harg2 arg3 harg3 arg4 harg4 arg6 arg7 (filled15 x0 x1 x2 x3 c arg1 harg1 arg2 harg2 arg3 harg3 arg4 harg4 arg6 arg7) (17 : Fin 22) (14 : Fin 22) 17 rfl rfl rfl
    51 42 rfl rfl _ _ _ _ arg6.view arg7.view _ (fun p k => rfl)

theorem filled17 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_17 (F := Ideal) c arg1 harg1 arg2 harg2 arg3 harg3 arg4 harg4 arg6 arg7 x0 x1 x2 x3) S17 := by
  unfold kernelRun.sl.HS1_17
  exact filled_child x0 x1 x2 x3 c arg1 harg1 arg2 harg2 arg3 harg3 arg4 harg4 arg6 arg7 (filled16 x0 x1 x2 x3 c arg1 harg1 arg2 harg2 arg3 harg3 arg4 harg4 arg6 arg7) (19 : Fin 22) (17 : Fin 22) 19 rfl rfl rfl
    57 51 rfl rfl _ _ _ _ arg6.view arg7.view _ (fun p k => rfl)

theorem filled18 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_18 (F := Ideal) c arg1 harg1 arg2 harg2 arg3 harg3 arg4 harg4 arg6 arg7 x0 x1 x2 x3) S18 := by
  unfold kernelRun.sl.HS1_18
  exact filled_child x0 x1 x2 x3 c arg1 harg1 arg2 harg2 arg3 harg3 arg4 harg4 arg6 arg7 (filled17 x0 x1 x2 x3 c arg1 harg1 arg2 harg2 arg3 harg3 arg4 harg4 arg6 arg7) (21 : Fin 22) (19 : Fin 22) 21 rfl rfl rfl
    63 57 rfl rfl _ _ _ _ arg6.view arg7.view _ (fun p k => rfl)

theorem filled19 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_19 (F := Ideal) c arg1 harg1 arg2 harg2 arg3 harg3 arg4 harg4 arg6 arg7 x0 x1 x2 x3) S19 := by
  unfold kernelRun.sl.HS1_19
  exact filled_child x0 x1 x2 x3 c arg1 harg1 arg2 harg2 arg3 harg3 arg4 harg4 arg6 arg7 (filled18 x0 x1 x2 x3 c arg1 harg1 arg2 harg2 arg3 harg3 arg4 harg4 arg6 arg7) (13 : Fin 22) (9 : Fin 22) 13 rfl rfl rfl
    39 27 rfl rfl _ _ _ _ arg6.view arg7.view _ (fun p k => rfl)

theorem filled20 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_20 (F := Ideal) c arg1 harg1 arg2 harg2 arg3 harg3 arg4 harg4 arg6 arg7 x0 x1 x2 x3) S20 := by
  unfold kernelRun.sl.HS1_20
  exact filled_child x0 x1 x2 x3 c arg1 harg1 arg2 harg2 arg3 harg3 arg4 harg4 arg6 arg7 (filled19 x0 x1 x2 x3 c arg1 harg1 arg2 harg2 arg3 harg3 arg4 harg4 arg6 arg7) (16 : Fin 22) (13 : Fin 22) 16 rfl rfl rfl
    48 39 rfl rfl _ _ _ _ arg6.view arg7.view _ (fun p k => rfl)

theorem filled21 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_21 (F := Ideal) c arg1 harg1 arg2 harg2 arg3 harg3 arg4 harg4 arg6 arg7 x0 x1 x2 x3) S21 := by
  unfold kernelRun.sl.HS1_21
  exact filled_child x0 x1 x2 x3 c arg1 harg1 arg2 harg2 arg3 harg3 arg4 harg4 arg6 arg7 (filled20 x0 x1 x2 x3 c arg1 harg1 arg2 harg2 arg3 harg3 arg4 harg4 arg6 arg7) (18 : Fin 22) (16 : Fin 22) 18 rfl rfl rfl
    54 48 rfl rfl _ _ _ _ arg6.view arg7.view _ (fun p k => rfl)

theorem filled22 (x0 : Vec Ideal S4096x512 .f32) (x1 : Vec Ideal S512x128 .bf16) (x2 : Vec Ideal S1x128 .f32) (x3 : Vec Ideal S22x3x3 .bf16) (c : Dev nD) (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg6 arg7 : Memref sig .tc .vmem S4096x128 .f32) :
    Filled x0 x1 x2 x3 (kernelRun.sl.HS1_22 (F := Ideal) c arg1 harg1 arg2 harg2 arg3 harg3 arg4 harg4 arg6 arg7 x0 x1 x2 x3) S22 := by
  unfold kernelRun.sl.HS1_22
  exact filled_child x0 x1 x2 x3 c arg1 harg1 arg2 harg2 arg3 harg3 arg4 harg4 arg6 arg7 (filled21 x0 x1 x2 x3 c arg1 harg1 arg2 harg2 arg3 harg3 arg4 harg4 arg6 arg7) (20 : Fin 22) (18 : Fin 22) 20 rfl rfl rfl
    60 54 rfl rfl _ _ _ _ arg6.view arg7.view _ (fun p k => rfl)

/-- After the last store every joint's lanes are filled. -/
theorem S22_all : ∀ q : Fin 22, S22 q = true := by decide

end Cert.KernelIdeal.BlockValue

end
-- ==== Proof.IdealValue.lean ====
/-
  The kernel program's result array, whole. At grid point `t` the body is handed rows `4096 t .. 4096 t + 4095` of
  the context array and the three fused parameter arrays whole, and writes back block `t` of the result: rows
  `4096 t ..`, all 66 columns. Row by row the block's joints are the layer's joints of the array's rows, so block
  `t` of the result is block `t` of the layer's result on the launched arrays; the 32 blocks cover the result.
-/
import proofs.«137270_j20160576487702_2_alg».proof.Proof.IdealFrame
import proofs.«137270_j20160576487702_2_alg».proof.Proof.IdealBlock

set_option maxRecDepth 16384

noncomputable section

open scoped BigOperators

namespace Cert.KernelIdeal.BlockValue

open Cert.KernelIdeal Cert.KernelIdeal.Gen Cert.KernelIdeal.Entry Cert.Joints
open Idealize.ShloMosaic Idealize.ShloMosaic.TcCoe Idealize.ShloMosaic.ValueIdx
open Idealize.SL.Sem
open Idealize.ShloMosaic.Pipeline (Dat Cfg Window)

/-- The output block after the body, at row `p` and column `cc`: number `cc % 3` of the block's joint `cc / 3`. -/
theorem out0_4_apply (x0 : Vec Ideal S4096x512 .f32) (x1 : Vec Ideal S512x128 .bf16) (x2 : Vec Ideal S1x128 .f32) (x3 : Vec Ideal S22x3x3 .bf16) (c : Dev nD) (i : grid0.Coords)
    (arg1 : Memref sig .tc .vmem S4096x512 .f32) (harg1 : arg1.IsWhole) (arg2 : Memref sig .tc .vmem S512x128 .bf16) (harg2 : arg2.IsWhole)
    (arg3 : Memref sig .tc .vmem S1x128 .f32) (harg3 : arg3.IsWhole) (arg4 : Memref sig .tc .vmem S22x3x3 .bf16) (harg4 : arg4.IsWhole)
    (arg5 : Memref sig .tc .vmem S4096x66 .f32) (harg5 : arg5.IsWhole) (arg6 : Memref sig .tc .vmem S4096x128 .f32) (harg6 : arg6.IsWhole)
    (arg7 : Memref sig .tc .vmem S4096x128 .f32) (harg7 : arg7.IsWhole) (p : Fin 4096) (cc : Fin 66) :
    out0_4 (F := Ideal) c i arg1 harg1 arg2 harg2 arg3 harg3 arg4 harg4 arg5 harg5 arg6 harg6 arg7 harg7 x0 x1 x2 x3 (ix2 p cc)
      = kjoint (R' := 4096) x0 x1 x2 x3 (cc.val / 3) (ix2 p ⟨cc.val % 3, Nat.mod_lt _ (by norm_num)⟩) := by
  have hcc : cc.val < 66 := cc.isLt
  unfold out0_4
  rw [View.read_writes_eq_canon _ _ _ (cover0_4 c i arg1 harg1 arg2 harg2 arg3 harg3 arg4 harg4 arg5 harg5 arg6 harg6 arg7 harg7 x0 x1 x2 x3)]
  show View.canon [(⟨Rect.unit (s := S4096x66) ![0, 0] ![4096, 66] inb_S4096x66_S4096x66_0_0,
    kernelRun.sl.v292 (F := Ideal) c arg1 harg1 arg2 harg2 arg3 harg3 arg4 harg4 arg6 arg7 x0 x1 x2 x3⟩ : View.Piece (Elt Ideal) S4096x66 .f32)] (ix2 p cc) = _
  rw [View.canon_unit_zero hz2]
  unfold kernelRun.sl.v292
  rw [View.readCov_eq_canon']
  have hidx : (Rect.unit (s := S4096x128) ![0, 0] S4096x66.size inb_S4096x128_S4096x66_0_0).toLoadRect.idx (ix2 p cc)
      = ix2 p (col ⟨cc.val / 3, by omega⟩ ⟨cc.val % 3, Nat.mod_lt _ (by norm_num)⟩) := by
    funext a; apply Fin.ext
    match a with
    | ⟨0, _⟩ => show 0 + 1 * p.val = p.val; omega
    | ⟨1, _⟩ => show 0 + 1 * cc.val = 3 * (cc.val / 3) + cc.val % 3; omega
  show View.canon _ ((Rect.unit (s := S4096x128) ![0, 0] S4096x66.size inb_S4096x128_S4096x66_0_0).toLoadRect.idx (ix2 p cc)) = _
  rw [hidx]
  exact filled22 x0 x1 x2 x3 c arg1 harg1 arg2 harg2 arg3 harg3 arg4 harg4 arg6 arg7 ⟨cc.val / 3, by omega⟩ (S22_all _) p ⟨cc.val % 3, Nat.mod_lt _ (by norm_num)⟩

section Whole

variable (m : (ℓ : Loc nD τ sig) → Buf (Elt Ideal) ℓ)

/-- The layer's result on the arrays core `c` was launched with. -/
def G (c : Dev nD) : S131072x66.Idx → EReal :=
  Cert.Joints.out (R := 131072) (m ((c : Thread nD τ).loc main_arg0)) (m ((c : Thread nD τ).loc main_arg1)) (m ((c : Thread nD τ).loc main_arg2)) (m ((c : Thread nD τ).loc main_arg3)) (m ((c : Thread nD τ).loc main_arg4))

/-- Where each window's block sits at grid point `t`: the context rows and the result rows move with the point, the
    three parameter arrays are taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt N_0

/-- Row `p` of block `t` is row `4096 t + p` of the array. -/
def rowOf (t : Fin cfg0.N) (p : Fin 4096) : Fin 131072 := ⟨4096 * t.val + p.val, by have := t_lt t; have := p.isLt; omega⟩

/-- The context block at point `t` is rows `4096 t ..` of the launched context array. -/
theorem blk0_apply (c : Dev nD) (t : Fin cfg0.N) (p : Fin 4096) (d : Fin 512) :
    iblk m c 0 t (ix2 p d) = (m ((c : Thread nD τ).loc main_arg0)) (ix2 (rowOf t p) d) := by
  show V m c main_arg0 (((cfg0.win 0).blk t).view.emb (ix2 p d)) = _
  rw [V_main_arg0]
  refine congrArg (m ((c : Thread nD τ).loc main_arg0)) ?_
  obtain ⟨e0, e1, -⟩ := idx_facts t
  funext a; apply Fin.ext
  match a with
  | ⟨0, _⟩ => show win0_0.index t (0 : Fin 2) * 4096 + 1 * p.val = 4096 * t.val + p.val; omega
  | ⟨1, _⟩ => show win0_0.index t (1 : Fin 2) * 512 + 1 * d.val = d.val; omega

/-- The fused weight matrix is handed over whole at every point. -/
theorem blk1_eq (c : Dev nD) (t : Fin cfg0.N) : (iblk m c 1 t : S512x128.Idx → EReal) = V m c main_v46 := by
  funext y
  show V m c main_v46 (((cfg0.win 1).blk t).view.emb y) = _
  refine congrArg (V m c main_v46) ?_
  obtain ⟨-, -, e2, e3, -⟩ := idx_facts t
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- So is the fused bias row, -/
theorem blk2_eq (c : Dev nD) (t : Fin cfg0.N) : (iblk m c 2 t : S1x128.Idx → EReal) = V m c main_v93 := by
  funext y
  show V m c main_v93 (((cfg0.win 2).blk t).view.emb y) = _
  refine congrArg (V m c main_v93) ?_
  obtain ⟨-, -, -, -, e4, e5, -⟩ := idx_facts t
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- and the stack of 3x3 weights. -/
theorem blk3_eq (c : Dev nD) (t : Fin cfg0.N) : (iblk m c 3 t : S22x3x3.Idx → EReal) = V m c main_v162 := by
  funext y
  show V m c main_v162 (((cfg0.win 3).blk t).view.emb y) = _
  refine congrArg (V m c main_v162) ?_
  obtain ⟨-, -, -, -, -, -, e6, e7, e8, -⟩ := idx_facts t
  funext a; apply Fin.ext
  match a with
  | ⟨0, _⟩ => show win0_3.index t (0 : Fin 3) * 22 + 1 * (y 0).val = (y 0).val; omega
  | ⟨1, _⟩ => show win0_3.index t (1 : Fin 3) * 3 + 1 * (y 1).val = (y 1).val; omega
  | ⟨2, _⟩ => show win0_3.index t (2 : Fin 3) * 3 + 1 * (y 2).val = (y 2).val; omega

variable (hF : ∀ c : Dev nD, Fused (m ((c : Thread nD τ).loc main_arg1)) (m ((c : Thread nD τ).loc main_arg2)) (m ((c : Thread nD τ).loc main_arg3)) (m ((c : Thread nD τ).loc main_arg4)) (V m c main_v46) (V m c main_v93) (V m c main_v162))
include hF

/-- What point `t` writes back is block `t` of the layer's result. -/
theorem flushed4_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold outsAt0
  funext y
  obtain ⟨p, cc, rfl⟩ : ∃ (p : Fin 4096) (cc : Fin 66), y = ix2 p cc := ⟨y 0, y 1, eq_ix2 y⟩
  show out0_4 (F := Ideal) c (grid0.coords t) _ _ _ _ _ _ _ _ _ _ _ _ _ _ (iblk m c 0 t) (iblk m c 1 t) (iblk m c 2 t) (iblk m c 3 t) (ix2 p cc)
    = G m c (((cfg0.win 4).blk t).view.emb (ix2 p cc))
  rw [out0_4_apply, blk1_eq, blk2_eq, blk3_eq]
  have hcc : cc.val < 66 := cc.isLt
  have hemb : ((cfg0.win 4).blk t).view.emb (ix2 p cc) = ix2 (rowOf t p) cc := by
    obtain ⟨-, -, -, -, -, -, -, -, -, e9, e10⟩ := idx_facts t
    funext a; apply Fin.ext
    match a with
    | ⟨0, _⟩ => show win0_4.index t (0 : Fin 2) * 4096 + 1 * p.val = 4096 * t.val + p.val; omega
    | ⟨1, _⟩ => show win0_4.index t (1 : Fin 2) * 66 + 1 * cc.val = cc.val; omega
  rw [hemb]
  show _ = joint (m ((c : Thread nD τ).loc main_arg0)) (m ((c : Thread nD τ).loc main_arg1)) (m ((c : Thread nD τ).loc main_arg2)) (m ((c : Thread nD τ).loc main_arg3)) (m ((c : Thread nD τ).loc main_arg4)) (cc.val / 3) (ix2 (rowOf t p) ⟨cc.val % 3, Nat.mod_lt _ (by norm_num)⟩)
  exact kjoint_eq (hF c) (iblk m c 0 t) (m ((c : Thread nD τ).loc main_arg0)) (rowOf t) (fun p d => blk0_apply m c t p d) p (cc.val / 3) (by omega) ⟨cc.val % 3, Nat.mod_lt _ (by norm_num)⟩

omit hF in
/-- An index of the result is in point `t`'s block iff each coordinate is in the block's range. -/
theorem mem_blk4 (t : Fin cfg0.N) (i : S131072x66.Idx) :
    i ∈ ((cfg0.win 4).blk t).view.set ↔ ∀ a : Fin 2, win0_4.index t a * S4096x66.size a ≤ (i a).val ∧ (i a).val < win0_4.index t a * S4096x66.size a + S4096x66.size a := by
  show i ∈ ((View.whole main_v163).slice (win0_4.rect t)).set ↔ _
  rw [View.set_slice_whole, Rect.mem_set_unit]
  exact Iff.rfl

omit hF in
/-- Every index of the result is in the block of the point its row falls to. -/
theorem cover4 (i : S131072x66.Idx) : ∃ t : Fin cfg0.N, (cfg0.win 4).flush t = true ∧ i ∈ ((cfg0.win 4).blk t).view.set := by
  have hi0 : (i 0).val < 131072 := (i 0).isLt
  have hi1 : (i 1).val < 66 := (i 1).isLt
  have hN : cfg0.N = 32 := N_0
  let t : Fin cfg0.N := ⟨(i 0).val / 4096, by rw [hN]; omega⟩
  refine ⟨t, flush0_4 t, ?_⟩
  rw [mem_blk4]
  obtain ⟨-, -, -, -, -, -, -, -, -, e9, e10⟩ := idx_facts t
  have ht : t.val = (i 0).val / 4096 := rfl
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 66 ≤ (i 1).val ∧ (i 1).val < win0_4.index t (1 : Fin 2) * 66 + 66; omega

/-- The result array after the run is the layer's result on the launched arrays. -/
theorem final4 (c : Dev nD) : (dats m 0 c).arrAt 4 cfg0.N = G m c :=
  (dats m 0 c).arrAt_eq_of_cover 4 (G m c) (fun t _ => flushed4_eq m hF c t) cover4

/-- The kernel program runs to the end with its result at the layer's result and its arguments as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v163) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final4 m hF c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Whole

end Cert.KernelIdeal.BlockValue

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.LibSameShapePieces.lean ====
/-
  How a side-by-side arrangement of equally shaped pieces, a one-row cut of a stack followed by dropping the unit
  axis, and a cut re-stacked on a new unit axis are read at an index. Stated for any element type; nothing here
  depends on the program.

  A concatenation of `n` pieces of one shape `S` along axis `a` is read, at an index whose `a`-coordinate is
  `p * (S's extent on a) + r`, as piece `p` at the index with `r` on axis `a` and the other coordinates unchanged.
-/
import Idealize.ShloMosaic.PureOps.Ideal
import Idealize.ShloMosaic.Lib.Pipeline.Value
import Idealize.ShloMosaic.Lib.ValueIdx
import Idealize.ShloMosaic.Lib.ValueLayout
import Idealize.ShloMosaic.Lib.KernelVsHost

noncomputable section

namespace Cert.Layout

open Idealize.ShloMosaic Idealize.ShloMosaic.ValueIdx

variable {α : Type}

/-- The extents along axis `a` of `l.length` pieces of shape `S` sum to `l.length` times `S`'s extent. -/
theorem sum_extents_same {t S : Shape} (a : Fin t.rank) (hr : S.rank = t.rank) (l : List (S.Idx → α)) :
    (((l.map fun x => (⟨S, x⟩ : (s : Shape) × (s.Idx → α))).map (·.1)).map
        fun s => if h : s.rank = t.rank then s.size (a.cast h.symm) else 0).sum
      = l.length * S.size (a.cast hr.symm) := by
  induction l with
  | nil => simp
  | cons x l ih =>
    simp only [List.map_cons, List.sum_cons, List.length_cons, ih, dif_pos hr, Nat.succ_mul]
    exact Nat.add_comm _ _

/-- Pieces of one shape side by side along axis `a`: the index whose `a`-coordinate is `p` whole pieces plus `r` reads
    piece `p` at `r`. -/
theorem concat_same_apply {t S : Shape} (a : Fin t.rank) (ys : List (S.Idx → α))
    (h : Shape.Concatenates ((ys.map fun x => (⟨S, x⟩ : (s : Shape) × (s.Idx → α))).map (·.1)) t a)
    (j : t.Idx) (p : Nat) (hp : p < ys.length) (hr : S.rank = t.rank) (i : S.Idx)
    (hi : ∀ b : Fin S.rank, b.cast hr ≠ a → (i b).val = (j (b.cast hr)).val)
    (ha : p * S.size (a.cast hr.symm) + (i (a.cast hr.symm)).val = (j a).val) :
    concatenate t a (ys.map fun x => (⟨S, x⟩ : (s : Shape) × (s.Idx → α))) h j = ys[p] i := by
  refine concatenate_apply_piece a _ h j p (by simpa using hp) S (ys[p]) (by simp) hr
    (p * S.size (a.cast hr.symm)) ?_ i hi ha
  rw [← List.map_take, sum_extents_same a hr, List.length_take, Nat.min_eq_left (Nat.le_of_lt hp)]

/-- Sixteen pieces of one shape. -/
theorem cat16_apply {t S : Shape} (a : Fin t.rank)
    (x0 x1 x2 x3 x4 x5 x6 x7 x8 x9 x10 x11 x12 x13 x14 x15 : S.Idx → α)
    (h : Shape.Concatenates [S, S, S, S, S, S, S, S, S, S, S, S, S, S, S, S] t a)
    (j : t.Idx) (p : Nat) (hp : p < 16) (hr : S.rank = t.rank) (i : S.Idx)
    (hi : ∀ b : Fin S.rank, b.cast hr ≠ a → (i b).val = (j (b.cast hr)).val)
    (ha : p * S.size (a.cast hr.symm) + (i (a.cast hr.symm)).val = (j a).val) :
    concatenate t a [⟨S, x0⟩, ⟨S, x1⟩, ⟨S, x2⟩, ⟨S, x3⟩, ⟨S, x4⟩, ⟨S, x5⟩, ⟨S, x6⟩, ⟨S, x7⟩, ⟨S, x8⟩, ⟨S, x9⟩,
        ⟨S, x10⟩, ⟨S, x11⟩, ⟨S, x12⟩, ⟨S, x13⟩, ⟨S, x14⟩, ⟨S, x15⟩] h j
      = ([x0, x1, x2, x3, x4, x5, x6, x7, x8, x9, x10, x11, x12, x13, x14, x15][p]'hp) i :=
  concat_same_apply a [x0, x1, x2, x3, x4, x5, x6, x7, x8, x9, x10, x11, x12, x13, x14, x15] h j p hp hr i hi ha

/-- Six pieces of one shape. -/
theorem cat6_apply {t S : Shape} (a : Fin t.rank) (x0 x1 x2 x3 x4 x5 : S.Idx → α)
    (h : Shape.Concatenates [S, S, S, S, S, S] t a)
    (j : t.Idx) (p : Nat) (hp : p < 6) (hr : S.rank = t.rank) (i : S.Idx)
    (hi : ∀ b : Fin S.rank, b.cast hr ≠ a → (i b).val = (j (b.cast hr)).val)
    (ha : p * S.size (a.cast hr.symm) + (i (a.cast hr.symm)).val = (j a).val) :
    concatenate t a [⟨S, x0⟩, ⟨S, x1⟩, ⟨S, x2⟩, ⟨S, x3⟩, ⟨S, x4⟩, ⟨S, x5⟩] h j
      = ([x0, x1, x2, x3, x4, x5][p]'hp) i :=
  concat_same_apply a [x0, x1, x2, x3, x4, x5] h j p hp hr i hi ha

/-- Row `j` of a stack `[n, R, C]`, rows `o ≤ · < o + R'`, cut out as `[1, R', C]` and read as `[R', C]`: entry `(d, k)` is
    the stack's entry `(j, o + d, k)`. -/
theorem slice_row3_apply {n R C R' : Nat} (A : (⟨3, ![n, R, C]⟩ : Shape).Idx → α) (j o : Nat)
    (hs : (⟨3, ![n, R, C]⟩ : Shape).Slices ![j, o, 0] ⟨3, ![1, R', C]⟩)
    (hc : (⟨3, ![1, R', C]⟩ : Shape).ShapeCasts ⟨2, ![R', C]⟩)
    (d : Fin R') (k : Fin C) (jj : Fin n) (e : Fin R) (hjj : jj.val = j) (he : e.val = o + d.val) :
    shapeCast ⟨2, ![R', C]⟩ (extractStridedSlice ⟨3, ![1, R', C]⟩ ![j, o, 0] A hs) hc (ix2 d k)
      = A (ix3 jj e k) := by
  refine (shapeCast_1ab_ab_apply _ hc d k).trans ?_
  refine extractStridedSlice_apply _ A hs _ _ (fun a => ?_)
  match a with
  | ⟨0, _⟩ => exact hjj
  | ⟨1, _⟩ => exact he
  | ⟨2, _⟩ => exact (Nat.zero_add _).symm

/-- Row `j` of a matrix `[n, C]` cut out as `[1, C]` and read as a vector. -/
theorem slice_row2_apply {n C : Nat} (A : (⟨2, ![n, C]⟩ : Shape).Idx → α) (j : Nat)
    (hs : (⟨2, ![n, C]⟩ : Shape).Slices ![j, 0] ⟨2, ![1, C]⟩)
    (hc : (⟨2, ![1, C]⟩ : Shape).ShapeCasts ⟨1, ![C]⟩) (k : Fin C) (jj : Fin n) (hjj : jj.val = j) :
    shapeCast ⟨1, ![C]⟩ (extractStridedSlice ⟨2, ![1, C]⟩ ![j, 0] A hs) hc (ix1 k) = A (ix2 jj k) := by
  refine (shapeCast_1a_a_apply _ hc k).trans ?_
  refine extractStridedSlice_apply _ A hs _ _ (fun a => ?_)
  match a with
  | ⟨0, _⟩ => exact hjj
  | ⟨1, _⟩ => exact (Nat.zero_add _).symm

/-- A `[3, 3]` matrix put on a new leading unit axis. -/
theorem bcast_33_133_apply (x : (⟨2, ![3, 3]⟩ : Shape).Idx → α)
    (h : (⟨2, ![3, 3]⟩ : Shape).BroadcastsInDim ⟨3, ![1, 3, 3]⟩ ![1, 2]) (u : Fin 1) (e k : Fin 3) :
    broadcastInDim ⟨3, ![1, 3, 3]⟩ ![1, 2] h x (ix3 u e k) = x (ix2 e k) := by
  refine broadcastInDim_apply _ h x _ _ (fun a => ?_)
  match a with
  | ⟨0, _⟩ => rfl
  | ⟨1, _⟩ => rfl

/-- A matrix padded on the right: a column inside the original extent reads the matrix. -/
theorem pad_cols_inside_apply {R C hi : Nat} (x : (⟨2, ![R, C]⟩ : Shape).Idx → α) {u : Shape} (v : u.Idx → α)
    (h : (⟨2, ![R, C]⟩ : Shape).Pads ![0, 0] ![0, hi] ![0, 0] ⟨2, ![R, C + hi]⟩) (hu : 0 < u.numel)
    (d : Fin R) (c : Nat) (hc : c < C) :
    pad ⟨2, ![R, C + hi]⟩ ![0, 0] ![0, hi] ![0, 0] x v h hu (ix2 d ⟨c, by omega⟩) = x (ix2 d ⟨c, hc⟩) := by
  refine pad_apply_of_inside _ _ _ x v h hu _ _ (fun a => ?_)
  match a with
  | ⟨0, _⟩ => show d.val = 0 + d.val * (0 + 1); omega
  | ⟨1, _⟩ => show c = 0 + c * (0 + 1); omega

/-- A vector padded on the right: a position inside the original extent reads the vector. -/
theorem pad_vec_inside_apply {C hi : Nat} (x : (⟨1, ![C]⟩ : Shape).Idx → α) {u : Shape} (v : u.Idx → α)
    (h : (⟨1, ![C]⟩ : Shape).Pads ![0] ![hi] ![0] ⟨1, ![C + hi]⟩) (hu : 0 < u.numel) (c : Nat) (hc : c < C) :
    pad ⟨1, ![C + hi]⟩ ![0] ![hi] ![0] x v h hu (ix1 ⟨c, by omega⟩) = x (ix1 ⟨c, hc⟩) := by
  refine pad_apply_of_inside _ _ _ x v h hu _ _ (fun a => ?_)
  match a with
  | ⟨0, _⟩ => show c = 0 + c * (0 + 1); omega

/-! ## Twenty-two pieces in two groups -/

/-- Twenty-two `[R, 3]` pieces side by side, the first sixteen grouped and the last six grouped: column `3 j + k` of the
    whole is column `k` of piece `j`. -/
theorem cols22_apply {R : Nat}
    (x0 x1 x2 x3 x4 x5 x6 x7 x8 x9 x10 x11 x12 x13 x14 x15 x16 x17 x18 x19 x20 x21 : (⟨2, ![R, 3]⟩ : Shape).Idx → α)
    (h16 : Shape.Concatenates [⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩, ⟨2, ![R, 3]⟩] ⟨2, ![R, 48]⟩ 1)
    (h6 : Shape.Concatenates [⟨2, ![R, 3]⟩, ⟨2, ![R, 3]⟩, ⟨2, ![R, 3]⟩, ⟨2, ![R, 3]⟩, ⟨2, ![R, 3]⟩, ⟨2, ![R, 3]⟩] ⟨2, ![R, 18]⟩ 1)
    (h : Shape.Concatenates [(⟨2, ![R, 48]⟩ : Shape), ⟨2, ![R, 18]⟩] ⟨2, ![R, 66]⟩ 1)
    (r : Fin 22 → Fin R → Fin 3 → α)
    (e0 : ∀ d k, x0 (ix2 d k) = r 0 d k)
    (e1 : ∀ d k, x1 (ix2 d k) = r 1 d k)
    (e2 : ∀ d k, x2 (ix2 d k) = r 2 d k)
    (e3 : ∀ d k, x3 (ix2 d k) = r 3 d k)
    (e4 : ∀ d k, x4 (ix2 d k) = r 4 d k)
    (e5 : ∀ d k, x5 (ix2 d k) = r 5 d k)
    (e6 : ∀ d k, x6 (ix2 d k) = r 6 d k)
    (e7 : ∀ d k, x7 (ix2 d k) = r 7 d k)
    (e8 : ∀ d k, x8 (ix2 d k) = r 8 d k)
    (e9 : ∀ d k, x9 (ix2 d k) = r 9 d k)
    (e10 : ∀ d k, x10 (ix2 d k) = r 10 d k)
    (e11 : ∀ d k, x11 (ix2 d k) = r 11 d k)
    (e12 : ∀ d k, x12 (ix2 d k) = r 12 d k)
    (e13 : ∀ d k, x13 (ix2 d k) = r 13 d k)
    (e14 : ∀ d k, x14 (ix2 d k) = r 14 d k)
    (e15 : ∀ d k, x15 (ix2 d k) = r 15 d k)
    (e16 : ∀ d k, x16 (ix2 d k) = r 16 d k)
    (e17 : ∀ d k, x17 (ix2 d k) = r 17 d k)
    (e18 : ∀ d k, x18 (ix2 d k) = r 18 d k)
    (e19 : ∀ d k, x19 (ix2 d k) = r 19 d k)
    (e20 : ∀ d k, x20 (ix2 d k) = r 20 d k)
    (e21 : ∀ d k, x21 (ix2 d k) = r 21 d k)
    (d : Fin R) (k : Fin 3) (j : Fin 22) :
    concatenate ⟨2, ![R, 66]⟩ 1 [⟨⟨2, ![R, 48]⟩, concatenate ⟨2, ![R, 48]⟩ 1 [⟨⟨2, ![R, 3]⟩, x0⟩, ⟨⟨2, ![R, 3]⟩, x1⟩, ⟨⟨2, ![R, 3]⟩, x2⟩, ⟨⟨2, ![R, 3]⟩, x3⟩, ⟨⟨2, ![R, 3]⟩, x4⟩, ⟨⟨2, ![R, 3]⟩, x5⟩, ⟨⟨2, ![R, 3]⟩, x6⟩, ⟨⟨2, ![R, 3]⟩, x7⟩, ⟨⟨2, ![R, 3]⟩, x8⟩, ⟨⟨2, ![R, 3]⟩, x9⟩, ⟨⟨2, ![R, 3]⟩, x10⟩, ⟨⟨2, ![R, 3]⟩, x11⟩, ⟨⟨2, ![R, 3]⟩, x12⟩, ⟨⟨2, ![R, 3]⟩, x13⟩, ⟨⟨2, ![R, 3]⟩, x14⟩, ⟨⟨2, ![R, 3]⟩, x15⟩] h16⟩,
        ⟨⟨2, ![R, 18]⟩, concatenate ⟨2, ![R, 18]⟩ 1 [⟨⟨2, ![R, 3]⟩, x16⟩, ⟨⟨2, ![R, 3]⟩, x17⟩, ⟨⟨2, ![R, 3]⟩, x18⟩, ⟨⟨2, ![R, 3]⟩, x19⟩, ⟨⟨2, ![R, 3]⟩, x20⟩, ⟨⟨2, ![R, 3]⟩, x21⟩] h6⟩] h (ix2 d ⟨3 * j.val + k.val, by omega⟩)
      = r j d k := by
  obtain ⟨j, hj22⟩ := j
  by_cases hj : j < 16
  · refine (concatenate_pair_apply_left 1 _ _ h _ rfl (ix2 d ⟨3 * j + k.val, by omega⟩) (fun b => by match b with | ⟨0, _⟩ => rfl | ⟨1, _⟩ => rfl)).trans ?_
    refine (cat16_apply (t := ⟨2, ![R, 48]⟩) (S := ⟨2, ![R, 3]⟩) 1 _ _ _ _ _ _ _ _ _ _ _ _ _ _ _ _ h16 _ j hj rfl (ix2 d k) (fun b hb => by match b with | ⟨0, _⟩ => rfl | ⟨1, _⟩ => exact absurd rfl hb) (by show j * 3 + k.val = 3 * j + k.val; omega)).trans ?_
    interval_cases j
    exacts [e0 d k, e1 d k, e2 d k, e3 d k, e4 d k, e5 d k, e6 d k, e7 d k, e8 d k, e9 d k, e10 d k, e11 d k, e12 d k, e13 d k, e14 d k, e15 d k]
  · have hj' : j - 16 < 6 := by omega
    refine (concatenate_pair_apply_right 1 _ _ h _ rfl rfl (ix2 d ⟨3 * (j - 16) + k.val, by omega⟩) (fun b hb => by match b with | ⟨0, _⟩ => rfl | ⟨1, _⟩ => exact absurd rfl hb) (by show 3 * (j - 16) + k.val + 48 = 3 * j + k.val; omega)).trans ?_
    refine (cat6_apply (t := ⟨2, ![R, 18]⟩) (S := ⟨2, ![R, 3]⟩) 1 _ _ _ _ _ _ h6 _ (j - 16) hj' rfl (ix2 d k) (fun b hb => by match b with | ⟨0, _⟩ => rfl | ⟨1, _⟩ => exact absurd rfl hb) (by show (j - 16) * 3 + k.val = 3 * (j - 16) + k.val; omega)).trans ?_
    have hj16 : 16 ≤ j := by omega
    interval_cases j
    exacts [e16 d k, e17 d k, e18 d k, e19 d k, e20 d k, e21 d k]

/-- Twenty-two vectors of three entries end to end, the first sixteen grouped and the last six grouped: entry `3 j + k` of
    the whole is entry `k` of piece `j`. -/
theorem vec22_apply
    (x0 x1 x2 x3 x4 x5 x6 x7 x8 x9 x10 x11 x12 x13 x14 x15 x16 x17 x18 x19 x20 x21 : (⟨1, ![3]⟩ : Shape).Idx → α)
    (h16 : Shape.Concatenates [⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩, ⟨1, ![3]⟩] ⟨1, ![48]⟩ 0)
    (h6 : Shape.Concatenates [⟨1, ![3]⟩, ⟨1, ![3]⟩, ⟨1, ![3]⟩, ⟨1, ![3]⟩, ⟨1, ![3]⟩, ⟨1, ![3]⟩] ⟨1, ![18]⟩ 0)
    (h : Shape.Concatenates [(⟨1, ![48]⟩ : Shape), ⟨1, ![18]⟩] ⟨1, ![66]⟩ 0)
    (r : Fin 22 → Fin 3 → α)
    (e0 : ∀ k, x0 (ix1 k) = r 0 k)
    (e1 : ∀ k, x1 (ix1 k) = r 1 k)
    (e2 : ∀ k, x2 (ix1 k) = r 2 k)
    (e3 : ∀ k, x3 (ix1 k) = r 3 k)
    (e4 : ∀ k, x4 (ix1 k) = r 4 k)
    (e5 : ∀ k, x5 (ix1 k) = r 5 k)
    (e6 : ∀ k, x6 (ix1 k) = r 6 k)
    (e7 : ∀ k, x7 (ix1 k) = r 7 k)
    (e8 : ∀ k, x8 (ix1 k) = r 8 k)
    (e9 : ∀ k, x9 (ix1 k) = r 9 k)
    (e10 : ∀ k, x10 (ix1 k) = r 10 k)
    (e11 : ∀ k, x11 (ix1 k) = r 11 k)
    (e12 : ∀ k, x12 (ix1 k) = r 12 k)
    (e13 : ∀ k, x13 (ix1 k) = r 13 k)
    (e14 : ∀ k, x14 (ix1 k) = r 14 k)
    (e15 : ∀ k, x15 (ix1 k) = r 15 k)
    (e16 : ∀ k, x16 (ix1 k) = r 16 k)
    (e17 : ∀ k, x17 (ix1 k) = r 17 k)
    (e18 : ∀ k, x18 (ix1 k) = r 18 k)
    (e19 : ∀ k, x19 (ix1 k) = r 19 k)
    (e20 : ∀ k, x20 (ix1 k) = r 20 k)
    (e21 : ∀ k, x21 (ix1 k) = r 21 k)
    (k : Fin 3) (j : Fin 22) :
    concatenate ⟨1, ![66]⟩ 0 [⟨⟨1, ![48]⟩, concatenate ⟨1, ![48]⟩ 0 [⟨⟨1, ![3]⟩, x0⟩, ⟨⟨1, ![3]⟩, x1⟩, ⟨⟨1, ![3]⟩, x2⟩, ⟨⟨1, ![3]⟩, x3⟩, ⟨⟨1, ![3]⟩, x4⟩, ⟨⟨1, ![3]⟩, x5⟩, ⟨⟨1, ![3]⟩, x6⟩, ⟨⟨1, ![3]⟩, x7⟩, ⟨⟨1, ![3]⟩, x8⟩, ⟨⟨1, ![3]⟩, x9⟩, ⟨⟨1, ![3]⟩, x10⟩, ⟨⟨1, ![3]⟩, x11⟩, ⟨⟨1, ![3]⟩, x12⟩, ⟨⟨1, ![3]⟩, x13⟩, ⟨⟨1, ![3]⟩, x14⟩, ⟨⟨1, ![3]⟩, x15⟩] h16⟩,
        ⟨⟨1, ![18]⟩, concatenate ⟨1, ![18]⟩ 0 [⟨⟨1, ![3]⟩, x16⟩, ⟨⟨1, ![3]⟩, x17⟩, ⟨⟨1, ![3]⟩, x18⟩, ⟨⟨1, ![3]⟩, x19⟩, ⟨⟨1, ![3]⟩, x20⟩, ⟨⟨1, ![3]⟩, x21⟩] h6⟩] h (ix1 ⟨3 * j.val + k.val, by omega⟩)
      = r j k := by
  obtain ⟨j, hj22⟩ := j
  by_cases hj : j < 16
  · refine (concatenate_pair_apply_left 0 _ _ h _ rfl (ix1 ⟨3 * j + k.val, by omega⟩) (fun b => by match b with | ⟨0, _⟩ => rfl)).trans ?_
    refine (cat16_apply (t := ⟨1, ![48]⟩) (S := ⟨1, ![3]⟩) 0 _ _ _ _ _ _ _ _ _ _ _ _ _ _ _ _ h16 _ j hj rfl (ix1 k) (fun b hb => by match b with | ⟨0, _⟩ => exact absurd rfl hb) (by show j * 3 + k.val = 3 * j + k.val; omega)).trans ?_
    interval_cases j
    exacts [e0 k, e1 k, e2 k, e3 k, e4 k, e5 k, e6 k, e7 k, e8 k, e9 k, e10 k, e11 k, e12 k, e13 k, e14 k, e15 k]
  · have hj' : j - 16 < 6 := by omega
    refine (concatenate_pair_apply_right 0 _ _ h _ rfl rfl (ix1 ⟨3 * (j - 16) + k.val, by omega⟩) (fun b hb => by match b with | ⟨0, _⟩ => exact absurd rfl hb) (by show 3 * (j - 16) + k.val + 48 = 3 * j + k.val; omega)).trans ?_
    refine (cat6_apply (t := ⟨1, ![18]⟩) (S := ⟨1, ![3]⟩) 0 _ _ _ _ _ _ h6 _ (j - 16) hj' rfl (ix1 k) (fun b hb => by match b with | ⟨0, _⟩ => exact absurd rfl hb) (by show (j - 16) * 3 + k.val = 3 * (j - 16) + k.val; omega)).trans ?_
    have hj16 : 16 ≤ j := by omega
    interval_cases j
    exacts [e16 k, e17 k, e18 k, e19 k, e20 k, e21 k]

/-- Twenty-two `[1, 3, 3]` pieces stacked, the first sixteen grouped and the last six grouped: matrix `j` of the whole is
    piece `j`'s one matrix. -/
theorem stack22_apply
    (x0 x1 x2 x3 x4 x5 x6 x7 x8 x9 x10 x11 x12 x13 x14 x15 x16 x17 x18 x19 x20 x21 : (⟨3, ![1, 3, 3]⟩ : Shape).Idx → α)
    (h16 : Shape.Concatenates [⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩, ⟨3, ![1, 3, 3]⟩] ⟨3, ![16, 3, 3]⟩ 0)
    (h6 : Shape.Concatenates [⟨3, ![1, 3, 3]⟩, ⟨3, ![1, 3, 3]⟩, ⟨3, ![1, 3, 3]⟩, ⟨3, ![1, 3, 3]⟩, ⟨3, ![1, 3, 3]⟩, ⟨3, ![1, 3, 3]⟩] ⟨3, ![6, 3, 3]⟩ 0)
    (h : Shape.Concatenates [(⟨3, ![16, 3, 3]⟩ : Shape), ⟨3, ![6, 3, 3]⟩] ⟨3, ![22, 3, 3]⟩ 0)
    (r : Fin 22 → Fin 3 → Fin 3 → α)
    (e0 : ∀ e k, x0 (ix3 (0 : Fin 1) e k) = r 0 e k)
    (e1 : ∀ e k, x1 (ix3 (0 : Fin 1) e k) = r 1 e k)
    (e2 : ∀ e k, x2 (ix3 (0 : Fin 1) e k) = r 2 e k)
    (e3 : ∀ e k, x3 (ix3 (0 : Fin 1) e k) = r 3 e k)
    (e4 : ∀ e k, x4 (ix3 (0 : Fin 1) e k) = r 4 e k)
    (e5 : ∀ e k, x5 (ix3 (0 : Fin 1) e k) = r 5 e k)
    (e6 : ∀ e k, x6 (ix3 (0 : Fin 1) e k) = r 6 e k)
    (e7 : ∀ e k, x7 (ix3 (0 : Fin 1) e k) = r 7 e k)
    (e8 : ∀ e k, x8 (ix3 (0 : Fin 1) e k) = r 8 e k)
    (e9 : ∀ e k, x9 (ix3 (0 : Fin 1) e k) = r 9 e k)
    (e10 : ∀ e k, x10 (ix3 (0 : Fin 1) e k) = r 10 e k)
    (e11 : ∀ e k, x11 (ix3 (0 : Fin 1) e k) = r 11 e k)
    (e12 : ∀ e k, x12 (ix3 (0 : Fin 1) e k) = r 12 e k)
    (e13 : ∀ e k, x13 (ix3 (0 : Fin 1) e k) = r 13 e k)
    (e14 : ∀ e k, x14 (ix3 (0 : Fin 1) e k) = r 14 e k)
    (e15 : ∀ e k, x15 (ix3 (0 : Fin 1) e k) = r 15 e k)
    (e16 : ∀ e k, x16 (ix3 (0 : Fin 1) e k) = r 16 e k)
    (e17 : ∀ e k, x17 (ix3 (0 : Fin 1) e k) = r 17 e k)
    (e18 : ∀ e k, x18 (ix3 (0 : Fin 1) e k) = r 18 e k)
    (e19 : ∀ e k, x19 (ix3 (0 : Fin 1) e k) = r 19 e k)
    (e20 : ∀ e k, x20 (ix3 (0 : Fin 1) e k) = r 20 e k)
    (e21 : ∀ e k, x21 (ix3 (0 : Fin 1) e k) = r 21 e k)
    (e k : Fin 3) (j : Fin 22) :
    concatenate ⟨3, ![22, 3, 3]⟩ 0 [⟨⟨3, ![16, 3, 3]⟩, concatenate ⟨3, ![16, 3, 3]⟩ 0 [⟨⟨3, ![1, 3, 3]⟩, x0⟩, ⟨⟨3, ![1, 3, 3]⟩, x1⟩, ⟨⟨3, ![1, 3, 3]⟩, x2⟩, ⟨⟨3, ![1, 3, 3]⟩, x3⟩, ⟨⟨3, ![1, 3, 3]⟩, x4⟩, ⟨⟨3, ![1, 3, 3]⟩, x5⟩, ⟨⟨3, ![1, 3, 3]⟩, x6⟩, ⟨⟨3, ![1, 3, 3]⟩, x7⟩, ⟨⟨3, ![1, 3, 3]⟩, x8⟩, ⟨⟨3, ![1, 3, 3]⟩, x9⟩, ⟨⟨3, ![1, 3, 3]⟩, x10⟩, ⟨⟨3, ![1, 3, 3]⟩, x11⟩, ⟨⟨3, ![1, 3, 3]⟩, x12⟩, ⟨⟨3, ![1, 3, 3]⟩, x13⟩, ⟨⟨3, ![1, 3, 3]⟩, x14⟩, ⟨⟨3, ![1, 3, 3]⟩, x15⟩] h16⟩,
        ⟨⟨3, ![6, 3, 3]⟩, concatenate ⟨3, ![6, 3, 3]⟩ 0 [⟨⟨3, ![1, 3, 3]⟩, x16⟩, ⟨⟨3, ![1, 3, 3]⟩, x17⟩, ⟨⟨3, ![1, 3, 3]⟩, x18⟩, ⟨⟨3, ![1, 3, 3]⟩, x19⟩, ⟨⟨3, ![1, 3, 3]⟩, x20⟩, ⟨⟨3, ![1, 3, 3]⟩, x21⟩] h6⟩] h (ix3 j e k)
      = r j e k := by
  obtain ⟨j, hj22⟩ := j
  by_cases hj : j < 16
  · refine (concatenate_pair_apply_left 0 _ _ h _ rfl (ix3 (⟨j, hj⟩ : Fin 16) e k) (fun b => by match b with | ⟨0, _⟩ => rfl | ⟨1, _⟩ => rfl | ⟨2, _⟩ => rfl)).trans ?_
    refine (cat16_apply (t := ⟨3, ![16, 3, 3]⟩) (S := ⟨3, ![1, 3, 3]⟩) 0 _ _ _ _ _ _ _ _ _ _ _ _ _ _ _ _ h16 _ j hj rfl (ix3 (0 : Fin 1) e k) (fun b hb => by match b with | ⟨0, _⟩ => exact absurd rfl hb | ⟨1, _⟩ => rfl | ⟨2, _⟩ => rfl) (by show j * 1 + 0 = j; omega)).trans ?_
    interval_cases j
    exacts [e0 e k, e1 e k, e2 e k, e3 e k, e4 e k, e5 e k, e6 e k, e7 e k, e8 e k, e9 e k, e10 e k, e11 e k, e12 e k, e13 e k, e14 e k, e15 e k]
  · have hj' : j - 16 < 6 := by omega
    refine (concatenate_pair_apply_right 0 _ _ h _ rfl rfl (ix3 (⟨j - 16, by omega⟩ : Fin 6) e k) (fun b hb => by match b with | ⟨0, _⟩ => exact absurd rfl hb | ⟨1, _⟩ => rfl | ⟨2, _⟩ => rfl) (by show j - 16 + 16 = j; omega)).trans ?_
    refine (cat6_apply (t := ⟨3, ![6, 3, 3]⟩) (S := ⟨3, ![1, 3, 3]⟩) 0 _ _ _ _ _ _ h6 _ (j - 16) hj' rfl (ix3 (0 : Fin 1) e k) (fun b hb => by match b with | ⟨0, _⟩ => exact absurd rfl hb | ⟨1, _⟩ => rfl | ⟨2, _⟩ => rfl) (by show (j - 16) * 1 + 0 = j - 16; omega)).trans ?_
    have hj16 : 16 ≤ j := by omega
    interval_cases j
    exacts [e16 e k, e17 e k, e18 e k, e19 e k, e20 e k, e21 e k]

end Cert.Layout

end
-- ==== Proof.PreludeWallA.lean ====
/-
  The first stretch of host operations lays the root weights and joints 1 … 21's context-side weight slices side by
  side, three columns per joint: column `3 j + k` of the result is column `k` of joint `j`'s slice. The second stretch
  pads the 66 columns to 128 and leaves the first 66 as they are. Stated over any contents a stretch starts from.
-/
import proofs.«137270_j20160576487702_2_alg».proof.Proof.Gen.KernelIdeal.Launch
import proofs.«137270_j20160576487702_2_alg».proof.Proof.LibSameShapePieces
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384
set_option maxHeartbeats 4000000

noncomputable section

namespace Cert.KernelIdeal.Prelude

open Cert.KernelIdeal Cert.KernelIdeal.Gen Idealize.ShloMosaic Idealize.ShloMosaic.ValueIdx
open Idealize.ShloMosaic.StableHlo

variable {F : FTy → Type} [FloatOps F]

/-- Column `3 j + k` of the side-by-side weights: the root weights at `j = 0`, joint `j`'s first 512 rows otherwise. -/
theorem v44_apply (W : Valuation τ sig (Elt F)) (d : Fin 512) (j : Fin 22) (k : Fin 3) :
    StableHlo.after (hostOps0 (F := F)) W (Proc.devRef .tc main_v44) (ix2 d ⟨3 * j.val + k.val, by omega⟩)
      = if j.val = 0 then W (Proc.devRef .tc main_arg1) (ix2 d k)
        else W (Proc.devRef .tc main_arg3) (ix3 j ⟨d.val, by omega⟩ k) := by
  dsimp only [hostOps0]
  after_results_simp
  dsimp only [Matrix.cons_val]
  refine Cert.Layout.cols22_apply (α := Elt F .f32) (R := 512) _ _ _ _ _ _ _ _ _ _ _ _ _ _ _ _ _ _ _ _ _ _
    concatenates_S512x3_S512x3_S512x3_S512x3_S512x3_S512x3_S512x3_S512x3_S512x3_S512x3_S512x3_S512x3_S512x3_S512x3_S512x3_S512x3_S512x48_d1
    concatenates_S512x3_S512x3_S512x3_S512x3_S512x3_S512x3_S512x18_d1 concatenates_S512x48_S512x18_S512x66_d1
    (fun j d k => if j.val = 0 then W (Proc.devRef .tc main_arg1) (ix2 d k)
        else W (Proc.devRef .tc main_arg3) (ix3 j ⟨d.val, by omega⟩ k))
    ?_ ?_ ?_ ?_ ?_ ?_ ?_ ?_ ?_ ?_ ?_ ?_ ?_ ?_ ?_ ?_ ?_ ?_ ?_ ?_ ?_ ?_ d k j
  all_goals (
    intro d k
    after_results_simp
    first
      | rfl
      | (refine Eq.trans ?_ (if_neg (by decide)).symm
         exact Cert.Layout.slice_row3_apply _ _ 0 _ _ d k _ _ rfl (Nat.zero_add _).symm))

end Cert.KernelIdeal.Prelude

end
-- ==== Proof.PreludePads.lean ====
/-
  The two padding stretches, each two host operations: the zero constant converted to a float, then the pad on the
  right. Inside the original extent the padded array reads the array it pads. Stated over any contents a stretch
  starts from.
-/
import proofs.«137270_j20160576487702_2_alg».proof.Proof.Gen.KernelIdeal.Launch
import proofs.«137270_j20160576487702_2_alg».proof.Proof.LibSameShapePieces
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

set_option maxRecDepth 16384
set_option maxHeartbeats 4000000

noncomputable section

namespace Cert.KernelIdeal.Prelude

open Cert.KernelIdeal Cert.KernelIdeal.Gen Idealize.ShloMosaic Idealize.ShloMosaic.ValueIdx
open Idealize.ShloMosaic.StableHlo

variable {F : FTy → Type} [FloatOps F]

/-- The padded weights, read at a column below 66. -/
theorem v45_apply (W : Valuation τ sig (Elt F)) (d : Fin 512) (c : Nat) (hc : c < 66) :
    StableHlo.after (hostOps0_1 (F := F)) W (Proc.devRef .tc main_v45) (ix2 d ⟨c, by omega⟩)
      = W (Proc.devRef .tc main_v44) (ix2 d ⟨c, hc⟩) := by
  dsimp only [hostOps0_1, StableHlo.TRef.unary, StableHlo.TRef.binary, StableHlo.TRef.of, StableHlo.TRef.toBuf, StableHlo.TRef.ofBuf]
  after_results_simp
  exact Cert.Layout.pad_cols_inside_apply (R := 512) (C := 66) (hi := 62) _ _ pads_S512x66_S512x128_000_0620 h_S_ d c hc

/-- The padded bias vector, read at a position below 66. -/
theorem v92_apply (W : Valuation τ sig (Elt F)) (c : Nat) (hc : c < 66) :
    StableHlo.after (hostOps0_3 (F := F)) W (Proc.devRef .tc main_v92) (ix1 ⟨c, by omega⟩)
      = W (Proc.devRef .tc main_v91) (ix1 ⟨c, hc⟩) := by
  dsimp only [hostOps0_3, StableHlo.TRef.unary, StableHlo.TRef.binary, StableHlo.TRef.of, StableHlo.TRef.toBuf, StableHlo.TRef.ofBuf]
  after_results_simp
  exact Cert.Layout.pad_vec_inside_apply (C := 66) (hi := 62) _ _ pads_S66_S128_0620 h_S_ c hc

/-- Neither padding stretch writes a buffer other than its constant's float and its padded array. -/
theorem keep1 (W : Valuation τ sig (Elt F)) (r : Ref sig .tc) (h1 : r ≠ main_call0_v0) (h2 : r ≠ main_v45) :
    StableHlo.after (hostOps0_1 (F := F)) W (Proc.devRef .tc r) = W (Proc.devRef .tc r) :=
  StableHlo.after_of_forall_not_mem _ _ (fun op hop => by
    simp only [hostOps0_1, StableHlo.TRef.unary, StableHlo.TRef.binary, List.mem_cons, List.not_mem_nil, or_false] at hop
    rcases hop with rfl | rfl
    · rw [StableHlo.unary_writes, Finset.mem_singleton]; exact StableHlo.devRef_ne_of_ne h1
    · rw [StableHlo.binary_writes, Finset.mem_singleton]; exact StableHlo.devRef_ne_of_ne h2)

theorem keep3 (W : Valuation τ sig (Elt F)) (r : Ref sig .tc) (h1 : r ≠ main_call1_v0) (h2 : r ≠ main_v92) :
    StableHlo.after (hostOps0_3 (F := F)) W (Proc.devRef .tc r) = W (Proc.devRef .tc r) :=
  StableHlo.after_of_forall_not_mem _ _ (fun op hop => by
    simp only [hostOps0_3, StableHlo.TRef.unary, StableHlo.TRef.binary, List.mem_cons, List.not_mem_nil, or_false] at hop
    rcases hop with rfl | rfl
    · rw [StableHlo.unary_writes, Finset.mem_singleton]; exact StableHlo.devRef_ne_of_ne h1
    · rw [StableHlo.binary_writes, Finset.mem_singleton]; exact StableHlo.devRef_ne_of_ne h2)

end Cert.KernelIdeal.Prelude

end
-- ==== Proof.PreludeBiasC.lean ====
/-
  The third stretch of host operations narrows the padded weights to bf16 — on the extended reals the identity — and
  lays the root bias and joints 1 … 21's bias rows end to end, three entries per joint. It writes no argument array,
  and neither does the first stretch. Stated over any contents a stretch starts from.
-/
import proofs.«137270_j20160576487702_2_alg».proof.Proof.Gen.KernelIdeal.Launch
import proofs.«137270_j20160576487702_2_alg».proof.Proof.LibSameShapePieces
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal
set_option maxRecDepth 16384
set_option maxHeartbeats 4000000

noncomputable section

namespace Cert.KernelIdeal.Prelude

open Cert.KernelIdeal Cert.KernelIdeal.Gen Idealize.ShloMosaic Idealize.ShloMosaic.ValueIdx
open Idealize.ShloMosaic.StableHlo

variable {F : FTy → Type} [FloatOps F]

/-- The first stretch leaves the bias arguments and the joint weights as they are. -/
theorem keep0_arg2 (W : Valuation τ sig (Elt F)) :
    StableHlo.after (hostOps0 (F := F)) W (Proc.devRef .tc main_arg2) = W (Proc.devRef .tc main_arg2) := by
  dsimp only [hostOps0]; after_results_simp
theorem keep0_arg3 (W : Valuation τ sig (Elt F)) :
    StableHlo.after (hostOps0 (F := F)) W (Proc.devRef .tc main_arg3) = W (Proc.devRef .tc main_arg3) := by
  dsimp only [hostOps0]; after_results_simp
theorem keep0_arg4 (W : Valuation τ sig (Elt F)) :
    StableHlo.after (hostOps0 (F := F)) W (Proc.devRef .tc main_arg4) = W (Proc.devRef .tc main_arg4) := by
  dsimp only [hostOps0]; after_results_simp
/-- The third stretch leaves the joint weights as they are. -/
theorem keep2_arg3 (W : Valuation τ sig (Elt F)) :
    StableHlo.after (hostOps0_2 (F := F)) W (Proc.devRef .tc main_arg3) = W (Proc.devRef .tc main_arg3) := by
  dsimp only [hostOps0_2]; after_results_simp

/-- The narrowed weights are the padded weights, entry by entry. -/
theorem v46_apply (W : Valuation τ sig (Elt Ideal)) (i : S512x128.Idx) :
    StableHlo.after (hostOps0_2 (F := Ideal)) W (Proc.devRef .tc main_v46) i = W (Proc.devRef .tc main_v45) i := by
  dsimp only [hostOps0_2]; after_results_simp; rfl

/-- Entry `3 j + k` of the end-to-end biases: the root bias at `j = 0`, joint `j`'s bias row otherwise. -/
theorem v91_apply (W : Valuation τ sig (Elt F)) (j : Fin 22) (k : Fin 3) :
    StableHlo.after (hostOps0_2 (F := F)) W (Proc.devRef .tc main_v91) (ix1 ⟨3 * j.val + k.val, by omega⟩)
      = if j.val = 0 then W (Proc.devRef .tc main_arg2) (ix1 k) else W (Proc.devRef .tc main_arg4) (ix2 j k) := by
  dsimp only [hostOps0_2]
  after_results_simp
  dsimp only [Matrix.cons_val]
  refine Cert.Layout.vec22_apply (α := Elt F .f32) _ _ _ _ _ _ _ _ _ _ _ _ _ _ _ _ _ _ _ _ _ _
    concatenates_S3_S3_S3_S3_S3_S3_S3_S3_S3_S3_S3_S3_S3_S3_S3_S3_S48_d0 concatenates_S3_S3_S3_S3_S3_S3_S18_d0 concatenates_S48_S18_S66_d0
    (fun j k => if j.val = 0 then W (Proc.devRef .tc main_arg2) (ix1 k) else W (Proc.devRef .tc main_arg4) (ix2 j k))
    ?_ ?_ ?_ ?_ ?_ ?_ ?_ ?_ ?_ ?_ ?_ ?_ ?_ ?_ ?_ ?_ ?_ ?_ ?_ ?_ ?_ ?_ k j
  all_goals (
    intro k
    after_results_simp
    first
      | rfl
      | (refine Eq.trans ?_ (if_neg (by decide)).symm
         exact Cert.Layout.slice_row2_apply _ _ _ _ k _ rfl))

end Cert.KernelIdeal.Prelude

end
-- ==== Proof.PreludeJointE.lean ====
/-
  The last stretch of host operations reads the padded bias vector as one row, and stacks a zero matrix and joints
  1 … 21's parent-side weights — rows 512, 513, 514 of each joint's weight matrix — into `[22, 3, 3]`, narrowed to bf16
  (on the extended reals the identity). It does not write the narrowed fused weights. Stated over any contents the
  stretch starts from.
-/
import proofs.«137270_j20160576487702_2_alg».proof.Proof.Gen.KernelIdeal.Launch
import proofs.«137270_j20160576487702_2_alg».proof.Proof.LibSameShapePieces
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal
set_option maxRecDepth 16384
set_option maxHeartbeats 4000000

noncomputable section

namespace Cert.KernelIdeal.Prelude

open Cert.KernelIdeal Cert.KernelIdeal.Gen Idealize.ShloMosaic Idealize.ShloMosaic.ValueIdx
open Idealize.ShloMosaic.StableHlo

variable {F : FTy → Type} [FloatOps F]

/-- The last stretch leaves the narrowed fused weights as they are. -/
theorem keep4_v46 (W : Valuation τ sig (Elt F)) :
    StableHlo.after (hostOps0_4 (F := F)) W (Proc.devRef .tc main_v46) = W (Proc.devRef .tc main_v46) := by
  dsimp only [hostOps0_4]; after_results_simp

/-- The bias row is the padded bias vector. -/
theorem v93_apply (W : Valuation τ sig (Elt F)) (c : Fin 128) :
    StableHlo.after (hostOps0_4 (F := F)) W (Proc.devRef .tc main_v93) (ix2 (0 : Fin 1) c)
      = W (Proc.devRef .tc main_v92) (ix1 c) := by
  dsimp only [hostOps0_4]
  after_results_simp
  exact shapeCast_a_1a_apply _ _ 0 c

/-- Matrix `j ≠ 0` of the stack, before narrowing, is rows 512 … 514 of joint `j`'s weights. -/
theorem v161_apply (W : Valuation τ sig (Elt F)) (j : Fin 22) (hj : j.val ≠ 0) (e k : Fin 3) :
    StableHlo.after (hostOps0_4 (F := F)) W (Proc.devRef .tc main_v161) (ix3 j e k)
      = W (Proc.devRef .tc main_arg3) (ix3 j ⟨512 + e.val, by omega⟩ k) := by
  dsimp only [hostOps0_4]
  after_results_simp
  dsimp only [Matrix.cons_val]
  refine (Cert.Layout.stack22_apply (α := Elt F .f32) _ _ _ _ _ _ _ _ _ _ _ _ _ _ _ _ _ _ _ _ _ _
    concatenates_S1x3x3_S1x3x3_S1x3x3_S1x3x3_S1x3x3_S1x3x3_S1x3x3_S1x3x3_S1x3x3_S1x3x3_S1x3x3_S1x3x3_S1x3x3_S1x3x3_S1x3x3_S1x3x3_S16x3x3_d0 concatenates_S1x3x3_S1x3x3_S1x3x3_S1x3x3_S1x3x3_S1x3x3_S6x3x3_d0
    concatenates_S16x3x3_S6x3x3_S22x3x3_d0
    (fun j e k => if j.val = 0 then constant S_ .f32 0x00000000#32 ix0
        else W (Proc.devRef .tc main_arg3) (ix3 j ⟨512 + e.val, by omega⟩ k))
    ?_ ?_ ?_ ?_ ?_ ?_ ?_ ?_ ?_ ?_ ?_ ?_ ?_ ?_ ?_ ?_ ?_ ?_ ?_ ?_ ?_ ?_ e k j).trans (if_neg hj)
  all_goals (
    intro e k
    after_results_simp
    first
      | (refine Eq.trans ?_ (if_neg (by decide)).symm
         refine (Cert.Layout.bcast_33_133_apply _ _ 0 e k).trans ?_
         exact Cert.Layout.slice_row3_apply _ _ 512 _ _ e k _ _ rfl rfl)
      | (refine Eq.trans ?_ (if_pos rfl).symm
         refine (Cert.Layout.bcast_33_133_apply _ _ 0 e k).trans ?_
         exact broadcastInDim_apply _ _ _ _ ix0 (fun a => a.elim0)))

/-- Narrowing to bf16 is the identity on the extended reals: the narrowed stack is the stack, entry by entry. -/
theorem v162_eq (W : Valuation τ sig (Elt Ideal)) (i : S22x3x3.Idx) :
    StableHlo.after (hostOps0_4 (F := Ideal)) W (Proc.devRef .tc main_v162) i
      = StableHlo.after (hostOps0_4 (F := Ideal)) W (Proc.devRef .tc main_v161) i := by
  dsimp only [hostOps0_4]
  after_results_simp
  rfl

/-- Matrix `j ≠ 0` of the narrowed stack is rows 512 … 514 of joint `j`'s weights. -/
theorem v162_apply (W : Valuation τ sig (Elt Ideal)) (j : Fin 22) (hj : j.val ≠ 0) (e k : Fin 3) :
    StableHlo.after (hostOps0_4 (F := Ideal)) W (Proc.devRef .tc main_v162) (ix3 j e k)
      = W (Proc.devRef .tc main_arg3) (ix3 j ⟨512 + e.val, by omega⟩ k) :=
  (v162_eq W _).trans (v161_apply W j hj e k)

end Cert.KernelIdeal.Prelude

end
-- ==== Proof.Prelude.lean ====
/-
  What the call finds in its three parameter arrays, read at an index in terms of the argument arrays, on the extended
  reals. The five stretches of host operations run one after the other; each array is written in one stretch from
  arrays earlier stretches wrote or left alone:
    the fused weights   — side by side (stretch 1), padded to 128 columns (2), narrowed (3), untouched after;
    the fused bias row  — end to end (3), padded to 128 (4), read as one row (5);
    the parent weights  — stacked and narrowed (5) from the joint weights, which no stretch writes.
-/
import proofs.«137270_j20160576487702_2_alg».proof.Proof.IdealEntry
import proofs.«137270_j20160576487702_2_alg».proof.Proof.BlockJoints
import proofs.«137270_j20160576487702_2_alg».proof.Proof.LibAfter
import proofs.«137270_j20160576487702_2_alg».proof.Proof.PreludeWallA
import proofs.«137270_j20160576487702_2_alg».proof.Proof.PreludePads
import proofs.«137270_j20160576487702_2_alg».proof.Proof.PreludeBiasC
import proofs.«137270_j20160576487702_2_alg».proof.Proof.PreludeJointE

set_option maxRecDepth 16384
set_option maxHeartbeats 4000000

noncomputable section

namespace Cert.KernelIdeal.Prelude

open Cert.KernelIdeal Cert.KernelIdeal.Gen Cert.KernelIdeal.Entry
open Idealize.ShloMosaic Idealize.ShloMosaic.TcCoe Idealize.ShloMosaic.ValueIdx
open Idealize.ShloMosaic.StableHlo

variable (m : (ℓ : Loc nD τ sig) → Buf (Elt Ideal) ℓ) (c : Dev nD)

/-- The contents the call finds are the launch contents folded through the five stretches in turn. -/
theorem V_eq (b : Ref sig .tc) :
    V (F := Ideal) m c b
      = StableHlo.after hostOps0_4 (StableHlo.after hostOps0_3 (StableHlo.after hostOps0_2 (StableHlo.after hostOps0_1
          (StableHlo.after hostOps0 (fun b => m (c, b)))))) (Proc.devRef .tc b) := by
  unfold V
  simp only [List.flatten_cons, List.flatten_nil, List.append_nil, Cert.After.after_append]

/-- The fused weights: columns `3 j + k` hold the root weights (`j = 0`) or joint `j`'s first 512 rows. -/
theorem wall_apply (d : Fin 512) (j : Fin 22) (k : Fin 3) :
    V (F := Ideal) m c main_v46 (ix2 d ⟨3 * j.val + k.val, by omega⟩)
      = if j.val = 0 then m ((c : Thread nD τ).loc main_arg1) (ix2 d k)
        else m ((c : Thread nD τ).loc main_arg3) (ix3 j ⟨d.val, by omega⟩ k) := by
  rw [V_eq, keep4_v46, keep3 _ main_v46 (by decide) (by decide)]
  refine (v46_apply _ _).trans ?_
  refine (v45_apply _ d (3 * j.val + k.val) (by omega)).trans ?_
  exact v44_apply _ d j k

/-- The fused bias row: entries `3 j + k` hold the root bias (`j = 0`) or joint `j`'s bias row. -/
theorem ball_apply (j : Fin 22) (k : Fin 3) :
    V (F := Ideal) m c main_v93 (ix2 (0 : Fin 1) ⟨3 * j.val + k.val, by omega⟩)
      = if j.val = 0 then m ((c : Thread nD τ).loc main_arg2) (ix1 k)
        else m ((c : Thread nD τ).loc main_arg4) (ix2 j k) := by
  rw [V_eq]
  refine (v93_apply _ ⟨3 * j.val + k.val, by omega⟩).trans ?_
  refine (v92_apply _ (3 * j.val + k.val) (by omega)).trans ?_
  refine (v91_apply _ j k).trans ?_
  rw [keep1 _ main_arg2 (by decide) (by decide), keep1 _ main_arg4 (by decide) (by decide), keep0_arg2, keep0_arg4]

/-- The parent-side weights: matrix `j ≠ 0` is rows 512 … 514 of joint `j`'s weight matrix. -/
theorem wjoint_apply (j : Fin 22) (hj : j.val ≠ 0) (e k : Fin 3) :
    V (F := Ideal) m c main_v162 (ix3 j e k)
      = m ((c : Thread nD τ).loc main_arg3) (ix3 j ⟨512 + e.val, by omega⟩ k) := by
  rw [V_eq]
  refine (v162_apply _ j hj e k).trans ?_
  rw [keep3 _ main_arg3 (by decide) (by decide), keep2_arg3, keep1 _ main_arg3 (by decide) (by decide), keep0_arg3]

/-- The three parameter arrays the call finds are the fused forms of the layer's parameters. -/
theorem prelude_fused (m : (ℓ : Loc nD τ sig) → Buf (Elt Ideal) ℓ) (c : Dev nD) :
    Cert.Joints.Fused (m ((c : Thread nD τ).loc main_arg1)) (m ((c : Thread nD τ).loc main_arg2))
      (m ((c : Thread nD τ).loc main_arg3)) (m ((c : Thread nD τ).loc main_arg4))
      (Cert.KernelIdeal.Entry.V (F := Ideal) m c main_v46) (Cert.KernelIdeal.Entry.V (F := Ideal) m c main_v93)
      (Cert.KernelIdeal.Entry.V (F := Ideal) m c main_v162) where
  wall0 d k := (wall_apply m c d 0 k).trans (if_pos rfl)
  wall j hj d k := (wall_apply m c d j k).trans (if_neg hj)
  ball0 k := (ball_apply m c 0 k).trans (if_pos rfl)
  ball j hj k := (ball_apply m c j k).trans (if_neg hj)
  stack j hj e k := wjoint_apply m c j hj e k

end Cert.KernelIdeal.Prelude

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.RefJointsA.lean ====
/-
  The pieces of one joint of the reference program, read at an index over the extended reals: a record of dimension
  numbers with the plain product's six lists is the plain product's; block `j` of the weight array, reshaped to a
  matrix, read at `(d, k)`; row `j` of the bias array, reshaped to a vector, read at `k`; the context row joined
  with the parent's three numbers, read at `(r, d)`; and the whole joint: the contraction of the joined row with the
  weight block, plus the bias row, squashed and scaled.
-/
import Idealize.ShloMosaic.PureOps.Ideal
import Idealize.ShloMosaic.PureOps.Ideal.Laws
import Idealize.ShloMosaic.Lib.Pipeline.Value
import Idealize.ShloMosaic.Lib.ValueIdx
import Mathlib.Algebra.BigOperators.Fin
import proofs.«137270_j20160576487702_2_alg».proof.Proof.Joints
import proofs.«137270_j20160576487702_2_alg».proof.Proof.LibMatProd
import proofs.«137270_j20160576487702_2_alg».proof.Proof.LibCat
import proofs.«137270_j20160576487702_2_alg».proof.Proof.LibBroadcast

noncomputable section

open scoped BigOperators

namespace Cert.RefJoints

open Idealize.ShloMosaic Idealize.ShloMosaic.ValueIdx

variable {α : Type} {R : Nat}

/-- Block `jn` of a `[22, 515, 3]` array, reshaped to a `[515, 3]` matrix, read at `(d, k)`: the array at `(jn, d, k)`. -/
theorem weight_block_apply (Wt : (⟨3, ![22, 515, 3]⟩ : Shape).Idx → α) (jn : Nat) (hj : jn < 22)
    (hs : (⟨3, ![22, 515, 3]⟩ : Shape).Slices ![jn, 0, 0] ⟨3, ![1, 515, 3]⟩)
    (hc : (⟨3, ![1, 515, 3]⟩ : Shape).ShapeCasts ⟨2, ![515, 3]⟩) (d : Fin 515) (k : Fin 3) :
    shapeCast ⟨2, ![515, 3]⟩ (extractStridedSlice ⟨3, ![1, 515, 3]⟩ ![jn, 0, 0] Wt hs) hc (ix2 d k)
      = Wt (ix3 ⟨jn, hj⟩ d k) := by
  refine (shapeCast_apply _ hc (ix2 d k) (ix3 0 d k) ?_).trans
    (extractStridedSlice_apply _ Wt hs (ix3 0 d k) (ix3 ⟨jn, hj⟩ d k) fun a => ?_)
  · rw [Shape.rowMajor_val_three, Shape.rowMajor_val_two]
    show (0 * 515 + d.val) * 3 + k.val = d.val * 3 + k.val
    omega
  · match a with
    | ⟨0, _⟩ => show jn = jn + 0; omega
    | ⟨1, _⟩ => show d.val = 0 + d.val; omega
    | ⟨2, _⟩ => show k.val = 0 + k.val; omega

/-- Row `jn` of a `[22, 3]` array, reshaped to a vector, read at `k`: the array at `(jn, k)`. -/
theorem bias_row_apply (bt : (⟨2, ![22, 3]⟩ : Shape).Idx → α) (jn : Nat) (hj : jn < 22)
    (hs : (⟨2, ![22, 3]⟩ : Shape).Slices ![jn, 0] ⟨2, ![1, 3]⟩)
    (hc : (⟨2, ![1, 3]⟩ : Shape).ShapeCasts ⟨1, ![3]⟩) (k : Fin 3) :
    shapeCast ⟨1, ![3]⟩ (extractStridedSlice ⟨2, ![1, 3]⟩ ![jn, 0] bt hs) hc (ix1 k) = bt (ix2 ⟨jn, hj⟩ k) := by
  refine (shapeCast_apply _ hc (ix1 k) (ix2 0 k) ?_).trans
    (extractStridedSlice_apply _ bt hs (ix2 0 k) (ix2 ⟨jn, hj⟩ k) fun a => ?_)
  · rw [Shape.rowMajor_val_two, Shape.rowMajor_val_one]
    show 0 * 3 + k.val = k.val
    omega
  · match a with
    | ⟨0, _⟩ => show jn = jn + 0; omega
    | ⟨1, _⟩ => show k.val = 0 + k.val; omega

/-- The context row followed by the parent's three numbers, read at `(r, d)`: the joined row of the specification. -/
theorem cat_joined (h : Shape.Concatenates [(⟨2, ![R, 512]⟩ : Shape), ⟨2, ![R, 3]⟩] ⟨2, ![R, 515]⟩ 1)
    (X : Cert.Joints.Mat R 512) (P : Cert.Joints.Mat R 3) (r : Fin R) (d : Fin 515) :
    concatenate ⟨2, ![R, 515]⟩ 1 [⟨⟨2, ![R, 512]⟩, X⟩, ⟨⟨2, ![R, 3]⟩, P⟩] h (ix2 r d) = Cert.Joints.joined X P r d := by
  unfold Cert.Joints.joined
  by_cases hd : d.val < 512
  · rw [dif_pos hd]
    have e : d = Fin.castAdd 3 (⟨d.val, hd⟩ : Fin 512) := Fin.ext rfl
    exact (congrArg (fun q : Fin 515 => concatenate ⟨2, ![R, 515]⟩ 1 [⟨⟨2, ![R, 512]⟩, X⟩, ⟨⟨2, ![R, 3]⟩, P⟩] h (ix2 r q)) e).trans
      (Cert.Cat.cat2_cols_left (A := 512) (B := 3) h X P r ⟨d.val, hd⟩)
  · rw [dif_neg hd]
    have hlt : d.val - 512 < 3 := by have := d.isLt; omega
    have e : d = Fin.natAdd 512 (⟨d.val - 512, hlt⟩ : Fin 3) := Fin.ext (by show d.val = 512 + (d.val - 512); omega)
    exact (congrArg (fun q : Fin 515 => concatenate ⟨2, ![R, 515]⟩ 1 [⟨⟨2, ![R, 512]⟩, X⟩, ⟨⟨2, ![R, 3]⟩, P⟩] h (ix2 r q)) e).trans
      (Cert.Cat.cat2_cols_right (A := 512) (B := 3) h X P r ⟨d.val - 512, hlt⟩)

/-- ONE CHILD JOINT. The program's term for joint `jn` — the joined row contracted with block `jn` of the weights, plus
    row `jn` of the biases broadcast down the rows, through the hyperbolic tangent, times the splat of the scale — is
    the specification's child joint of the same parent. -/
theorem child_ref
    (dd : DotDims ⟨2, ![R, 515]⟩ ⟨2, ![515, 3]⟩ ⟨2, ![R, 3]⟩) (hdd : dd = DotDims.plain R 515 3)
    (hcat : Shape.Concatenates [(⟨2, ![R, 512]⟩ : Shape), ⟨2, ![R, 3]⟩] ⟨2, ![R, 515]⟩ 1)
    (jn : Nat) (hj : jn < 22)
    (hsW : (⟨3, ![22, 515, 3]⟩ : Shape).Slices ![jn, 0, 0] ⟨3, ![1, 515, 3]⟩)
    (hcW : (⟨3, ![1, 515, 3]⟩ : Shape).ShapeCasts ⟨2, ![515, 3]⟩)
    (hsb : (⟨2, ![22, 3]⟩ : Shape).Slices ![jn, 0] ⟨2, ![1, 3]⟩)
    (hcb : (⟨2, ![1, 3]⟩ : Shape).ShapeCasts ⟨1, ![3]⟩)
    (hb1 : (⟨1, ![3]⟩ : Shape).BroadcastsInDim ⟨2, ![1, 3]⟩ ![1])
    (hb2 : (⟨2, ![1, 3]⟩ : Shape).BroadcastsInDim ⟨2, ![R, 3]⟩ ![0, 1])
    (hb0 : (⟨0, ![]⟩ : Shape).BroadcastsInDim ⟨2, ![R, 3]⟩ (![] : Fin 0 → Fin 2))
    (X : FVec Ideal ⟨2, ![R, 512]⟩ .f32) (P : FVec Ideal ⟨2, ![R, 3]⟩ .f32)
    (Wt : FVec Ideal ⟨3, ![22, 515, 3]⟩ .f32) (bt : FVec Ideal ⟨2, ![22, 3]⟩ .f32) :
    mulf (Host.tanh (addf
        (Host.dotGeneral dd none
          (concatenate ⟨2, ![R, 515]⟩ 1 [⟨⟨2, ![R, 512]⟩, X⟩, ⟨⟨2, ![R, 3]⟩, P⟩] hcat)
          (shapeCast ⟨2, ![515, 3]⟩ (extractStridedSlice ⟨3, ![1, 515, 3]⟩ ![jn, 0, 0] Wt hsW) hcW))
        (broadcastInDim ⟨2, ![R, 3]⟩ ![0, 1] hb2 (broadcastInDim ⟨2, ![1, 3]⟩ ![1] hb1
          (shapeCast ⟨1, ![3]⟩ (extractStridedSlice ⟨2, ![1, 3]⟩ ![jn, 0] bt hsb) hcb)))))
      (broadcastInDim ⟨2, ![R, 3]⟩ ![] hb0 (constant (F := Ideal) ⟨0, ![]⟩ .f32 0x40490FDA#32))
    = Cert.Joints.child Wt bt ⟨jn, hj⟩ X P := by
  subst hdd
  funext i
  obtain ⟨r, k, rfl⟩ : ∃ (r : Fin R) (k : Fin 3), i = ix2 r k := ⟨i 0, i 1, eq_ix2 i⟩
  show _ = Cert.Joints.childAt Wt bt ⟨jn, hj⟩ X P r k
  unfold Cert.Joints.childAt Cert.Joints.act
  refine (mulf_apply _ _ _).trans (congrArg₂ (· * ·) ?_ (Cert.Layout.splat_apply hb0 _ _))
  refine congrArg Ideal.tanh ((addf_apply _ _ _).trans (congrArg₂ (· + ·) ?_ ?_))
  · refine (Cert.MatProd.dotGeneral_plain_apply none .single _ _ r k).trans (Finset.sum_congr rfl fun d _ => ?_)
    exact congrArg₂ (· * ·) (cat_joined hcat X P r d) (weight_block_apply Wt jn hj hsW hcW d k)
  · exact (Cert.Layout.rows_of_vec_apply _ hb1 hb2 r k).trans (bias_row_apply bt jn hj hsb hcb k)

/-- THE ROOT JOINT. The program's term — the context rows contracted with the root's weight matrix, plus the root's bias
    broadcast down the rows, through the hyperbolic tangent, times the splat of the scale — is the specification's root. -/
theorem root_ref
    (dd : DotDims ⟨2, ![R, 512]⟩ ⟨2, ![512, 3]⟩ ⟨2, ![R, 3]⟩) (hdd : dd = DotDims.plain R 512 3)
    (hb1 : (⟨1, ![3]⟩ : Shape).BroadcastsInDim ⟨2, ![1, 3]⟩ ![1])
    (hb2 : (⟨2, ![1, 3]⟩ : Shape).BroadcastsInDim ⟨2, ![R, 3]⟩ ![0, 1])
    (hb0 : (⟨0, ![]⟩ : Shape).BroadcastsInDim ⟨2, ![R, 3]⟩ (![] : Fin 0 → Fin 2))
    (X : FVec Ideal ⟨2, ![R, 512]⟩ .f32) (W0 : FVec Ideal ⟨2, ![512, 3]⟩ .f32) (b0 : FVec Ideal ⟨1, ![3]⟩ .f32) :
    mulf (Host.tanh (addf (Host.dotGeneral dd none X W0)
        (broadcastInDim ⟨2, ![R, 3]⟩ ![0, 1] hb2 (broadcastInDim ⟨2, ![1, 3]⟩ ![1] hb1 b0))))
      (broadcastInDim ⟨2, ![R, 3]⟩ ![] hb0 (constant (F := Ideal) ⟨0, ![]⟩ .f32 0x40490FDA#32))
    = Cert.Joints.root X W0 b0 := by
  subst hdd
  funext i
  obtain ⟨r, k, rfl⟩ : ∃ (r : Fin R) (k : Fin 3), i = ix2 r k := ⟨i 0, i 1, eq_ix2 i⟩
  show _ = Cert.Joints.rootAt X W0 b0 r k
  unfold Cert.Joints.rootAt Cert.Joints.act
  refine (mulf_apply _ _ _).trans (congrArg₂ (· * ·) ?_ (Cert.Layout.splat_apply hb0 _ _))
  refine congrArg Ideal.tanh ((addf_apply _ _ _).trans (congrArg₂ (· + ·) ?_ ?_))
  · exact Cert.MatProd.dotGeneral_plain_apply none .single _ _ r k
  · exact Cert.Layout.rows_of_vec_apply _ hb1 hb2 r k

end Cert.RefJoints

end
-- ==== Proof.RefJointsB.lean ====
/-
  The reference program's 22 joints, each equal to the specification's joint of the same number: the root by the root
  lemma, every other joint by the child lemma applied to its parent's equation. Five joints have no name in the
  program's printed result (they are read once); their terms are stated here in full.
-/
import proofs.«137270_j20160576487702_2_alg».proof.Proof.Gen.ReferenceIdeal.Run
import proofs.«137270_j20160576487702_2_alg».proof.Proof.RefJointsA

set_option maxRecDepth 16384

noncomputable section

namespace Cert.RefJoints

open Cert.ReferenceIdeal Cert.ReferenceIdeal.Gen Cert.ReferenceIdeal.Value
open Idealize.ShloMosaic Idealize.ShloMosaic.ValueIdx Idealize.ShloMosaic.StableHlo

/-- The two records of dimension numbers the program prints are the plain product's. -/
theorem dot512_plain : dot_S131072x512_S512x3_S131072x3_1_0_0_1_n_n = DotDims.plain 131072 512 3 := rfl
theorem dot515_plain : dot_S131072x515_S515x3_S131072x3_1_0_0_1_n_n = DotDims.plain 131072 515 3 := rfl

variable (V0 : Valuation τ sig (Elt Ideal))

/-- The five argument arrays at launch. -/
local notation "aX" => (V0 (Proc.devRef Proc.tc main_arg0))
local notation "aW0" => (V0 (Proc.devRef Proc.tc main_arg1))
local notation "ab0" => (V0 (Proc.devRef Proc.tc main_arg2))
local notation "aW" => (V0 (Proc.devRef Proc.tc main_arg3))
local notation "ab" => (V0 (Proc.devRef Proc.tc main_arg4))

theorem v6_eq : res_main_v6 (F := Ideal) V0 = Cert.Joints.j0 (R := 131072) aX aW0 ab0 := by
  unfold res_main_v6 Cert.Joints.j0
  exact root_ref (R := 131072) dot_S131072x512_S512x3_S131072x3_1_0_0_1_n_n dot512_plain
    bcast_S3_S1x3_1 bcast_S1x3_S131072x3_0_1 bcast_S_S131072x3 aX aW0 ab0

theorem v18_eq : res_main_v18 (F := Ideal) V0 = Cert.Joints.j2 (R := 131072) aX aW0 ab0 aW ab := by
  unfold res_main_v18 Cert.Joints.j2
  rw [← v6_eq V0]
  exact child_ref (R := 131072) dot_S131072x515_S515x3_S131072x3_1_0_0_1_n_n dot515_plain
    concatenates_S131072x512_S131072x3_S131072x515_d1 2 (by norm_num)
    slices_S22x515x3_S1x515x3_2_0_0 shapeCasts_S1x515x3_S515x3 slices_S22x3_S1x3_2_0 shapeCasts_S1x3_S3
    bcast_S3_S1x3_1 bcast_S1x3_S131072x3_0_1 bcast_S_S131072x3 aX (res_main_v6 V0) aW ab

theorem v30_eq : res_main_v30 (F := Ideal) V0 = Cert.Joints.j5 (R := 131072) aX aW0 ab0 aW ab := by
  unfold res_main_v30 Cert.Joints.j5
  rw [← v18_eq V0]
  exact child_ref (R := 131072) dot_S131072x515_S515x3_S131072x3_1_0_0_1_n_n dot515_plain
    concatenates_S131072x512_S131072x3_S131072x515_d1 5 (by norm_num)
    slices_S22x515x3_S1x515x3_5_0_0 shapeCasts_S1x515x3_S515x3 slices_S22x3_S1x3_5_0 shapeCasts_S1x3_S3
    bcast_S3_S1x3_1 bcast_S1x3_S131072x3_0_1 bcast_S_S131072x3 aX (res_main_v18 V0) aW ab

theorem v42_eq : res_main_v42 (F := Ideal) V0 = Cert.Joints.j8 (R := 131072) aX aW0 ab0 aW ab := by
  unfold res_main_v42 Cert.Joints.j8
  rw [← v30_eq V0]
  exact child_ref (R := 131072) dot_S131072x515_S515x3_S131072x3_1_0_0_1_n_n dot515_plain
    concatenates_S131072x512_S131072x3_S131072x515_d1 8 (by norm_num)
    slices_S22x515x3_S1x515x3_8_0_0 shapeCasts_S1x515x3_S515x3 slices_S22x3_S1x3_8_0 shapeCasts_S1x3_S3
    bcast_S3_S1x3_1 bcast_S1x3_S131072x3_0_1 bcast_S_S131072x3 aX (res_main_v30 V0) aW ab

theorem v66_eq : res_main_v66 (F := Ideal) V0 = Cert.Joints.j1 (R := 131072) aX aW0 ab0 aW ab := by
  unfold res_main_v66 Cert.Joints.j1
  rw [← v6_eq V0]
  exact child_ref (R := 131072) dot_S131072x515_S515x3_S131072x3_1_0_0_1_n_n dot515_plain
    concatenates_S131072x512_S131072x3_S131072x515_d1 1 (by norm_num)
    slices_S22x515x3_S1x515x3_1_0_0 shapeCasts_S1x515x3_S515x3 slices_S22x3_S1x3_1_0 shapeCasts_S1x3_S3
    bcast_S3_S1x3_1 bcast_S1x3_S131072x3_0_1 bcast_S_S131072x3 aX (res_main_v6 V0) aW ab

theorem v78_eq : res_main_v78 (F := Ideal) V0 = Cert.Joints.j4 (R := 131072) aX aW0 ab0 aW ab := by
  unfold res_main_v78 Cert.Joints.j4
  rw [← v66_eq V0]
  exact child_ref (R := 131072) dot_S131072x515_S515x3_S131072x3_1_0_0_1_n_n dot515_plain
    concatenates_S131072x512_S131072x3_S131072x515_d1 4 (by norm_num)
    slices_S22x515x3_S1x515x3_4_0_0 shapeCasts_S1x515x3_S515x3 slices_S22x3_S1x3_4_0 shapeCasts_S1x3_S3
    bcast_S3_S1x3_1 bcast_S1x3_S131072x3_0_1 bcast_S_S131072x3 aX (res_main_v66 V0) aW ab

theorem v90_eq : res_main_v90 (F := Ideal) V0 = Cert.Joints.j7 (R := 131072) aX aW0 ab0 aW ab := by
  unfold res_main_v90 Cert.Joints.j7
  rw [← v78_eq V0]
  exact child_ref (R := 131072) dot_S131072x515_S515x3_S131072x3_1_0_0_1_n_n dot515_plain
    concatenates_S131072x512_S131072x3_S131072x515_d1 7 (by norm_num)
    slices_S22x515x3_S1x515x3_7_0_0 shapeCasts_S1x515x3_S515x3 slices_S22x3_S1x3_7_0 shapeCasts_S1x3_S3
    bcast_S3_S1x3_1 bcast_S1x3_S131072x3_0_1 bcast_S_S131072x3 aX (res_main_v78 V0) aW ab

theorem v114_eq : res_main_v114 (F := Ideal) V0 = Cert.Joints.j3 (R := 131072) aX aW0 ab0 aW ab := by
  unfold res_main_v114 Cert.Joints.j3
  rw [← v6_eq V0]
  exact child_ref (R := 131072) dot_S131072x515_S515x3_S131072x3_1_0_0_1_n_n dot515_plain
    concatenates_S131072x512_S131072x3_S131072x515_d1 3 (by norm_num)
    slices_S22x515x3_S1x515x3_3_0_0 shapeCasts_S1x515x3_S515x3 slices_S22x3_S1x3_3_0 shapeCasts_S1x3_S3
    bcast_S3_S1x3_1 bcast_S1x3_S131072x3_0_1 bcast_S_S131072x3 aX (res_main_v6 V0) aW ab

theorem v126_eq : res_main_v126 (F := Ideal) V0 = Cert.Joints.j6 (R := 131072) aX aW0 ab0 aW ab := by
  unfold res_main_v126 Cert.Joints.j6
  rw [← v114_eq V0]
  exact child_ref (R := 131072) dot_S131072x515_S515x3_S131072x3_1_0_0_1_n_n dot515_plain
    concatenates_S131072x512_S131072x3_S131072x515_d1 6 (by norm_num)
    slices_S22x515x3_S1x515x3_6_0_0 shapeCasts_S1x515x3_S515x3 slices_S22x3_S1x3_6_0 shapeCasts_S1x3_S3
    bcast_S3_S1x3_1 bcast_S1x3_S131072x3_0_1 bcast_S_S131072x3 aX (res_main_v114 V0) aW ab

theorem v138_eq : res_main_v138 (F := Ideal) V0 = Cert.Joints.j9 (R := 131072) aX aW0 ab0 aW ab := by
  unfold res_main_v138 Cert.Joints.j9
  rw [← v126_eq V0]
  exact child_ref (R := 131072) dot_S131072x515_S515x3_S131072x3_1_0_0_1_n_n dot515_plain
    concatenates_S131072x512_S131072x3_S131072x515_d1 9 (by norm_num)
    slices_S22x515x3_S1x515x3_9_0_0 shapeCasts_S1x515x3_S515x3 slices_S22x3_S1x3_9_0 shapeCasts_S1x3_S3
    bcast_S3_S1x3_1 bcast_S1x3_S131072x3_0_1 bcast_S_S131072x3 aX (res_main_v126 V0) aW ab

theorem v150_eq : res_main_v150 (F := Ideal) V0 = Cert.Joints.j12 (R := 131072) aX aW0 ab0 aW ab := by
  unfold res_main_v150 Cert.Joints.j12
  rw [← v138_eq V0]
  exact child_ref (R := 131072) dot_S131072x515_S515x3_S131072x3_1_0_0_1_n_n dot515_plain
    concatenates_S131072x512_S131072x3_S131072x515_d1 12 (by norm_num)
    slices_S22x515x3_S1x515x3_12_0_0 shapeCasts_S1x515x3_S515x3 slices_S22x3_S1x3_12_0 shapeCasts_S1x3_S3
    bcast_S3_S1x3_1 bcast_S1x3_S131072x3_0_1 bcast_S_S131072x3 aX (res_main_v138 V0) aW ab

theorem v174_eq : res_main_v174 (F := Ideal) V0 = Cert.Joints.j14 (R := 131072) aX aW0 ab0 aW ab := by
  unfold res_main_v174 Cert.Joints.j14
  rw [← v138_eq V0]
  exact child_ref (R := 131072) dot_S131072x515_S515x3_S131072x3_1_0_0_1_n_n dot515_plain
    concatenates_S131072x512_S131072x3_S131072x515_d1 14 (by norm_num)
    slices_S22x515x3_S1x515x3_14_0_0 shapeCasts_S1x515x3_S515x3 slices_S22x3_S1x3_14_0 shapeCasts_S1x3_S3
    bcast_S3_S1x3_1 bcast_S1x3_S131072x3_0_1 bcast_S_S131072x3 aX (res_main_v138 V0) aW ab

theorem v186_eq : res_main_v186 (F := Ideal) V0 = Cert.Joints.j17 (R := 131072) aX aW0 ab0 aW ab := by
  unfold res_main_v186 Cert.Joints.j17
  rw [← v174_eq V0]
  exact child_ref (R := 131072) dot_S131072x515_S515x3_S131072x3_1_0_0_1_n_n dot515_plain
    concatenates_S131072x512_S131072x3_S131072x515_d1 17 (by norm_num)
    slices_S22x515x3_S1x515x3_17_0_0 shapeCasts_S1x515x3_S515x3 slices_S22x3_S1x3_17_0 shapeCasts_S1x3_S3
    bcast_S3_S1x3_1 bcast_S1x3_S131072x3_0_1 bcast_S_S131072x3 aX (res_main_v174 V0) aW ab

theorem v198_eq : res_main_v198 (F := Ideal) V0 = Cert.Joints.j19 (R := 131072) aX aW0 ab0 aW ab := by
  unfold res_main_v198 Cert.Joints.j19
  rw [← v186_eq V0]
  exact child_ref (R := 131072) dot_S131072x515_S515x3_S131072x3_1_0_0_1_n_n dot515_plain
    concatenates_S131072x512_S131072x3_S131072x515_d1 19 (by norm_num)
    slices_S22x515x3_S1x515x3_19_0_0 shapeCasts_S1x515x3_S515x3 slices_S22x3_S1x3_19_0 shapeCasts_S1x3_S3
    bcast_S3_S1x3_1 bcast_S1x3_S131072x3_0_1 bcast_S_S131072x3 aX (res_main_v186 V0) aW ab

theorem v222_eq : res_main_v222 (F := Ideal) V0 = Cert.Joints.j13 (R := 131072) aX aW0 ab0 aW ab := by
  unfold res_main_v222 Cert.Joints.j13
  rw [← v138_eq V0]
  exact child_ref (R := 131072) dot_S131072x515_S515x3_S131072x3_1_0_0_1_n_n dot515_plain
    concatenates_S131072x512_S131072x3_S131072x515_d1 13 (by norm_num)
    slices_S22x515x3_S1x515x3_13_0_0 shapeCasts_S1x515x3_S515x3 slices_S22x3_S1x3_13_0 shapeCasts_S1x3_S3
    bcast_S3_S1x3_1 bcast_S1x3_S131072x3_0_1 bcast_S_S131072x3 aX (res_main_v138 V0) aW ab

theorem v234_eq : res_main_v234 (F := Ideal) V0 = Cert.Joints.j16 (R := 131072) aX aW0 ab0 aW ab := by
  unfold res_main_v234 Cert.Joints.j16
  rw [← v222_eq V0]
  exact child_ref (R := 131072) dot_S131072x515_S515x3_S131072x3_1_0_0_1_n_n dot515_plain
    concatenates_S131072x512_S131072x3_S131072x515_d1 16 (by norm_num)
    slices_S22x515x3_S1x515x3_16_0_0 shapeCasts_S1x515x3_S515x3 slices_S22x3_S1x3_16_0 shapeCasts_S1x3_S3
    bcast_S3_S1x3_1 bcast_S1x3_S131072x3_0_1 bcast_S_S131072x3 aX (res_main_v222 V0) aW ab

theorem v246_eq : res_main_v246 (F := Ideal) V0 = Cert.Joints.j18 (R := 131072) aX aW0 ab0 aW ab := by
  unfold res_main_v246 Cert.Joints.j18
  rw [← v234_eq V0]
  exact child_ref (R := 131072) dot_S131072x515_S515x3_S131072x3_1_0_0_1_n_n dot515_plain
    concatenates_S131072x512_S131072x3_S131072x515_d1 18 (by norm_num)
    slices_S22x515x3_S1x515x3_18_0_0 shapeCasts_S1x515x3_S515x3 slices_S22x3_S1x3_18_0 shapeCasts_S1x3_S3
    bcast_S3_S1x3_1 bcast_S1x3_S131072x3_0_1 bcast_S_S131072x3 aX (res_main_v234 V0) aW ab

theorem j10_eq :
    (mulf (Host.tanh (addf (Host.dotGeneral (φ₁ := .f32) (φ₂ := .f32) dot_S131072x515_S515x3_S131072x3_1_0_0_1_n_n none (concatenate S131072x515 1 [⟨S131072x512, (V0 (Proc.devRef .tc main_arg0))⟩, ⟨S131072x3, (res_main_v90 V0)⟩] concatenates_S131072x512_S131072x3_S131072x515_d1) (shapeCast _ (extractStridedSlice S1x515x3 ![10, 0, 0] (V0 (Proc.devRef .tc main_arg3)) slices_S22x515x3_S1x515x3_10_0_0) shapeCasts_S1x515x3_S515x3)) (broadcastInDim S131072x3 ![0, 1] bcast_S1x3_S131072x3_0_1 (broadcastInDim S1x3 ![1] bcast_S3_S1x3_1 (shapeCast _ (extractStridedSlice S1x3 ![10, 0] (V0 (Proc.devRef .tc main_arg4)) slices_S22x3_S1x3_10_0) shapeCasts_S1x3_S3))))) (broadcastInDim S131072x3 ![] bcast_S_S131072x3 (constant S_ .f32 0x40490FDA#32)))
      = Cert.Joints.j10 (R := 131072) aX aW0 ab0 aW ab := by
  unfold Cert.Joints.j10
  rw [← v90_eq V0]
  exact child_ref (R := 131072) dot_S131072x515_S515x3_S131072x3_1_0_0_1_n_n dot515_plain
    concatenates_S131072x512_S131072x3_S131072x515_d1 10 (by norm_num)
    slices_S22x515x3_S1x515x3_10_0_0 shapeCasts_S1x515x3_S515x3 slices_S22x3_S1x3_10_0 shapeCasts_S1x3_S3
    bcast_S3_S1x3_1 bcast_S1x3_S131072x3_0_1 bcast_S_S131072x3 aX (res_main_v90 V0) aW ab

theorem j11_eq :
    (mulf (Host.tanh (addf (Host.dotGeneral (φ₁ := .f32) (φ₂ := .f32) dot_S131072x515_S515x3_S131072x3_1_0_0_1_n_n none (concatenate S131072x515 1 [⟨S131072x512, (V0 (Proc.devRef .tc main_arg0))⟩, ⟨S131072x3, (res_main_v42 V0)⟩] concatenates_S131072x512_S131072x3_S131072x515_d1) (shapeCast _ (extractStridedSlice S1x515x3 ![11, 0, 0] (V0 (Proc.devRef .tc main_arg3)) slices_S22x515x3_S1x515x3_11_0_0) shapeCasts_S1x515x3_S515x3)) (broadcastInDim S131072x3 ![0, 1] bcast_S1x3_S131072x3_0_1 (broadcastInDim S1x3 ![1] bcast_S3_S1x3_1 (shapeCast _ (extractStridedSlice S1x3 ![11, 0] (V0 (Proc.devRef .tc main_arg4)) slices_S22x3_S1x3_11_0) shapeCasts_S1x3_S3))))) (broadcastInDim S131072x3 ![] bcast_S_S131072x3 (constant S_ .f32 0x40490FDA#32)))
      = Cert.Joints.j11 (R := 131072) aX aW0 ab0 aW ab := by
  unfold Cert.Joints.j11
  rw [← v42_eq V0]
  exact child_ref (R := 131072) dot_S131072x515_S515x3_S131072x3_1_0_0_1_n_n dot515_plain
    concatenates_S131072x512_S131072x3_S131072x515_d1 11 (by norm_num)
    slices_S22x515x3_S1x515x3_11_0_0 shapeCasts_S1x515x3_S515x3 slices_S22x3_S1x3_11_0 shapeCasts_S1x3_S3
    bcast_S3_S1x3_1 bcast_S1x3_S131072x3_0_1 bcast_S_S131072x3 aX (res_main_v42 V0) aW ab

theorem j15_eq :
    (mulf (Host.tanh (addf (Host.dotGeneral (φ₁ := .f32) (φ₂ := .f32) dot_S131072x515_S515x3_S131072x3_1_0_0_1_n_n none (concatenate S131072x515 1 [⟨S131072x512, (V0 (Proc.devRef .tc main_arg0))⟩, ⟨S131072x3, (res_main_v150 V0)⟩] concatenates_S131072x512_S131072x3_S131072x515_d1) (shapeCast _ (extractStridedSlice S1x515x3 ![15, 0, 0] (V0 (Proc.devRef .tc main_arg3)) slices_S22x515x3_S1x515x3_15_0_0) shapeCasts_S1x515x3_S515x3)) (broadcastInDim S131072x3 ![0, 1] bcast_S1x3_S131072x3_0_1 (broadcastInDim S1x3 ![1] bcast_S3_S1x3_1 (shapeCast _ (extractStridedSlice S1x3 ![15, 0] (V0 (Proc.devRef .tc main_arg4)) slices_S22x3_S1x3_15_0) shapeCasts_S1x3_S3))))) (broadcastInDim S131072x3 ![] bcast_S_S131072x3 (constant S_ .f32 0x40490FDA#32)))
      = Cert.Joints.j15 (R := 131072) aX aW0 ab0 aW ab := by
  unfold Cert.Joints.j15
  rw [← v150_eq V0]
  exact child_ref (R := 131072) dot_S131072x515_S515x3_S131072x3_1_0_0_1_n_n dot515_plain
    concatenates_S131072x512_S131072x3_S131072x515_d1 15 (by norm_num)
    slices_S22x515x3_S1x515x3_15_0_0 shapeCasts_S1x515x3_S515x3 slices_S22x3_S1x3_15_0 shapeCasts_S1x3_S3
    bcast_S3_S1x3_1 bcast_S1x3_S131072x3_0_1 bcast_S_S131072x3 aX (res_main_v150 V0) aW ab

theorem j20_eq :
    (mulf (Host.tanh (addf (Host.dotGeneral (φ₁ := .f32) (φ₂ := .f32) dot_S131072x515_S515x3_S131072x3_1_0_0_1_n_n none (concatenate S131072x515 1 [⟨S131072x512, (V0 (Proc.devRef .tc main_arg0))⟩, ⟨S131072x3, (res_main_v246 V0)⟩] concatenates_S131072x512_S131072x3_S131072x515_d1) (shapeCast _ (extractStridedSlice S1x515x3 ![20, 0, 0] (V0 (Proc.devRef .tc main_arg3)) slices_S22x515x3_S1x515x3_20_0_0) shapeCasts_S1x515x3_S515x3)) (broadcastInDim S131072x3 ![0, 1] bcast_S1x3_S131072x3_0_1 (broadcastInDim S1x3 ![1] bcast_S3_S1x3_1 (shapeCast _ (extractStridedSlice S1x3 ![20, 0] (V0 (Proc.devRef .tc main_arg4)) slices_S22x3_S1x3_20_0) shapeCasts_S1x3_S3))))) (broadcastInDim S131072x3 ![] bcast_S_S131072x3 (constant S_ .f32 0x40490FDA#32)))
      = Cert.Joints.j20 (R := 131072) aX aW0 ab0 aW ab := by
  unfold Cert.Joints.j20
  rw [← v246_eq V0]
  exact child_ref (R := 131072) dot_S131072x515_S515x3_S131072x3_1_0_0_1_n_n dot515_plain
    concatenates_S131072x512_S131072x3_S131072x515_d1 20 (by norm_num)
    slices_S22x515x3_S1x515x3_20_0_0 shapeCasts_S1x515x3_S515x3 slices_S22x3_S1x3_20_0 shapeCasts_S1x3_S3
    bcast_S3_S1x3_1 bcast_S1x3_S131072x3_0_1 bcast_S_S131072x3 aX (res_main_v246 V0) aW ab

theorem j21_eq :
    (mulf (Host.tanh (addf (Host.dotGeneral (φ₁ := .f32) (φ₂ := .f32) dot_S131072x515_S515x3_S131072x3_1_0_0_1_n_n none (concatenate S131072x515 1 [⟨S131072x512, (V0 (Proc.devRef .tc main_arg0))⟩, ⟨S131072x3, (res_main_v198 V0)⟩] concatenates_S131072x512_S131072x3_S131072x515_d1) (shapeCast _ (extractStridedSlice S1x515x3 ![21, 0, 0] (V0 (Proc.devRef .tc main_arg3)) slices_S22x515x3_S1x515x3_21_0_0) shapeCasts_S1x515x3_S515x3)) (broadcastInDim S131072x3 ![0, 1] bcast_S1x3_S131072x3_0_1 (broadcastInDim S1x3 ![1] bcast_S3_S1x3_1 (shapeCast _ (extractStridedSlice S1x3 ![21, 0] (V0 (Proc.devRef .tc main_arg4)) slices_S22x3_S1x3_21_0) shapeCasts_S1x3_S3))))) (broadcastInDim S131072x3 ![] bcast_S_S131072x3 (constant S_ .f32 0x40490FDA#32)))
      = Cert.Joints.j21 (R := 131072) aX aW0 ab0 aW ab := by
  unfold Cert.Joints.j21
  rw [← v198_eq V0]
  exact child_ref (R := 131072) dot_S131072x515_S515x3_S131072x3_1_0_0_1_n_n dot515_plain
    concatenates_S131072x512_S131072x3_S131072x515_d1 21 (by norm_num)
    slices_S22x515x3_S1x515x3_21_0_0 shapeCasts_S1x515x3_S515x3 slices_S22x3_S1x3_21_0 shapeCasts_S1x3_S3
    bcast_S3_S1x3_1 bcast_S1x3_S131072x3_0_1 bcast_S_S131072x3 aX (res_main_v198 V0) aW ab

end Cert.RefJoints

end
-- ==== Proof.LibThreeColumnPieces.lean ====
/-
  Side-by-side concatenations read at a column. Two pieces `[R, A]` and `[R, B]`: a column below `A` reads the first
  piece at that column, any other column reads the second piece at the column less `A`. Any number of pieces
  `[R, 3]`: column `c` reads piece `c / 3` at column `c % 3`.
-/
import Idealize.ShloMosaic.PureOps.Ideal
import Idealize.ShloMosaic.Lib.Pipeline.Value
import Idealize.ShloMosaic.Lib.ValueIdx
import proofs.«137270_j20160576487702_2_alg».proof.Proof.LibCat

noncomputable section

namespace Cert.RefJoints

open Idealize.ShloMosaic Idealize.ShloMosaic.ValueIdx

variable {α : Type} {R : Nat}

/-- Two pieces side by side, read at a column below the first piece's width. -/
theorem cat_cols_lt {A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (c : Fin (A + B))
    (hc : c.val < A) :
    concatenate ⟨2, ![R, A + B]⟩ 1 [⟨⟨2, ![R, A]⟩, x₁⟩, ⟨⟨2, ![R, B]⟩, x₂⟩] h (ix2 r c) = x₁ (ix2 r ⟨c.val, hc⟩) := by
  have key : ∀ k : Fin A, c = Fin.castAdd B k →
      concatenate ⟨2, ![R, A + B]⟩ 1 [⟨⟨2, ![R, A]⟩, x₁⟩, ⟨⟨2, ![R, B]⟩, x₂⟩] h (ix2 r c) = x₁ (ix2 r k) := by
    rintro k rfl
    exact Cert.Cat.cat2_cols_left h x₁ x₂ r k
  exact key ⟨c.val, hc⟩ (Fin.ext rfl)

/-- Two pieces side by side, read at a column not below the first piece's width. -/
theorem cat_cols_ge {A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (c : Fin (A + B))
    (hc : ¬ c.val < A) :
    concatenate ⟨2, ![R, A + B]⟩ 1 [⟨⟨2, ![R, A]⟩, x₁⟩, ⟨⟨2, ![R, B]⟩, x₂⟩] h (ix2 r c)
      = x₂ (ix2 r ⟨c.val - A, by have := c.isLt; omega⟩) := by
  have key : ∀ k : Fin B, c = Fin.natAdd A k →
      concatenate ⟨2, ![R, A + B]⟩ 1 [⟨⟨2, ![R, A]⟩, x₁⟩, ⟨⟨2, ![R, B]⟩, x₂⟩] h (ix2 r c) = x₂ (ix2 r k) := by
    rintro k rfl
    exact Cert.Cat.cat2_cols_right h x₁ x₂ r k
  exact key ⟨c.val - A, by have := c.isLt; omega⟩ (Fin.ext (by show c.val = A + (c.val - A); omega))

/-- `N` pieces of three columns each side by side (piece `k` of the list is `f k`), read at column `c`: piece `c / 3` at
    column `c % 3`. -/
theorem cat_threes_apply {n N : Nat} (xs : List ((s : Shape) × (s.Idx → α))) (hN : xs.length = N)
    (f : Fin N → (⟨2, ![R, 3]⟩ : Shape).Idx → α)
    (hxs : ∀ (k : Nat) (hk : k < xs.length), xs[k] = ⟨⟨2, ![R, 3]⟩, f ⟨k, hN ▸ hk⟩⟩)
    (h : Shape.Concatenates (xs.map (·.1)) ⟨2, ![R, n]⟩ 1) (r : Fin R) (c : Fin n) (hc : c.val / 3 < N) :
    concatenate ⟨2, ![R, n]⟩ 1 xs h (ix2 r c)
      = f ⟨c.val / 3, hc⟩ (ix2 r ⟨c.val % 3, Nat.mod_lt _ (by norm_num)⟩) := by
  have hk : c.val / 3 < xs.length := hN ▸ hc
  refine concatenate_apply_piece 1 xs h (ix2 r c) (c.val / 3) hk ⟨2, ![R, 3]⟩ (f ⟨c.val / 3, hc⟩) (hxs _ hk) rfl
    (3 * (c.val / 3)) ?_ (ix2 r ⟨c.val % 3, Nat.mod_lt _ (by norm_num)⟩) (fun b hb => ?_) ?_
  · -- every piece before piece `c / 3` is three columns wide
    have hall : ∀ x ∈ (((xs.take (c.val / 3)).map (·.1)).map fun s : Shape =>
        if h : s.rank = (⟨2, ![R, n]⟩ : Shape).rank then s.size ((1 : Fin 2).cast h.symm) else 0), x = 3 := by
      intro x hx
      simp only [List.map_map, List.mem_map, Function.comp] at hx
      obtain ⟨p, hp, rfl⟩ := hx
      obtain ⟨i, hi, rfl⟩ := List.getElem_of_mem (List.mem_of_mem_take hp)
      rw [hxs i hi]
      rfl
    rw [List.eq_replicate_of_mem hall, List.sum_replicate_nat, List.length_map, List.length_map, List.length_take,
      Nat.min_eq_left (Nat.le_of_lt hk), Nat.mul_comm]
  · match b with
    | ⟨0, _⟩ => rfl
    | ⟨1, _⟩ => exact absurd rfl hb
  · show 3 * (c.val / 3) + c.val % 3 = c.val
    exact Nat.div_add_mod _ _

end Cert.RefJoints

end
-- ==== Proof.RefJoints.lean ====
/-
  The reference program's result is the specification's layer of the five argument arrays. The result lays 22 pieces
  of three columns side by side, in two groups of 16 and 6; column `c` reads piece `c / 3` at column `c % 3`, and
  piece `k` is the specification's joint `k`.
-/
import proofs.«137270_j20160576487702_2_alg».proof.Proof.RefJointsB
import proofs.«137270_j20160576487702_2_alg».proof.Proof.LibThreeColumnPieces

set_option maxRecDepth 16384

noncomputable section

namespace Cert.RefJoints

open Cert.ReferenceIdeal Cert.ReferenceIdeal.Gen Cert.ReferenceIdeal.Value
open Idealize.ShloMosaic Idealize.ShloMosaic.ValueIdx Idealize.ShloMosaic.StableHlo

variable (V0 : Valuation τ sig (Elt Ideal))

/-- The five argument arrays at launch. -/
local notation "aX" => (V0 (Proc.devRef Proc.tc main_arg0))
local notation "aW0" => (V0 (Proc.devRef Proc.tc main_arg1))
local notation "ab0" => (V0 (Proc.devRef Proc.tc main_arg2))
local notation "aW" => (V0 (Proc.devRef Proc.tc main_arg3))
local notation "ab" => (V0 (Proc.devRef Proc.tc main_arg4))

/-- THE REFERENCE'S RESULT IS THE LAYER. -/
theorem result_eq :
    res_main_v261 (F := Ideal) V0 = Cert.Joints.out (R := 131072) aX aW0 ab0 aW ab := by
  funext i
  obtain ⟨r, c, rfl⟩ : ∃ (r : Fin 131072) (c : Fin 66), i = ix2 r c := ⟨i 0, i 1, eq_ix2 i⟩
  show _ = Cert.Joints.outAt aX aW0 ab0 aW ab r c
  unfold res_main_v261 Cert.Joints.outAt
  by_cases hc : c.val < 48
  · -- a column of the first group: joints 0 … 15
    refine (cat_cols_lt (A := 48) (B := 18) concatenates_S131072x48_S131072x18_S131072x66_d1 _ _ r c hc).trans ?_
    refine (cat_threes_apply (N := 16) _ (by rfl) (fun k => Cert.Joints.joint aX aW0 ab0 aW ab k.val) ?_ _
      r ⟨c.val, hc⟩ (by show c.val / 3 < 16; omega)).trans ?_
    · intro k hk
      match k, hk with
      | 0, _ => exact congrArg (Sigma.mk _) (v6_eq V0)
      | 1, _ => exact congrArg (Sigma.mk _) (v66_eq V0)
      | 2, _ => exact congrArg (Sigma.mk _) (v18_eq V0)
      | 3, _ => exact congrArg (Sigma.mk _) (v114_eq V0)
      | 4, _ => exact congrArg (Sigma.mk _) (v78_eq V0)
      | 5, _ => exact congrArg (Sigma.mk _) (v30_eq V0)
      | 6, _ => exact congrArg (Sigma.mk _) (v126_eq V0)
      | 7, _ => exact congrArg (Sigma.mk _) (v90_eq V0)
      | 8, _ => exact congrArg (Sigma.mk _) (v42_eq V0)
      | 9, _ => exact congrArg (Sigma.mk _) (v138_eq V0)
      | 10, _ => exact congrArg (Sigma.mk _) (j10_eq V0)
      | 11, _ => exact congrArg (Sigma.mk _) (j11_eq V0)
      | 12, _ => exact congrArg (Sigma.mk _) (v150_eq V0)
      | 13, _ => exact congrArg (Sigma.mk _) (v222_eq V0)
      | 14, _ => exact congrArg (Sigma.mk _) (v174_eq V0)
      | 15, _ => exact congrArg (Sigma.mk _) (j15_eq V0)
      | n + 16, hk => exact absurd hk (by simp only [List.length_cons, List.length_nil]; omega)
    · rfl
  · -- a column of the second group: joints 16 … 21
    have hlt : c.val < 66 := c.isLt
    refine (cat_cols_ge (A := 48) (B := 18) concatenates_S131072x48_S131072x18_S131072x66_d1 _ _ r c hc).trans ?_
    refine (cat_threes_apply (N := 6) _ (by rfl) (fun k => Cert.Joints.joint aX aW0 ab0 aW ab (16 + k.val)) ?_ _
      r ⟨c.val - 48, by omega⟩ (by show (c.val - 48) / 3 < 6; omega)).trans ?_
    · intro k hk
      match k, hk with
      | 0, _ => exact congrArg (Sigma.mk _) (v234_eq V0)
      | 1, _ => exact congrArg (Sigma.mk _) (v186_eq V0)
      | 2, _ => exact congrArg (Sigma.mk _) (v246_eq V0)
      | 3, _ => exact congrArg (Sigma.mk _) (v198_eq V0)
      | 4, _ => exact congrArg (Sigma.mk _) (j20_eq V0)
      | 5, _ => exact congrArg (Sigma.mk _) (j21_eq V0)
      | n + 6, hk => exact absurd hk (by simp only [List.length_cons, List.length_nil]; omega)
    · have h1 : 16 + (c.val - 48) / 3 = c.val / 3 := by omega
      have h2 : (c.val - 48) % 3 = c.val % 3 := by omega
      exact congrArg₂ (fun (a : Nat) (b : Fin 3) => Cert.Joints.joint aX aW0 ab0 aW ab a (ix2 r b)) h1 (Fin.ext h2)

end Cert.RefJoints

end
-- ==== Proof.lean ====
/-
  The certificate's five claims. Both programs compute one layer of 22 three-number joints per context row: the
  root is `tanh(x · W0 + b0) · π̃`; every other joint applies `tanh(· ) · π̃` to its weight matrix contracted with the
  context row followed by its parent's three numbers, plus its bias. The reference contracts the joined row of 515
  numbers at once; the kernel fuses all joints' context-side weights into one product, adds the bias, and adds the
  three parent terms afterwards. Over the extended reals the two groupings of that sum agree without any hypothesis
  on the entries (addition is associative and commutative there), a change of float format is the identity, and the
  padding lanes of the fused arrays are never read; so the precondition is not used by the value claim.
  The kernel programs' frames run the one pallas_call point by point; the reference's frame is its run.
-/
import proofs.«137270_j20160576487702_2_alg».proof.Defs
import proofs.«137270_j20160576487702_2_alg».proof.Proof.Gen.Kernel
import proofs.«137270_j20160576487702_2_alg».proof.Proof.Gen.KernelIdeal
import proofs.«137270_j20160576487702_2_alg».proof.Proof.Gen.ReferenceIdeal
import proofs.«137270_j20160576487702_2_alg».proof.Proof.Gen.Pre_finite_inputs
import proofs.«137270_j20160576487702_2_alg».proof.Proof.Gen.ReferenceIdeal.Run
import proofs.«137270_j20160576487702_2_alg».proof.Proof.BitsFrame
import proofs.«137270_j20160576487702_2_alg».proof.Proof.IdealValue
import proofs.«137270_j20160576487702_2_alg».proof.Proof.Prelude
import proofs.«137270_j20160576487702_2_alg».proof.Proof.RefJoints
import Idealize.ShloMosaic.Adequacy
import Idealize.ShloMosaic.Init

noncomputable section

namespace Cert.Proof

open Idealize.ShloMosaic Idealize.SL.Sem

/-- The kernel program as printed runs to the end, faults nowhere and leaves its arguments as launched. -/
theorem frame_k : Cert.frame_Kernel := fun m ρ _ => Cert.Kernel.Entry.frame m ρ

/-- So does its idealization. -/
theorem frame_ki : Cert.frame_KernelIdeal := fun m ρ _ => Cert.KernelIdeal.Entry.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the layer's result on the launched arrays. -/
theorem algebraic : Cert.algebraic_KernelIdeal_ReferenceIdeal := by
  intro m ρ m' ρ' _ hagree
  refine ⟨fun c => Cert.KernelIdeal.BlockValue.G m c,
    Cert.KernelIdeal.BlockValue.kernel_run m (Cert.KernelIdeal.Prelude.prelude_fused m) ρ, ?_⟩
  refine (θ_run Cert.ReferenceIdeal.defs _ _).mono (fun _ h c => ⟨(h c).1.trans ?_, (h c).2⟩)
    (Cert.ReferenceIdeal.Value.run (F := Ideal) m' ρ')
  rw [Cert.RefJoints.result_eq]
  obtain ⟨h0, h1, h2, h3, h4⟩ := hagree c
  unfold Cert.KernelIdeal.BlockValue.G
  show Cert.Joints.out (R := 131072) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) = _
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
